-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S50x20000 : Shape := ⟨2, ![50, 20000]⟩
abbrev S20000x8000 : Shape := ⟨2, ![20000, 8000]⟩
abbrev S_ : Shape := ⟨0, ![]⟩

class Facts : Prop where
  bcast_S_S20000 : S_.BroadcastsInDim S20000 (![] : Fin 0 → Fin S20000.rank)
  reducesTo_S20000_S_d0 : S20000.ReducesTo [0] S_
  h_S_ : 0 < S_.numel
  bcast_S_S50x20000 : S_.BroadcastsInDim S50x20000 (![] : Fin 0 → Fin S50x20000.rank)
  reducesTo_S50x20000_S_d0_1 : S50x20000.ReducesTo [0, 1] S_
  bcast_S_S20000x8000 : S_.BroadcastsInDim S20000x8000 (![] : Fin 0 → Fin S20000x8000.rank)
  reducesTo_S20000x8000_S_d0_1 : S20000x8000.ReducesTo [0, 1] S_

variable [Facts]

def fn {F : FTy → Type} [FloatOps F] (main_arg0 : FVec F S20000 .f32) (main_arg1 : FVec F S50x20000 .f32) (main_arg2 : FVec F S20000x8000 .f32) : IVec S_ 1 :=
  let main_v0 : FVec F S20000 .f32 := Host.absf main_arg0
  let main_cst : FVec F S_ .f32 := constant S_ .f32 0x7F800000#32
  let main_v1 : FVec F S20000 .f32 := broadcastInDim S20000 ![] bcast_S_S20000 main_cst
  let main_v2 : IVec S20000 1 := cmpf .olt main_v0 main_v1
  let main_c : IVec S_ 1 := constantI S_ 1 1#1
  let main_v3 : IVec S_ 1 := (fun x v => Host.reduce IntOp.andi x v reducesTo_S20000_S_d0 h_S_) main_v2 main_c
  let main_v4 : FVec F S50x20000 .f32 := Host.absf main_arg1
  let main_cst_0 : FVec F S_ .f32 := constant S_ .f32 0x7F800000#32
  let main_v5 : FVec F S50x20000 .f32 := broadcastInDim S50x20000 ![] bcast_S_S50x20000 main_cst_0
  let main_v6 : IVec S50x20000 1 := cmpf .olt main_v4 main_v5
  let main_c_1 : IVec S_ 1 := constantI S_ 1 1#1
  let main_v7 : IVec S_ 1 := (fun x v => Host.reduce IntOp.andi x v reducesTo_S50x20000_S_d0_1 h_S_) main_v6 main_c_1
  let main_v8 : IVec S_ 1 := andi main_v3 main_v7
  let main_v9 : FVec F S20000x8000 .f32 := Host.absf main_arg2
  let main_cst_2 : FVec F S_ .f32 := constant S_ .f32 0x7F800000#32
  let main_v10 : FVec F S20000x8000 .f32 := broadcastInDim S20000x8000 ![] bcast_S_S20000x8000 main_cst_2
  let main_v11 : IVec S20000x8000 1 := cmpf .olt main_v9 main_v10
  let main_c_3 : IVec S_ 1 := constantI S_ 1 1#1
  let main_v12 : IVec S_ 1 := (fun x v => Host.reduce IntOp.andi x v reducesTo_S20000x8000_S_d0_1 h_S_) main_v11 main_c_3
  let main_v13 : IVec S_ 1 := andi main_v8 main_v12
  main_v13
-- ==== Kernel.lean ====
abbrev S20000 : Shape := ⟨1, ![20000]⟩
abbrev S50x20000 : Shape := ⟨2, ![50, 20000]⟩
abbrev S20000x8000 : Shape := ⟨2, ![20000, 8000]⟩
abbrev S1 : Shape := ⟨1, ![1]⟩
abbrev S50 : Shape := ⟨1, ![50]⟩
abbrev S50x1 : Shape := ⟨2, ![50, 1]⟩
abbrev S49x20000 : Shape := ⟨2, ![49, 20000]⟩
abbrev S49 : Shape := ⟨1, ![49]⟩
abbrev S49x1 : Shape := ⟨2, ![49, 1]⟩
abbrev S1x20000 : Shape := ⟨2, ![1, 20000]⟩
abbrev S20000x50 : Shape := ⟨2, ![20000, 50]⟩
abbrev S50x8000 : Shape := ⟨2, ![50, 8000]⟩
abbrev S200x50 : Shape := ⟨2, ![200, 50]⟩
abbrev S200x8000 : Shape := ⟨2, ![200, 8000]⟩

abbrev nBuf : Space → Nat
  | .hbm => 8
  | .vmem => 11
  | .smem => 0
  | _ => 0

abbrev bufTy : (tb : Table) → Fin (tcTables nBuf tb) → BufTy
  | .hbm, ⟨0, _⟩ => ⟨S20000, .f32⟩
  | .hbm, ⟨1, _⟩ => ⟨S50x20000, .f32⟩
  | .hbm, ⟨2, _⟩ => ⟨S20000x8000, .f32⟩
  | .hbm, ⟨3, _⟩ => ⟨S50x20000, .f32⟩
  | .hbm, ⟨4, _⟩ => ⟨S1, .f32⟩
  | .hbm, ⟨5, _⟩ => ⟨S1, .f32⟩
  | .hbm, ⟨6, _⟩ => ⟨S20000x50, .f32⟩
  | .hbm, ⟨7, _⟩ => ⟨S50x8000, .f32⟩
  | .local _ .vmem, ⟨0, _⟩ => ⟨S20000, .f32⟩
  | .local _ .vmem, ⟨1, _⟩ => ⟨S50x20000, .f32⟩
  | .local _ .vmem, ⟨2, _⟩ => ⟨S50x20000, .f32⟩
  | .local _ .vmem, ⟨3, _⟩ => ⟨S1, .f32⟩
  | .local _ .vmem, ⟨4, _⟩ => ⟨S1, .f32⟩
  | .local _ .vmem, ⟨5, _⟩ => ⟨S200x50, .f32⟩
  | .local _ .vmem, ⟨6, _⟩ => ⟨S200x50, .f32⟩
  | .local _ .vmem, ⟨7, _⟩ => ⟨S200x8000, .f32⟩
  | .local _ .vmem, ⟨8, _⟩ => ⟨S200x8000, .f32⟩
  | .local _ .vmem, ⟨9, _⟩ => ⟨S50x8000, .f32⟩
  | .local _ .vmem, ⟨10, _⟩ => ⟨S50x8000, .f32⟩
  | _, _ => ⟨S20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S50x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S50x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def k1_cond2 (i : grid1.Coords) : BitVec 1 :=
  let arg0 : BitVec 32 := BitVec.ofNat 32 (i 0).val
  let c99_i32 : BitVec 32 := 99#32
  let v14 : BitVec 1 := Scalar.cmpi .eq arg0 c99_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S200x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x8000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x8000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S50x20000_S50x20000_0_0 : ∀ a, (![0, 0] : Fin 2 → Nat) a + S50x20000.size a ≤ S50x20000.size a
  h_S50x20000 : 0 < S50x20000.numel
  reduces_S50x20000_S50 : S50x20000.Reduces [1] S50
  shapeCasts_S50_S50x1 : S50.ShapeCasts S50x1
  broadcasts_S50x1_S50x20000 : S50x1.Broadcasts S50x20000
  inb_S20000_S20000_0 : ∀ a, (![0] : Fin 1 → Nat) a + S20000.size a ≤ S20000.size a
  h_S20000 : 0 < S20000.numel
  slices_S50x20000_o0_0_S49x20000 : S50x20000.Slices ![0, 0] S49x20000
  slices_S50x20000_o1_0_S49x20000 : S50x20000.Slices ![1, 0] S49x20000
  natLt_1_32 : 1 < 32
  reduces_S49x20000_S49 : S49x20000.Reduces [1] S49
  shapeCasts_S49_S49x1 : S49.ShapeCasts S49x1
  broadcasts_S49x1_S49x20000 : S49x1.Broadcasts S49x20000
  shapeCasts_S20000_S1x20000 : S20000.ShapeCasts S1x20000
  broadcasts_S1x20000_S49x20000 : S1x20000.Broadcasts S49x20000
  reduces_S49x1_S1 : S49x1.Reduces [0] S1
  inb_S1_S1_0 : ∀ a, (![0] : Fin 1 → Nat) a + S1.size a ≤ S1.size a
  h_S1 : 0 < S1.numel
  reduces_S50x1_S1 : S50x1.Reduces [0] S1
  transposes_S50x20000_S20000x50_1_0 : S50x20000.Transposes [1, 0] S20000x50
  inb_S50x8000_S50x8000_0_0 : ∀ a, (![0, 0] : Fin 2 → Nat) a + S50x8000.size a ≤ S50x8000.size a
  h_S50x8000 : 0 < S50x8000.numel
  shapeCasts_S50x8000_S50x8000 : S50x8000.ShapeCasts S50x8000
  inb_S200x50_S200x50_0_0 : ∀ a, (![0, 0] : Fin 2 → Nat) a + S200x50.size a ≤ S200x50.size a
  h_S200x50 : 0 < S200x50.numel
  shapeCasts_S200x50_S200x50 : S200x50.ShapeCasts S200x50
  bitsLt_bf16_f32 : FTy.bits .bf16 < FTy.bits .f32
  inb_S200x8000_S200x8000_0_0 : ∀ a, (![0, 0] : Fin 2 → Nat) a + S200x8000.size a ≤ S200x8000.size a
  h_S200x8000 : 0 < S200x8000.numel
  dot_S200x50_S200x8000_S50x8000_0_0_1_1_n_n_wf : DotDims.WF S200x50 S200x8000 S50x8000 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S20000.size a ≤ S20000.size a
  hwx0_0 : ∀ i : grid0.Coords, EltTy.bits .f32 = 32 ∨ (Rect.block (s := S20000) S20000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x20000.size a ≤ S50x20000.size a
  hwx0_1 : ∀ i : grid0.Coords, EltTy.bits .f32 = 32 ∨ (Rect.block (s := S50x20000) S50x20000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x20000.size a ≤ S50x20000.size a
  hwx0_2 : ∀ i : grid0.Coords, EltTy.bits .f32 = 32 ∨ (Rect.block (s := S50x20000) S50x20000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x50.size a ≤ S20000x50.size a
  hwx1_0 : ∀ i : grid1.Coords, EltTy.bits .f32 = 32 ∨ (Rect.block (s := S20000x50) S200x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x8000.size a ≤ S20000x8000.size a
  hwx1_1 : ∀ i : grid1.Coords, EltTy.bits .f32 = 32 ∨ (Rect.block (s := S20000x8000) S200x8000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x8000.size a ≤ S50x8000.size a
  hwx1_2 : ∀ i : grid1.Coords, EltTy.bits .f32 = 32 ∨ (Rect.block (s := S50x8000) S50x8000.size (cc1_transform_2 i) (hinb1_2 i)).WholeWords (EltTy.packing .f32)

variable [Facts₀]

def dot_S200x50_S200x8000_S50x8000_0_0_1_1_n_n : DotDims S200x50 S200x8000 S50x8000 where
  lhsContracting := [0]
  rhsContracting := [0]
  lhsNonContracting := [1]
  rhsNonContracting := [1]
  lhsBatch := []
  rhsBatch := []
  wf := dot_S200x50_S200x8000_S50x8000_0_0_1_1_n_n_wf

abbrev win0_0 : Pipeline.Window sig grid0 :=
  Pipeline.Window.ofSpec (Memref.whole main_arg0) S20000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x20000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S50x20000.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S200x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x8000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S50x8000.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S20000 : Shape := ⟨1, ![20000]⟩
abbrev S50x20000 : Shape := ⟨2, ![50, 20000]⟩
abbrev S20000x8000 : Shape := ⟨2, ![20000, 8000]⟩
abbrev S_ : Shape := ⟨0, ![]⟩
abbrev S50 : Shape := ⟨1, ![50]⟩
abbrev S50x1 : Shape := ⟨2, ![50, 1]⟩
abbrev S50x8000 : Shape := ⟨2, ![50, 8000]⟩
abbrev S49x20000 : Shape := ⟨2, ![49, 20000]⟩
abbrev S49 : Shape := ⟨1, ![49]⟩
abbrev S49x1 : Shape := ⟨2, ![49, 1]⟩
abbrev S1x20000 : Shape := ⟨2, ![1, 20000]⟩
abbrev S1 : Shape := ⟨1, ![1]⟩

abbrev nBuf : Space → Nat
  | .hbm => 140
  | .vmem => 0
  | .smem => 0
  | _ => 0

abbrev hbmTy0_0 (i : Nat) : BufTy := match i % 128 with
  | 0 => ⟨S20000, .f32⟩
  | 1 => ⟨S50x20000, .f32⟩
  | 2 => ⟨S20000x8000, .f32⟩
  | 3 => ⟨S_, .f32⟩
  | 4 => ⟨S50, .f32⟩
  | 5 => ⟨S_, .f32⟩
  | 6 => ⟨S50, .f32⟩
  | 7 => ⟨S50, .f32⟩
  | 8 => ⟨S50x1, .f32⟩
  | 9 => ⟨S50x20000, .f32⟩
  | 10 => ⟨S50x20000, .f32⟩
  | 11 => ⟨S50x20000, .f32⟩
  | 12 => ⟨S_, .f32⟩
  | 13 => ⟨S50, .f32⟩
  | 14 => ⟨S50x1, .f32⟩
  | 15 => ⟨S50x20000, .f32⟩
  | 16 => ⟨S50x20000, .f32⟩
  | 17 => ⟨S50x8000, .f32⟩
  | 18 => ⟨S_, .f32⟩
  | 19 => ⟨S50x8000, .f32⟩
  | 20 => ⟨S50x8000, .f32⟩
  | 21 => ⟨S_, .f32⟩
  | 22 => ⟨S50x8000, .f32⟩
  | 23 => ⟨S50x8000, .f32⟩
  | 24 => ⟨S50x8000, .f32⟩
  | 25 => ⟨S49x20000, .f32⟩
  | 26 => ⟨S49x20000, .f32⟩
  | 27 => ⟨S_, .f32⟩
  | 28 => ⟨S49x20000, .f32⟩
  | 29 => ⟨S49x20000, .i1⟩
  | 30 => ⟨S49x20000, .f32⟩
  | 31 => ⟨S49x20000, .f32⟩
  | 32 => ⟨S49x20000, .f32⟩
  | 33 => ⟨S_, .f32⟩
  | 34 => ⟨S49, .f32⟩
  | 35 => ⟨S49x1, .f32⟩
  | 36 => ⟨S49x20000, .f32⟩
  | 37 => ⟨S49x20000, .f32⟩
  | 38 => ⟨S20000, .f32⟩
  | 39 => ⟨S1x20000, .f32⟩
  | 40 => ⟨S49x20000, .f32⟩
  | 41 => ⟨S49x20000, .f32⟩
  | 42 => ⟨S49x20000, .f32⟩
  | 43 => ⟨S_, .f32⟩
  | 44 => ⟨S49, .f32⟩
  | 45 => ⟨S49x1, .f32⟩
  | 46 => ⟨S49x20000, .f32⟩
  | 47 => ⟨S49x20000, .f32⟩
  | 48 => ⟨S49x20000, .f32⟩
  | 49 => ⟨S49x20000, .f32⟩
  | 50 => ⟨S_, .f32⟩
  | 51 => ⟨S49, .f32⟩
  | 52 => ⟨S49x1, .f32⟩
  | 53 => ⟨S49x20000, .f32⟩
  | 54 => ⟨S49x20000, .f32⟩
  | 55 => ⟨S49x20000, .f32⟩
  | 56 => ⟨S49x20000, .f32⟩
  | 57 => ⟨S_, .f32⟩
  | 58 => ⟨S49, .f32⟩
  | 59 => ⟨S49x1, .f32⟩
  | 60 => ⟨S49x20000, .f32⟩
  | 61 => ⟨S49x20000, .f32⟩
  | 62 => ⟨S49x20000, .f32⟩
  | 63 => ⟨S49x20000, .f32⟩
  | 64 => ⟨S_, .f32⟩
  | 65 => ⟨S49, .f32⟩
  | 66 => ⟨S49x1, .f32⟩
  | 67 => ⟨S49x20000, .f32⟩
  | 68 => ⟨S49x20000, .f32⟩
  | 69 => ⟨S49x20000, .f32⟩
  | 70 => ⟨S49x20000, .f32⟩
  | 71 => ⟨S_, .f32⟩
  | 72 => ⟨S49, .f32⟩
  | 73 => ⟨S49x1, .f32⟩
  | 74 => ⟨S49x20000, .f32⟩
  | 75 => ⟨S49x20000, .f32⟩
  | 76 => ⟨S49x20000, .f32⟩
  | 77 => ⟨S_, .f32⟩
  | 78 => ⟨S49x20000, .f32⟩
  | 79 => ⟨S49x20000, .i1⟩
  | 80 => ⟨S_, .f32⟩
  | 81 => ⟨S_, .f32⟩
  | 82 => ⟨S49x20000, .f32⟩
  | 83 => ⟨S49x20000, .f32⟩
  | 84 => ⟨S49x20000, .f32⟩
  | 85 => ⟨S_, .f32⟩
  | 86 => ⟨S_, .f32⟩
  | 87 => ⟨S49x20000, .f32⟩
  | 88 => ⟨S49x20000, .f32⟩
  | 89 => ⟨S_, .f32⟩
  | 90 => ⟨S_, .f32⟩
  | 91 => ⟨S49x20000, .f32⟩
  | 92 => ⟨S49x20000, .f32⟩
  | 93 => ⟨S49x20000, .f32⟩
  | 94 => ⟨S_, .f32⟩
  | 95 => ⟨S_, .f32⟩
  | 96 => ⟨S49x20000, .f32⟩
  | 97 => ⟨S49x20000, .f32⟩
  | 98 => ⟨S49x20000, .f32⟩
  | 99 => ⟨S49x20000, .f32⟩
  | 100 => ⟨S_, .f32⟩
  | 101 => ⟨S_, .f32⟩
  | 102 => ⟨S49x20000, .f32⟩
  | 103 => ⟨S49x20000, .f32⟩
  | 104 => ⟨S_, .f32⟩
  | 105 => ⟨S49, .f32⟩
  | 106 => ⟨S49, .f32⟩
  | 107 => ⟨S_, .f32⟩
  | 108 => ⟨S49, .f32⟩
  | 109 => ⟨S49, .i1⟩
  | 110 => ⟨S_, .f32⟩
  | 111 => ⟨S_, .f32⟩
  | 112 => ⟨S49, .f32⟩
  | 113 => ⟨S49, .f32⟩
  | 114 => ⟨S_, .f32⟩
  | 115 => ⟨S_, .f32⟩
  | 116 => ⟨S_, .f32⟩
  | 117 => ⟨S_, .f32⟩
  | 118 => ⟨S1, .f32⟩
  | 119 => ⟨S_, .f32⟩
  | 120 => ⟨S50, .f32⟩
  | 121 => ⟨S50x1, .f32⟩
  | 122 => ⟨S_, .f32⟩
  | 123 => ⟨S50x1, .f32⟩
  | 124 => ⟨S50x1, .f32⟩
  | 125 => ⟨S50x20000, .f32⟩
  | 126 => ⟨S50x20000, .f32⟩
  | 127 => ⟨S50x20000, .f32⟩
  | _ => ⟨S20000, .f32⟩

abbrev hbmTy0_1 (i : Nat) : BufTy := match i % 128 with
  | 0 => ⟨S50x20000, .f32⟩
  | 1 => ⟨S_, .f32⟩
  | 2 => ⟨S50, .f32⟩
  | 3 => ⟨S_, .f32⟩
  | 4 => ⟨S50, .f32⟩
  | 5 => ⟨S50, .f32⟩
  | 6 => ⟨S_, .f32⟩
  | 7 => ⟨S_, .f32⟩
  | 8 => ⟨S_, .f32⟩
  | 9 => ⟨S_, .f32⟩
  | 10 => ⟨S_, .f32⟩
  | 11 => ⟨S1, .f32⟩
  | _ => ⟨S20000, .f32⟩

abbrev hbmTy (i : Nat) : BufTy := match i / 128 with
  | 0 => hbmTy0_0 i
  | 1 => hbmTy0_1 i
  | _ => ⟨S20000, .f32⟩

abbrev bufTy : (tb : Table) → Fin (tcTables nBuf tb) → BufTy
  | .hbm, ⟨i, _⟩ => hbmTy i
  | _, _ => ⟨S20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_call0_v0 : Ref sig .tc := ⟨.hbm, 81, rfl⟩
abbrev main_call0_v1 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_v66 : Ref sig .tc := ⟨.hbm, 88, rfl⟩
abbrev main_cst_14 : Ref sig .tc := ⟨.hbm, 89, rfl⟩
abbrev main_call2_v0 : Ref sig .tc := ⟨.hbm, 90, rfl⟩
abbrev main_call2_v1 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_call3_v0 : Ref sig .tc := ⟨.hbm, 95, rfl⟩
abbrev main_call3_v1 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_call4_v0 : Ref sig .tc := ⟨.hbm, 101, rfl⟩
abbrev main_call4_v1 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_cst_19 : Ref sig .tc := ⟨.hbm, 110, rfl⟩
abbrev main_call5_v0 : Ref sig .tc := ⟨.hbm, 111, rfl⟩
abbrev main_call5_v1 : Ref sig .tc := ⟨.hbm, 112, rfl⟩
abbrev main_v77 : Ref sig .tc := ⟨.hbm, 113, rfl⟩
abbrev main_cst_20 : Ref sig .tc := ⟨.hbm, 114, rfl⟩
abbrev main_v78 : Ref sig .tc := ⟨.hbm, 115, rfl⟩
abbrev main_cst_21 : Ref sig .tc := ⟨.hbm, 116, rfl⟩
abbrev main_v79 : Ref sig .tc := ⟨.hbm, 117, rfl⟩
abbrev main_v80 : Ref sig .tc := ⟨.hbm, 118, rfl⟩
abbrev main_cst_22 : Ref sig .tc := ⟨.hbm, 119, rfl⟩
abbrev main_v81 : Ref sig .tc := ⟨.hbm, 120, rfl⟩
abbrev main_v82 : Ref sig .tc := ⟨.hbm, 121, rfl⟩
abbrev main_cst_23 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_24 : Ref sig .tc := ⟨.hbm, 129, rfl⟩
abbrev main_v89 : Ref sig .tc := ⟨.hbm, 130, rfl⟩
abbrev main_cst_25 : Ref sig .tc := ⟨.hbm, 131, rfl⟩
abbrev main_v90 : Ref sig .tc := ⟨.hbm, 132, rfl⟩
abbrev main_v91 : Ref sig .tc := ⟨.hbm, 133, rfl⟩
abbrev main_cst_26 : Ref sig .tc := ⟨.hbm, 134, rfl⟩
abbrev main_v92 : Ref sig .tc := ⟨.hbm, 135, rfl⟩
abbrev main_v93 : Ref sig .tc := ⟨.hbm, 136, rfl⟩
abbrev main_cst_27 : Ref sig .tc := ⟨.hbm, 137, rfl⟩
abbrev main_v94 : Ref sig .tc := ⟨.hbm, 138, rfl⟩
abbrev main_v95 : Ref sig .tc := ⟨.hbm, 139, rfl⟩

abbrev nD : Nat := 1
abbrev τ : Topo := Topo.v7x

variable {F : FTy → Type} [FloatOps F]

class Facts₀ : Prop where
  reducesTo_S50x20000_S50_d1 : S50x20000.ReducesTo [1] S50
  h_S_ : 0 < S_.numel
  bcast_S_S50 : S_.BroadcastsInDim S50 (![] : Fin 0 → Fin S50.rank)
  bcast_S50_S50x1_0 : S50.BroadcastsInDim S50x1 (![0] : Fin 1 → Fin S50x1.rank)
  bcast_S50x1_S50x20000_0_1 : S50x1.BroadcastsInDim S50x20000 (![0, 1] : Fin 2 → Fin S50x20000.rank)
  bcast_S_S50x8000 : S_.BroadcastsInDim S50x8000 (![] : Fin 0 → Fin S50x8000.rank)
  slices_S50x20000_S49x20000_0_0 : S50x20000.Slices ![0, 0] S49x20000
  slices_S50x20000_S49x20000_1_0 : S50x20000.Slices ![1, 0] S49x20000
  bcast_S_S49x20000 : S_.BroadcastsInDim S49x20000 (![] : Fin 0 → Fin S49x20000.rank)
  reducesTo_S49x20000_S49_d1 : S49x20000.ReducesTo [1] S49
  bcast_S49_S49x1_0 : S49.BroadcastsInDim S49x1 (![0] : Fin 1 → Fin S49x1.rank)
  bcast_S49x1_S49x20000_0_1 : S49x1.BroadcastsInDim S49x20000 (![0, 1] : Fin 2 → Fin S49x20000.rank)
  bcast_S20000_S1x20000_1 : S20000.BroadcastsInDim S1x20000 (![1] : Fin 1 → Fin S1x20000.rank)
  bcast_S1x20000_S49x20000_0_1 : S1x20000.BroadcastsInDim S49x20000 (![0, 1] : Fin 2 → Fin S49x20000.rank)
  bcast_S_S49 : S_.BroadcastsInDim S49 (![] : Fin 0 → Fin S49.rank)
  reducesTo_S49_S_d0 : S49.ReducesTo [0] S_
  shapeCasts_S_S1 : S_.ShapeCasts S1
  bcast_S_S50x1 : S_.BroadcastsInDim S50x1 (![] : Fin 0 → Fin S50x1.rank)
  reducesTo_S50_S_d0 : S50.ReducesTo [0] S_
  dot_S50x20000_S20000x8000_S50x8000_1_0_0_1_n_n_wf : DotDims.WF S50x20000 S20000x8000 S50x8000 [1] [0] [0] [1] [] []

variable [Facts₀]

def dot_S50x20000_S20000x8000_S50x8000_1_0_0_1_n_n : DotDims S50x20000 S20000x8000 S50x8000 where
  lhsContracting := [1]
  rhsContracting := [0]
  lhsNonContracting := [0]
  rhsNonContracting := [1]
  lhsBatch := []
  rhsBatch := []
  wf := dot_S50x20000_S20000x8000_S50x8000_1_0_0_1_n_n_wf

class Facts : Prop extends Facts₀ where

variable [Facts]
-- ==== Proof.KFrameR0.lean ====
/-
  Region 0 of the kernel's program: the statistics kernel, one grid point, every window's block its whole array.
  Inputs: the fitness vector (window 0) and the frequency matrix (window 1). Outputs: the row-wise softmax of the
  frequency matrix (window 2), the replicator-dynamics loss (window 3) and the skewness loss (window 4), each
  stored once, whole. Stated at a PARAMETER: the buffer contents the region is entered with. Per output, what the
  body leaves in its staging buffer as a function of the two input blocks; the body's triple; the pipeline's proof
  data and its body obligation. Generic in the float instance: the same text serves the word-level reading and the
  exact one.
-/
import proofs.«124721_j33767032881397_2_alg».proof.Proof.Gen.Kernel.Launch
import proofs.«124721_j33767032881397_2_alg».proof.Proof.Gen.Kernel.Skeleton
import proofs.«124721_j33767032881397_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The fitness window's staging buffer holds its block at every point, for any proof data over these arrays
    that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the frequency matrix's window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rM : Rect S50x20000 := Rect.unit (s := S50x20000) ![0, 0] S50x20000.size Facts₀.inb_S50x20000_S50x20000_0_0
abbrev rV : Rect S20000 := Rect.unit (s := S20000) ![0] S20000.size Facts₀.inb_S20000_S20000_0
abbrev rS : Rect S1 := Rect.unit (s := S1) ![0] S1.size Facts₀.inb_S1_S1_0

/-! ## What the body leaves in each output window's buffer -/

/-- The softmax window after the body: one whole store of the row-wise softmax of the frequency block. -/
def out0_2 (x1 : Vec F S50x20000 .f32) : Vec F S50x20000 .f32 :=
  View.canon [⟨rM, k0_pay2 (View.ld x1 rM)⟩]

/-- The replicator-loss window after the body: one store, of the loss computed from the softmax's consecutive
    rows, the masked fitness and the five replicator sub-steps. -/
def out0_3 (x0 : Vec F S20000 .f32) (x1 : Vec F S50x20000 .f32) : Vec F S1 .f32 :=
  View.canon [⟨rS, k0_pay10 (k0_pay6 (View.ld x1 rM)) (k0_pay7 (View.ld x1 rM)) (k0_pay8 (View.ld x1 rM) (View.ld x0 rV)) (k0_pay9 (View.ld x1 rM) (View.ld x0 rV))⟩]

/-- The skewness-loss window after the body: one store, of the negated mean third central moment of the softmax's rows. -/
def out0_4 (x1 : Vec F S50x20000 .f32) : Vec F S1 .f32 :=
  View.canon [⟨rS, k0_pay1 (k0_pay2 (View.ld x1 rM)) (k0_pay11 (k0_pay2 (View.ld x1 rM)))⟩]

/-- One whole store covers its buffer. -/
theorem coverM (p0 : Vec F S50x20000 .f32) (y : S50x20000.Idx) :
    ∃ pc ∈ ([⟨rM, p0⟩] : List (View.Piece (Elt F) S50x20000 .f32)), y ∈ pc.1.set :=
  View.cover_of_tiled [⟨rM, p0⟩] S50x20000.size (by rfl) y
theorem coverS (p0 : Vec F S1 .f32) (y : S1.Idx) :
    ∃ pc ∈ ([⟨rS, p0⟩] : List (View.Piece (Elt F) S1 .f32)), y ∈ pc.1.set :=
  View.cover_of_tiled [⟨rS, p0⟩] S1.size (by rfl) y

/-! ## The body's triple -/

set_option maxHeartbeats 4000000 in
/-- The statistics kernel on whole staging memrefs, the two inputs' at contents x0 and x1 and the three outputs' at
    anything, runs to the continuation holding the inputs' as they were and each output's at its function of the
    inputs: the printed function and its two parts are their skeletons, which the symbolic executor runs. -/
theorem sound_kernel0 (c : Dev nD) (E : Set ℕ) (i : grid0.Coords)
    (arg1 : Memref sig .tc .vmem S20000 .f32) (harg1 : arg1.IsWhole) (arg2 : Memref sig .tc .vmem S50x20000 .f32) (harg2 : arg2.IsWhole)
    (arg3 : Memref sig .tc .vmem S50x20000 .f32) (harg3 : arg3.IsWhole) (arg4 : Memref sig .tc .vmem S1 .f32) (harg4 : arg4.IsWhole)
    (arg5 : Memref sig .tc .vmem S1 .f32) (harg5 : arg5.IsWhole)
    (x0 : Vec F S20000 .f32) (x1 : Vec F S50x20000 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x1) ∗ owns (c : Thread nD τ) arg4 fullShare (out0_3 x0 x1)
            ∗ owns (c : Thread nD τ) arg5 fullShare (out0_4 x1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverM _)
  isplitl [H3]
  · iexists _; isplitr
    swap; · iexact H3
    ipureintro
    try dsimp only
    exact View.read_writes_eq_canon _ _ _ (coverS _)
  iexists _; isplitr
  swap; · iexact H4
  ipureintro
  try dsimp only
  exact View.read_writes_eq_canon _ _ _ (coverS _)

/-! ## The pipeline's proof data -/

/-- The proof data of region 0 on core c: the arrays as the region finds them; after the body each input's buffer at
    its block and each output's at its function of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 1 t)
    | ⟨3, _⟩ => out0_3 (iblk0 V c 0 t) (iblk0 V c 1 t)
    | ⟨4, _⟩ => out0_4 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KFrameRun.lean ====
/-
  The run of the kernel's program: region 0 (the statistics kernel), the host's transposition of the softmax, region 1
  (the product with the genotype matrix accumulated over row blocks). The buffer contents at each boundary are a fold
  from the launch memory: a region leaves its windows' arrays at what its write-backs fold to and every other buffer as
  entered; the host stretch leaves the transposed array. The theorem: every weakly fair execution terminates and every
  unscoped buffer ends at the last boundary's contents — from which the three results and the three arguments are read.
  Region 1's proof data enters as a record of what its own module proves. Generic in the float instance.
-/
import proofs.«124721_j33767032881397_2_alg».proof.Proof.KFrameR0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 1's proof data from what its module supplies — what the body leaves in each window's buffer at each point
    and the invariant between points —: the arrays as the region finds them, full shares, nothing owed. -/
def mkDat1
    (aft : (V : (c : Dev nD) → (b : Ref sig .tc) → Buf (Elt F) ((c : Thread nD τ).loc b)) → (c : Dev nD) → (w : Fin cfg1.W) → Fin cfg1.N →
      (cfg1.win w).block.Idx → Elt F (cfg1.win w).elt)
    (Φ1 : (V : (c : Dev nD) → (b : Ref sig .tc) → Buf (Elt F) ((c : Thread nD τ).loc b)) → (c : Dev nD) → Fin (cfg1.N + 1) → sProp 𝕄)
    (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after := aft V c
  Φ := Φ1 V c
  q _ := fullShare
  owed _ := 0

/-- What region 1's module proves, at any entry contents: the body obligation of that proof data, and the invariant's
    two ends against the class's (every scratch at anything beside the generator register). -/
structure R1 (F : FTy → Type) [FloatOps F] where
  aft : (V : (c : Dev nD) → (b : Ref sig .tc) → Buf (Elt F) ((c : Thread nD τ).loc b)) → (c : Dev nD) → (w : Fin cfg1.W) → Fin cfg1.N →
      (cfg1.win w).block.Idx → Elt F (cfg1.win w).elt
  Φ1 : (V : (c : Dev nD) → (b : Ref sig .tc) → Buf (Elt F) ((c : Thread nD τ).loc b)) → (c : Dev nD) → Fin (cfg1.N + 1) → sProp (MT nD τ sig Unit (Elt F) ℕ (UR sig nD τ) ℕ)
  hbody : ∀ V c, BodyObligation (mkDat1 aft Φ1 V c) (defs₀ (F := F)) Variants.none () Set.univ
  hin : ∀ V c, (Pipeline.ΦA spec1 c : sProp (MT nD τ sig Unit (Elt F) ℕ (UR sig nD τ) ℕ)) ⊢ Φ1 V c 0
  hout : ∀ V c, Φ1 V c (Fin.last cfg1.N) ⊢ (Pipeline.ΦA spec1 c : sProp (MT nD τ sig Unit (Elt F) ℕ (UR sig nD τ) ℕ))

/-- Region 1's proof data. -/
abbrev R1.dat (R : R1 F) (V : (c : Dev nD) → (b : Ref sig .tc) → Buf (Elt F) ((c : Thread nD τ).loc b)) (c : Dev nD) :
    Dat τ (Elt F) Unit ℕ (UR sig nD τ) ℕ cfg1 c := mkDat1 R.aft R.Φ1 V c

variable (R : R1 F)
variable (m : (ℓ : Loc nD τ sig) → Buf (Elt F) ℓ) (ρ : Dev nD → PrngReg)

/-! ## The buffer contents at each boundary -/

/-- Core c's buffers at launch: region 0's entry. -/
abbrev U0 : Dev nD → Valuation τ sig (Elt F) := fun c b => (s₀ m ρ).mem ((c : Dev nD), b)
abbrev E0 : (c : Dev nD) → (b : Ref sig .tc) → Buf (Elt F) ((c : Thread nD τ).loc b) := fun c b => U0 m ρ c b
/-- At region 0's exit: its arrays at what the pipeline leaves, every other buffer as entered. -/
def U1 (c : Dev nD) : Valuation τ sig (Elt F) :=
  Pipeline.withArrays spec0 c (U0 m ρ c) fun w => (dat0 (E0 m ρ) c).arrAt w cfg0.N
theorem U1_arr (c : Dev nD) (w : Fin cfg0.W) :
    U1 m ρ c (Proc.devRef .tc (Pipeline.arrRef spec0 w)) = (dat0 (E0 m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
abbrev E1 : (c : Dev nD) → (b : Ref sig .tc) → Buf (Elt F) ((c : Thread nD τ).loc b) := fun c b => U1 m ρ c b
theorem hF0 (c : Dev nD) (w : Fin cfg0.W) : (dat0 (E0 m ρ) c).arrAt w cfg0.N = E1 m ρ c (Pipeline.arrRef spec0 w) :=
  (U1_arr m ρ c w).symm
theorem hrest0 (c : Dev nD) : ∀ b, b ∉ Finset.univ.image (Pipeline.arrRef spec0) → E1 m ρ c b = E0 m ρ c b :=
  fun b hb => U1_of_ne m ρ c b fun w e => hb (Finset.mem_image.mpr ⟨w, Finset.mem_univ _, e⟩)

/-- After the transposition: region 1's entry. -/
abbrev U2 : Dev nD → Valuation τ sig (Elt F) := fun c => StableHlo.after hostOps1 (U1 m ρ c)
abbrev E2 : (c : Dev nD) → (b : Ref sig .tc) → Buf (Elt F) ((c : Thread nD τ).loc b) := fun c b => U2 m ρ c b
/-- At region 1's exit. -/
def U3 (c : Dev nD) : Valuation τ sig (Elt F) :=
  Pipeline.withArrays spec1 c (U2 m ρ c) fun w => (R.dat (E2 m ρ) c).arrAt w cfg1.N
theorem U3_arr (c : Dev nD) (w : Fin cfg1.W) :
    U3 R m ρ c (Proc.devRef .tc (Pipeline.arrRef spec1 w)) = (R.dat (E2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 R m ρ c (Proc.devRef .tc b) = U2 m ρ c (Proc.devRef .tc b) := by
  unfold U3; exact Pipeline.withArrays_of_ne spec1 c _ _ b hb
abbrev E3 : (c : Dev nD) → (b : Ref sig .tc) → Buf (Elt F) ((c : Thread nD τ).loc b) := fun c b => U3 R m ρ c b
theorem hF1 (c : Dev nD) (w : Fin cfg1.W) : (R.dat (E2 m ρ) c).arrAt w cfg1.N = E3 R m ρ c (Pipeline.arrRef spec1 w) :=
  (U3_arr R m ρ c w).symm
theorem hrest1 (c : Dev nD) : ∀ b, b ∉ Finset.univ.image (Pipeline.arrRef spec1) → E3 R m ρ c b = E2 m ρ c b :=
  fun b hb => U3_of_ne R m ρ c b fun w e => hb (Finset.mem_image.mpr ⟨w, Finset.mem_univ _, e⟩)

/-! ## The proof data family and the thread state -/

abbrev radm : (p : Fin 2) → (pcfgs (F := F) p).Adm := fun p => (cfgs p).toPCfg_adm
/-- Each pipeline's proof data at its region's entry contents: a literal match on the pipeline. -/
def pdat : (p : Fin 2) → (c : Dev nD) → Dat τ (Elt F) Unit ℕ (UR sig nD τ) ℕ (Pipeline.pin (pcfgs (F := F)) radm p) c
  | ⟨0, _⟩ => fun c => dat0 (E0 m ρ) c
  | ⟨1, _⟩ => fun c => R.dat (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps1_nofresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (U3 R m ρ c) ∗ ∃ r, prngReg c r)

/-! ## The regions as segments -/

set_option backward.isDefEq.respectTransparency.types false in
/-- Region 0 over the thread state: entered from the launch contents, left at its exit contents. -/
def reg0 : Pipeline.RegionSeg (pcfgs (F := F)) radm (pdat R m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (U0 m ρ c) ∗ Rr c)
  post c := iprop(StableHlo.held (c : Thread nD τ) (Pipeline.ucRefs τ sig) (U1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) radm (pdat R m ρ) launch0.win launch0.arr_whole c
      ((pdat R m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat R m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat R m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (pdat R m ρ) ((pdat R m ρ 0 c).share_full fun _ => rfl)
      (E0 m ρ c) (E1 m ρ c) ((pdat R m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after the transposition, left at the last boundary's.
    Its invariant starts from the class's and gives it back. -/
def reg1 : Pipeline.RegionSeg (pcfgs (F := F)) radm (pdat R m ρ) () defs₀ 𝒱₀ L lv 1 where
  win := launch1.win.to₀
  block_pos := launch1.block_pos
  stage_whole := launch1.stage_whole
  K := PEmpty
  osem k := k.elim
  ho := Pipeline.OwnSemFacts.none _
  hbody c := (R.hbody (E2 m ρ) c).loose
  hwaits := Pipeline.hwaits_of_owed_zero _ _ _ _ L lv 1 fun _ _ => rfl
  pre c := iprop(StableHlo.held (c : Thread nD τ) (Pipeline.ucRefs τ sig) (U2 m ρ c) ∗ Rr c)
  post c := iprop(Tₙ R m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) radm (pdat R m ρ) launch1.win launch1.arr_whole c
      ((pdat R m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R.hin (E2 m ρ) c)
    unfold Pipeline.ΦA
    iintro ⟨Hp, -, Hr⟩
    isplitl [Hr]; · iexact Hr
    iexact Hp
  hout c := by
    refine BIBase.Entails.trans (R.hout (E2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) radm (Ix := Unit) (Name := ℕ) (U := UR sig nD τ) (Lvl := ℕ)
      launch1.win launch1.arr_whole c (pdat R m ρ) ((pdat R m ρ 1 c).share_full fun _ => rfl)
      (E2 m ρ c) (E3 R m ρ c) ((pdat R m ρ 1 c).arrAt · cfg1.N) (hF1 R m ρ c) (hrest1 R m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev rsegs : List (Pipeline.Seg (pcfgs (F := F)) radm (pdat R m ρ) () defs₀ 𝒱₀ L lv) :=
  [ .region (reg0 R m ρ),
    .host (hseg hostOps1 hostOps1_sub hostOps1_nofresh (U1 m ρ)),
    .region (reg1 R m ρ) ]
theorem main_run (c : Dev nD) : main (F := F) c = Pipeline.Seg.run (rsegs R m ρ) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 R m ρ c b) :=
  Pipeline.θ_run_regions_kit (pcfgs (F := F)) radm (pdat R m ρ) () cellOf_inj emb₁ defs₀ 𝒱₀ L lv m ρ main (rsegs R m ρ)
    (fun c Q => by rw [main_run R m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ Rr c)) (Tₙ := Tₙ R m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 R m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 R m ρ c) s')
      isplitl [Hh] <;> iassumption)
    (hQ := fun s h c => h c)

end Cert.Kernel.Fr

end
-- ==== Proof.KFrameRead.lean ====
/-
  What the last boundary's contents are at the six buffers the claims speak of. The three arguments: no host line and
  no region writes one, so the fold walks back to the launch memory. The two losses: written by region 0's one
  write-back and untouched afterwards. The log-marginals: region 1's output array. And, on the way, the array region 1
  reads its left factor from: the host's transposition of region 0's softmax array. Region 0 has one grid point and every
  block is its whole array, so each of its output arrays ends holding exactly what the body left in the staging buffer,
  and each input block is its whole array.
-/
import proofs.«124721_j33767032881397_2_alg».proof.Proof.KFrameRun
import proofs.«124721_j33767032881397_2_alg».proof.Proof.Gen.Kernel.Regions
import Idealize.ShloMosaic.Lib.Pipeline.Value
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]
variable (R : R1 F)
variable (m : (ℓ : Loc nD τ sig) → Buf (Elt F) ℓ) (ρ : Dev nD → PrngReg)

/-! ## The host's transposition writes one buffer -/

theorem U2_of (c : Dev nD) (r : Ref sig .tc) (h : r ∉ hostOps1_W) : U2 m ρ c (Proc.devRef .tc r) = U1 m ρ c (Proc.devRef .tc r) :=
  StableHlo.after_of_writes_sub hostOps1 _ hostOps1_writes h

/-- Region 1 reads its left factor from the transposition of region 0's softmax array. -/
theorem E2_main_v1 (c : Dev nD) :
    E2 m ρ c main_v1 = transpose S20000x50 [1, 0] (E1 m ρ c main_v0_0) transposes_S50x20000_S20000x50_1_0 := by
  show StableHlo.after hostOps1 (U1 m ρ c) (Proc.devRef .tc main_v1) = _
  after_results

/-! ## The arguments end as launched -/

theorem U3_main_arg0 (c : Dev nD) : U3 R m ρ c (Proc.devRef .tc main_arg0) = m ((c : Thread nD τ).loc main_arg0) :=
  calc U3 R m ρ c (Proc.devRef .tc main_arg0)
    _ = U2 m ρ c (Proc.devRef .tc main_arg0) := U3_of_ne R m ρ c main_arg0 (by decide)
    _ = U1 m ρ c (Proc.devRef .tc main_arg0) := U2_of m ρ c main_arg0 (by decide)
    _ = U0 m ρ c (Proc.devRef .tc main_arg0) := (U1_arr m ρ c 0).trans (((dat0 (E0 m ρ) c).arrAt_in 0 rfl _).trans (A_eq0 (E0 m ρ) c 0))
    _ = m ((c : Thread nD τ).loc main_arg0) := rfl

theorem U3_main_arg1 (c : Dev nD) : U3 R m ρ c (Proc.devRef .tc main_arg1) = m ((c : Thread nD τ).loc main_arg1) :=
  calc U3 R m ρ c (Proc.devRef .tc main_arg1)
    _ = U2 m ρ c (Proc.devRef .tc main_arg1) := U3_of_ne R m ρ c main_arg1 (by decide)
    _ = U1 m ρ c (Proc.devRef .tc main_arg1) := U2_of m ρ c main_arg1 (by decide)
    _ = U0 m ρ c (Proc.devRef .tc main_arg1) := (U1_arr m ρ c 1).trans (((dat0 (E0 m ρ) c).arrAt_in 1 rfl _).trans (A_eq0 (E0 m ρ) c 1))
    _ = m ((c : Thread nD τ).loc main_arg1) := rfl

/-- The genotype matrix on entry to region 1 is the launched one. -/
theorem E2_main_arg2 (c : Dev nD) : E2 m ρ c main_arg2 = m ((c : Thread nD τ).loc main_arg2) :=
  calc U2 m ρ c (Proc.devRef .tc main_arg2)
    _ = U1 m ρ c (Proc.devRef .tc main_arg2) := U2_of m ρ c main_arg2 (by decide)
    _ = U0 m ρ c (Proc.devRef .tc main_arg2) := U1_of_ne m ρ c main_arg2 (by decide)
    _ = m ((c : Thread nD τ).loc main_arg2) := rfl

theorem U3_main_arg2 (c : Dev nD) : U3 R m ρ c (Proc.devRef .tc main_arg2) = m ((c : Thread nD τ).loc main_arg2) :=
  calc U3 R m ρ c (Proc.devRef .tc main_arg2)
    _ = E2 m ρ c main_arg2 := (U3_arr R m ρ c 1).trans ((R.dat (E2 m ρ) c).arrAt_in 1 rfl _)
    _ = m ((c : Thread nD τ).loc main_arg2) := E2_main_arg2 m ρ c

/-! ## The results -/

/-- The log-marginals: region 1's output array. -/
theorem U3_main_v2 (c : Dev nD) : U3 R m ρ c (Proc.devRef .tc main_v2) = (R.dat (E2 m ρ) c).arrAt 2 cfg1.N :=
  U3_arr R m ρ c 2

/-- The replicator loss: region 0's window 3, untouched afterwards. -/
theorem U3_main_v0_1 (c : Dev nD) : U3 R m ρ c (Proc.devRef .tc main_v0_1) = (dat0 (E0 m ρ) c).arrAt 3 cfg0.N :=
  calc U3 R m ρ c (Proc.devRef .tc main_v0_1)
    _ = U2 m ρ c (Proc.devRef .tc main_v0_1) := U3_of_ne R m ρ c main_v0_1 (by decide)
    _ = U1 m ρ c (Proc.devRef .tc main_v0_1) := U2_of m ρ c main_v0_1 (by decide)
    _ = (dat0 (E0 m ρ) c).arrAt 3 cfg0.N := U1_arr m ρ c 3

/-- The skewness loss: region 0's window 4, untouched afterwards. -/
theorem U3_main_v0_2 (c : Dev nD) : U3 R m ρ c (Proc.devRef .tc main_v0_2) = (dat0 (E0 m ρ) c).arrAt 4 cfg0.N :=
  calc U3 R m ρ c (Proc.devRef .tc main_v0_2)
    _ = U2 m ρ c (Proc.devRef .tc main_v0_2) := U3_of_ne R m ρ c main_v0_2 (by decide)
    _ = U1 m ρ c (Proc.devRef .tc main_v0_2) := U2_of m ρ c main_v0_2 (by decide)
    _ = (dat0 (E0 m ρ) c).arrAt 4 cfg0.N := U1_arr m ρ c 4

/-- The softmax array on exit from region 0. -/
theorem E1_main_v0_0 (c : Dev nD) : E1 m ρ c main_v0_0 = (dat0 (E0 m ρ) c).arrAt 2 cfg0.N := U1_arr m ρ c 2

/-! ## Region 0, closed: one point, every block the whole array -/

section Region0

variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The fitness window's block is the whole fitness vector. -/
theorem iblk0_0 (c : Dev nD) (t : Fin cfg0.N) : iblk0 V c 0 t = V c main_arg0 := by
  obtain rfl := fin_N0 t
  unfold iblk0
  have hz' : (fun a => win0_0.index t0_0 a * main_arg0.ty.shape.size a) = fun _ => 0 := funext fun a => by fin_cases a; decide
  exact Memref.read_access_unit_zero (Elt F) main_arg0 hz' (fun a => by rw [congrFun hz' a]; simp) (V c main_arg0)

/-- The frequency window's block is the whole frequency matrix. -/
theorem iblk0_1 (c : Dev nD) (t : Fin cfg0.N) : iblk0 V c 1 t = V c main_arg1 := by
  obtain rfl := fin_N0 t
  unfold iblk0
  have hz' : (fun a => win0_1.index t0_0 a * main_arg1.ty.shape.size a) = fun _ => 0 := funext fun a => by fin_cases a <;> decide
  exact Memref.read_access_unit_zero (Elt F) main_arg1 hz' (fun a => by rw [congrFun hz' a]; simp) (V c main_arg1)

/-- The one write-back of the softmax window writes what the body left, whole. -/
theorem flushed0_2 (c : Dev nD) (t : Fin cfg0.N) (hf : (cfg0.win 2).flush t = true) :
    (dat0 V c).flushed 2 t = ((cfg0.win 2).blk t).view.read (Elt F) (out0_2 (V c main_arg1)) := by
  obtain rfl := fin_N0 t
  show (cfg0.win 2).cut (grid0.coords t0_0) ((dat0 V c).after 2 t0_0) = _
  rw [after0_2, iblk0_1]
  have hz' : (fun a => win0_2.index t0_0 a * main_v0_0.ty.shape.size a) = fun _ => 0 := funext fun a => by fin_cases a <;> decide
  exact (Memref.read_access_unit_zero (Elt F) main_v0_0 hz' (fun a => by rw [congrFun hz' a]; simp) (out0_2 (V c main_arg1))).symm

theorem flushed0_3 (c : Dev nD) (t : Fin cfg0.N) (hf : (cfg0.win 3).flush t = true) :
    (dat0 V c).flushed 3 t = ((cfg0.win 3).blk t).view.read (Elt F) (out0_3 (V c main_arg0) (V c main_arg1)) := by
  obtain rfl := fin_N0 t
  show (cfg0.win 3).cut (grid0.coords t0_0) ((dat0 V c).after 3 t0_0) = _
  rw [after0_3, iblk0_0, iblk0_1]
  have hz' : (fun a => win0_3.index t0_0 a * main_v0_1.ty.shape.size a) = fun _ => 0 := funext fun a => by fin_cases a; decide
  exact (Memref.read_access_unit_zero (Elt F) main_v0_1 hz' (fun a => by rw [congrFun hz' a]; simp) (out0_3 (V c main_arg0) (V c main_arg1))).symm

theorem flushed0_4 (c : Dev nD) (t : Fin cfg0.N) (hf : (cfg0.win 4).flush t = true) :
    (dat0 V c).flushed 4 t = ((cfg0.win 4).blk t).view.read (Elt F) (out0_4 (V c main_arg1)) := by
  obtain rfl := fin_N0 t
  show (cfg0.win 4).cut (grid0.coords t0_0) ((dat0 V c).after 4 t0_0) = _
  rw [after0_4, iblk0_1]
  have hz' : (fun a => win0_4.index t0_0 a * main_v0_2.ty.shape.size a) = fun _ => 0 := funext fun a => by fin_cases a; decide
  exact (Memref.read_access_unit_zero (Elt F) main_v0_2 hz' (fun a => by rw [congrFun hz' a]; simp) (out0_4 (V c main_arg1))).symm

/-- The softmax array after region 0. -/
theorem final0_2 (c : Dev nD) : (dat0 V c).arrAt 2 cfg0.N = out0_2 (V c main_arg1) :=
  (dat0 V c).arrAt_eq_of_cover 2 (out0_2 (V c main_arg1)) (flushed0_2 V c) fun i =>
    ⟨t0_0, flush0_2 t0_0, by
      show i ∈ ((View.whole main_v0_0).slice (win0_2.rect t0_0)).set
      rw [View.set_slice_whole, Rect.mem_set_unit]
      intro a
      have h0 : (i 0 : Nat) < 50 := (i 0).isLt
      have h1 : (i 1 : Nat) < 20000 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 50 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 20000 from by decide +kernel]; omega⟩

/-- The replicator-loss array after region 0. -/
theorem final0_3 (c : Dev nD) : (dat0 V c).arrAt 3 cfg0.N = out0_3 (V c main_arg0) (V c main_arg1) :=
  (dat0 V c).arrAt_eq_of_cover 3 (out0_3 (V c main_arg0) (V c main_arg1)) (flushed0_3 V c) fun i =>
    ⟨t0_0, flush0_3 t0_0, by
      show i ∈ ((View.whole main_v0_1).slice (win0_3.rect t0_0)).set
      rw [View.set_slice_whole, Rect.mem_set_unit]
      intro a
      have h0 : (i 0 : Nat) < 1 := (i 0).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega⟩

/-- The skewness-loss array after region 0. -/
theorem final0_4 (c : Dev nD) : (dat0 V c).arrAt 4 cfg0.N = out0_4 (V c main_arg1) :=
  (dat0 V c).arrAt_eq_of_cover 4 (out0_4 (V c main_arg1)) (flushed0_4 V c) fun i =>
    ⟨t0_0, flush0_4 t0_0, by
      show i ∈ ((View.whole main_v0_2).slice (win0_4.rect t0_0)).set
      rw [View.set_slice_whole, Rect.mem_set_unit]
      intro a
      have h0 : (i 0 : Nat) < 1 := (i 0).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 1 from by decide +kernel]; omega⟩

end Region0

/-! ## The staging-buffer wrappers fall away: one whole store read back whole is the stored value -/

theorem out0_2_eq (x1 : Vec F S50x20000 .f32) : out0_2 x1 = k0_pay2 x1 := by
  unfold out0_2
  rw [View.canon_unit_zero hz2]
  simp only [View.ld_unit_zero (S := S50x20000) hz2]

theorem out0_3_eq (x0 : Vec F S20000 .f32) (x1 : Vec F S50x20000 .f32) :
    out0_3 x0 x1 = k0_pay10 (k0_pay6 x1) (k0_pay7 x1) (k0_pay8 x1 x0) (k0_pay9 x1 x0) := by
  unfold out0_3
  rw [View.canon_unit_zero hz1]
  simp only [View.ld_unit_zero (S := S50x20000) hz2, View.ld_unit_zero (S := S20000) hz1]

theorem out0_4_eq (x1 : Vec F S50x20000 .f32) : out0_4 x1 = k0_pay1 (k0_pay2 x1) (k0_pay11 (k0_pay2 x1)) := by
  unfold out0_4
  rw [View.canon_unit_zero hz1]
  simp only [View.ld_unit_zero (S := S50x20000) hz2]

end Cert.Kernel.Fr

end
-- ==== Proof.KFrameR1Body.lean ====
/-
  Region 1 of the kernel's program, the body alone: the product kernel on a grid of 100 row blocks. At a point the
  body reads a 200 x 50 block of the transposed softmax and a 200 x 8000 block of the genotype matrix, adds the
  product of the first's transpose with the second to a 50 x 8000 accumulator that lives in a scratch buffer from
  point to point, and, at the last point only, stores into the output window the logarithm of the accumulator
  divided by 2000 plus 1e-10. The accumulator is set to zero at the first point, before the first addition.
  Two conditionals on the grid coordinate give three control cases: the first point (zero, then add), a middle
  point (add), the last point (add, then write the result). Here: the two conditions in closed form over the
  point's number, where the output window is idle, and the body's triple in each case, on any whole memrefs.
  Generic in the float instance.
-/
import proofs.«124721_j33767032881397_2_alg».proof.Proof.Gen.Kernel.Launch
import proofs.«124721_j33767032881397_2_alg».proof.Proof.Gen.Kernel.Skeleton
import proofs.«124721_j33767032881397_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

/-! ## The two conditions, over the point's number -/

/-- "This is the first row block": the condition under which the body zeroes the accumulator. -/
abbrev cond1_0 (i : grid1.Coords) : Prop :=
  (Scalar.cmpi .ne (Scalar.extui (Scalar.cmpi .eq (BitVec.ofNat 32 (i 0).val) 0#32)) 0#32) = 1#1
/-- It holds at point 0 and nowhere else. -/
theorem hcond1_0 : ∀ t : Fin cfg1.N, cond1_0 (grid1.coords t) ↔ t.val = 0 :=
  (by decide +kernel : ∀ t : Fin grid1.N, cond1_0 (grid1.coords t) ↔ t.val = 0)

/-- "This is the last row block": the condition under which the body writes the result. -/
abbrev cond1_1 (i : grid1.Coords) : Prop := k1_cond2 i = 1#1
/-- It holds at point 99 and nowhere else. -/
theorem hcond1_1 : ∀ t : Fin cfg1.N, cond1_1 (grid1.coords t) ↔ t.val = 99 :=
  (by decide +kernel : ∀ t : Fin grid1.N, cond1_1 (grid1.coords t) ↔ t.val = 99)

/-! ## Where the windows are idle

The two input windows are read at every point. The output window is stored into at the last point only; at every
other point the printed configuration calls it idle, and the pipeline does not write its block back there. -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body's accesses: every buffer is read and written whole -/

theorem zeroOff2 : (![0, 0] : Fin 2 → Nat) = fun _ => 0 := funext fun a => by fin_cases a <;> rfl

abbrev r1a : Rect S200x50 := Rect.unit (s := S200x50) ![0, 0] S200x50.size Facts₀.inb_S200x50_S200x50_0_0
abbrev r1b : Rect S200x8000 := Rect.unit (s := S200x8000) ![0, 0] S200x8000.size Facts₀.inb_S200x8000_S200x8000_0_0
abbrev r1c : Rect S50x8000 := Rect.unit (s := S50x8000) ![0, 0] S50x8000.size Facts₀.inb_S50x8000_S50x8000_0_0

/-- A whole store, last in a list of stores, covers the buffer. -/
theorem coverC (p : Vec F S50x8000 .f32) (L : List (View.Piece (Elt F) S50x8000 .f32)) (y : S50x8000.Idx) :
    ∃ pc ∈ ((⟨r1c, p⟩ : View.Piece (Elt F) S50x8000 .f32) :: L), y ∈ pc.1.set :=
  ⟨_, List.mem_cons_self .., View.mem_set_unit_zero zeroOff2 Facts₀.inb_S50x8000_S50x8000_0_0 y⟩

/-- What a buffer reads after a whole store made last: the stored value. -/
theorem read_after_whole_store {κ : Kind} {sp : Space} (v : View sig κ sp S50x8000 .f32) (f : v.ty.Contents (Elt F))
    (p : Vec F S50x8000 .f32) (L : List (View.Piece (Elt F) S50x8000 .f32)) :
    v.read (Elt F) (v.writes (Elt F) f ((⟨r1c, p⟩ : View.Piece (Elt F) S50x8000 .f32) :: L)) = p := by
  rw [View.read_writes_eq_canon _ _ _ (coverC p L), View.canon_cons_unit_zero zeroOff2]

/-! ## The body's triple, case by case

In each case the two input memrefs are owned at read contents x0, x1 and are handed back as they were. The memref
names follow the printed function: arg1, arg2 the input blocks, arg3 the output window's buffer, arg4 the scratch. -/

set_option maxHeartbeats 1000000 in
/-- The first point. The scratch comes at anything; the body zeroes it, reads the zeros back and adds the product:
    it ends at the accumulation step applied to the zero payload. The output buffer, at contents xi, is not
    touched. -/
theorem sound_kernel1_A (c : Dev nD) (E : Set ℕ) (i : grid1.Coords)
    (arg1 : Memref sig .tc .vmem S200x50 .f32) (harg1 : arg1.IsWhole) (arg2 : Memref sig .tc .vmem S200x8000 .f32) (harg2 : arg2.IsWhole)
    (arg3 : Memref sig .tc .vmem S50x8000 .f32) (harg3 : arg3.IsWhole) (arg4 : Memref sig .tc .vmem S50x8000 .f32) (harg4 : arg4.IsWhole)
    (hc0 : cond1_0 i) (hc1 : ¬cond1_1 i)
    (x0 : Vec F S200x50 .f32) (x1 : Vec F S200x8000 .f32) (xi : Vec F S50x8000 .f32) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi
            ∗ owns (c : Thread nD τ) arg4 fullShare (k1_pay2 x0 x1 k1_pay1)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  subst hf0 hf1 hf2
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_after_whole_store, View.readCov_unit_zero _ zeroOff2]
  simp only [View.readAt_eq_ld, View.ld_unit_zero (S := S200x50) zeroOff2, View.ld_unit_zero (S := S200x8000) zeroOff2]

set_option maxHeartbeats 1000000 in
/-- A middle point. The scratch comes at the accumulator xs and ends at the accumulation step applied to it. The
    output buffer, at contents xi, is not touched. -/
theorem sound_kernel1_B (c : Dev nD) (E : Set ℕ) (i : grid1.Coords)
    (arg1 : Memref sig .tc .vmem S200x50 .f32) (harg1 : arg1.IsWhole) (arg2 : Memref sig .tc .vmem S200x8000 .f32) (harg2 : arg2.IsWhole)
    (arg3 : Memref sig .tc .vmem S50x8000 .f32) (harg3 : arg3.IsWhole) (arg4 : Memref sig .tc .vmem S50x8000 .f32) (harg4 : arg4.IsWhole)
    (hc0 : ¬cond1_0 i) (hc1 : ¬cond1_1 i)
    (x0 : Vec F S200x50 .f32) (x1 : Vec F S200x8000 .f32) (xi : Vec F S50x8000 .f32) (xs : Vec F S50x8000 .f32) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi
            ∗ owns (c : Thread nD τ) arg4 fullShare (k1_pay2 x0 x1 xs)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_after_whole_store]
  simp only [View.readAt_eq_ld, View.ld_unit_zero (S := S200x50) zeroOff2, View.ld_unit_zero (S := S200x8000) zeroOff2,
    View.ld_unit_zero (S := S50x8000) zeroOff2]

set_option maxHeartbeats 1000000 in
/-- The last point. The scratch comes at the accumulator xs and ends at the accumulation step applied to it; the
    output buffer comes at anything and ends at the result payload of the scratch's new contents. -/
theorem sound_kernel1_C (c : Dev nD) (E : Set ℕ) (i : grid1.Coords)
    (arg1 : Memref sig .tc .vmem S200x50 .f32) (harg1 : arg1.IsWhole) (arg2 : Memref sig .tc .vmem S200x8000 .f32) (harg2 : arg2.IsWhole)
    (arg3 : Memref sig .tc .vmem S50x8000 .f32) (harg3 : arg3.IsWhole) (arg4 : Memref sig .tc .vmem S50x8000 .f32) (harg4 : arg4.IsWhole)
    (hc0 : ¬cond1_0 i) (hc1 : cond1_1 i)
    (x0 : Vec F S200x50 .f32) (x1 : Vec F S200x8000 .f32) (xs : Vec F S50x8000 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (k1_pay2 x0 x1 xs))
            ∗ owns (c : Thread nD τ) arg4 fullShare (k1_pay2 x0 x1 xs)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  subst hf0 hf1 hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_after_whole_store, View.readCov_unit_zero (S := S50x8000) _ zeroOff2]
    simp only [View.readAt_eq_ld, View.ld_unit_zero (S := S200x50) zeroOff2,
      View.ld_unit_zero (S := S200x8000) zeroOff2, View.ld_unit_zero (S := S50x8000) zeroOff2]
  iexists _; isplitr
  swap; · iexact HS
  ipureintro
  rw [read_after_whole_store]
  simp only [View.readAt_eq_ld, View.ld_unit_zero (S := S200x50) zeroOff2, View.ld_unit_zero (S := S200x8000) zeroOff2,
    View.ld_unit_zero (S := S50x8000) zeroOff2]

end Cert.Kernel.Fr

end
-- ==== Proof.KFrameR1.lean ====
/-
  Region 1 of the kernel's program against the pipeline: the product kernel's proof data and its body obligation,
  stated at a PARAMETER, the buffer contents the region is entered with. The scratch accumulator after point n is a
  plain recursion: the accumulation step applied to the two input blocks of point n and to the accumulator after
  point n - 1, from the zero payload at point 0. The output window's buffer is meaningful at the last point only,
  where it holds the result payload of the accumulator. The invariant between points says what the scratch holds:
  anything before the first point, the accumulator afterwards; the other scoped buffers (region 0's staging buffers)
  and the generator register ride along untouched. Generic in the float instance.
-/
import proofs.«124721_j33767032881397_2_alg».proof.Proof.KFrameR1Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: for window 0 rows 200 t .. 200 t + 199
    of the transposed softmax, for window 1 the same rows of the genotype matrix. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, for any proof data over these arrays that
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the result -/

/-- The scratch after point n: the accumulation step (the sum of the old contents and the product of the
    transposed first block with the second) applied point after point, from zeros. -/
def acc1 (c : Dev nD) : (n : ℕ) → n < cfg1.N → Vec F S50x8000 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩) (acc1 c n (Nat.lt_of_succ_lt h))

/-- At the first point: one step from the zero payload. -/
theorem acc1_first (c : Dev nD) (t : Fin cfg1.N) (h0 : t.val = 0) :
    acc1 V c t.val t.isLt = k1_pay2 (iblk1 V c 0 t) (iblk1 V c 1 t) k1_pay1 := by
  obtain ⟨n, hn⟩ := t
  cases n with
  | zero => rfl
  | succ n => exact absurd h0 (Nat.succ_ne_zero n)

/-- At a later point: one step from the accumulator the point before left. -/
theorem acc1_step (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

/-- The output window's buffer after the last point's body, from the scratch xs as that point's accumulation left
    it: entrywise log (xs / 2000 + 1e-10). -/
def out1_2 (xs : Vec F S50x8000 .f32) : Vec F S50x8000 .f32 := k1_pay3 xs

theorem out1_2_eq (xs : Vec F S50x8000 .f32) : out1_2 xs = k1_pay3 xs := rfl

/-! ## The invariant between points -/

/-- A scoped buffer the region does not use, whole at some contents. -/
abbrev spare (c : Dev nD) (b : Ref sig .tc) : sProp 𝕄 :=
  iprop(∃ f : Buf (Elt F) ((c : Thread nD τ).loc b), ((c : Thread nD τ).loc b) ↦{fullShare} f)

/-- The scratch accumulator, as the memref the pipeline passes to the body. -/
abbrev scM1 : Memref sig .tc .vmem S50x8000 .f32 := Memref.whole cc1_scratch0

/-- What the launch hands the region, spelled out: region 0's five staging buffers and the scratch at anything,
    the generator register at some state. -/
theorem PhiA1_eq (c : Dev nD) :
    (Pipeline.ΦA spec1 c : sProp 𝕄)
      = iprop((spare c cc0_stg0_0 ∗ spare c cc0_stg1_0 ∗ spare c cc0_stg2_0 ∗ spare c cc0_stg3_0 ∗ spare c cc0_stg4_0 ∗ (∃ d, owns (c : Thread nD τ) scM1 fullShare d)) ∗ (∃ r, prngReg c r)) := by
  unfold Pipeline.ΦA; rw [scopedRest1_eq]; simp only [scM1, owns_whole]; try rfl

/-- The invariant before position n: what the launch hands over before the first point; afterwards the same with
    the scratch at the accumulator the point before left. -/
def PhiS1 (c : Dev nD) : (n : ℕ) → n ≤ cfg1.N → sProp 𝕄
  | 0, _ => Pipeline.ΦA spec1 c
  | n + 1, hn => iprop((spare c cc0_stg0_0 ∗ spare c cc0_stg1_0 ∗ spare c cc0_stg2_0 ∗ spare c cc0_stg3_0 ∗ spare c cc0_stg4_0 ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((spare c cc0_stg0_0 ∗ spare c cc0_stg1_0 ∗ spare c cc0_stg2_0 ∗ spare c cc0_stg3_0 ∗ spare c cc0_stg4_0 ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop((spare c cc0_stg0_0 ∗ spare c cc0_stg1_0 ∗ spare c cc0_stg2_0 ∗ spare c cc0_stg3_0 ∗ spare c cc0_stg4_0 ∗ owns (c : Thread nD τ) scM1 fullShare (acc1 V c (n - 1) (by omega))) ∗ (∃ r, prngReg c r)) := by
  cases n with
  | zero => exact absurd rfl hz
  | succ n => rfl

/-! ## The pipeline's proof data -/

/-- The proof data of region 1 on core c: the arrays as the region finds them; after the body at point t each
    input's buffer at its block and the output's at the result payload of the accumulator after t (read at the last
    point only: elsewhere the window is idle and its buffer is handed back as found); the invariant above; full
    shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (acc1 V c t.val t.isLt) := by dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks. The point's number decides the case: at point 0
    the invariant hands the scratch over at anything and takes it back one step from zeros; at a later point it
    hands it over at the accumulator the point before left and takes it back one step further. Before the last
    point the output window is idle: its buffer goes through the body untouched. At the last point it comes back at
    the result payload. The core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 100 := lt_of_lt_of_eq t.isLt (show cfg1.N = 100 from N_1)
  by_cases h0 : t.val = 0
  · have h1 : ¬cond1_1 (grid1.coords t) := fun h => by have := (hcond1_1 t).mp h; omega
    rw [Dat.leavesExact_idle (dat1 V c) 2 t (idleAt1_2 t h1) (noFlush1_2 t h1)]
    rw [acc1_first V c t h0]
    rw [PhiS1_castSucc V c t, PhiS1_zero V c _ _ h0, PhiA1_eq]
    iintro ⟨⟨⟨B0, B1, B2, B3, B4, HS⟩, Hg⟩, Ho, ⟨%d0, H0⟩, ⟨%d1, H1⟩, ⟨%d2, H2⟩⟩
    iapply (sound_kernel1_A c Set.univ (grid1.coords t) _ _ _ _ _ _ _ _ ((hcond1_0 t).mpr h0) h1
      (iblk1 V c 0 t) (iblk1 V c 1 t) ((dat1 V c).before 2 t d2) _)
    isplitl [H0]; · iexact H0
    isplitl [H1]; · iexact H1
    isplitl [H2]; · iexact H2
    isplitl [HS]; · iexact HS
    iintro ⟨H0, H1, H2, HS⟩
    isplitl [B0 B1 B2 B3 B4 HS Hg]
    · isplitl [B0 B1 B2 B3 B4 HS]
      · isplitl [B0]; · iexact B0
        isplitl [B1]; · iexact B1
        isplitl [B2]; · iexact B2
        isplitl [B3]; · iexact B3
        isplitl [B4]; · iexact B4
        iexact HS
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    rw [acc1_step V c t h0]
    rw [PhiS1_castSucc V c t, PhiS1_pos V c _ _ h0]
    by_cases h9 : t.val = 99
    · have h1 : cond1_1 (grid1.coords t) := (hcond1_1 t).mpr h9
      rw [show (dat1 V c).leavesExact 2 t = owns (c : Thread nD τ) (st1_2 t) fullShare ((dat1 V c).after 2 t) from by
        unfold Dat.leavesExact; rw [liveAt1_2 t h1], after1_2, out1_2_eq, acc1_step V c t h0]
      iintro ⟨⟨⟨B0, B1, B2, B3, B4, HS⟩, Hg⟩, Ho, ⟨%d0, H0⟩, ⟨%d1, H1⟩, ⟨%d2, H2⟩⟩
      iapply (sound_kernel1_C c Set.univ (grid1.coords t) _ _ _ _ _ _ _ _ hc0 h1
        (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          iexact HS
        iexact Hg
      isplitl [Ho]; · iexact Ho
      isplitl [H0]; · iexact H0
      isplitl [H1]; · iexact H1
      iexact H2
    · have h1 : ¬cond1_1 (grid1.coords t) := fun h => h9 ((hcond1_1 t).mp h)
      rw [Dat.leavesExact_idle (dat1 V c) 2 t (idleAt1_2 t h1) (noFlush1_2 t h1)]
      iintro ⟨⟨⟨B0, B1, B2, B3, B4, HS⟩, Hg⟩, Ho, ⟨%d0, H0⟩, ⟨%d1, H1⟩, ⟨%d2, H2⟩⟩
      iapply (sound_kernel1_B c Set.univ (grid1.coords t) _ _ _ _ _ _ _ _ hc0 h1
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's value is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B0, B1, B2, B3, B4, HS⟩, Hg⟩
  isplitl [B0 B1 B2 B3 B4 HS]
  · isplitl [B0]; · iexact B0
    isplitl [B1]; · iexact B1
    isplitl [B2]; · iexact B2
    isplitl [B3]; · iexact B3
    isplitl [B4]; · iexact B4
    iexists _; iexact HS
  iexact Hg

/-- In particular after the last point. -/
theorem hout1 (c : Dev nD) : (dat1 V c).Φ (Fin.last cfg1.N) ⊢ Pipeline.ΦA spec1 c :=
  Phi1_out V c _ (by rw [Fin.val_last]; have : cfg1.N = 100 := N_1; omega)

end Cert.Kernel.Fr

end
-- ==== Proof.KFrameAll.lean ====
/-
  The run, closed: region 1's proof data from its own module put into the run of the whole program. Two readings of the
  last boundary: the three argument arrays end as launched (the frame), and the three result arrays end holding region 1's
  output array and what region 0's body left in its two loss windows, as functions of the launched arguments.
  Generic in the float instance.
-/
import proofs.«124721_j33767032881397_2_alg».proof.Proof.KFrameRead
import proofs.«124721_j33767032881397_2_alg».proof.Proof.KFrameR1

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

/-- Region 1's record: what its body leaves and its invariant, with the obligation and the invariant's two ends. -/
def r1 : R1 F where
  aft V c := (dat1 V c).after
  Φ1 V c := (dat1 V c).Φ
  hbody V c := body_obligation1 V c
  hin V c := hin1 V c
  hout V c := hout1 V c

variable (m : (ℓ : Loc nD τ sig) → Buf (Elt F) ℓ) (ρ : Dev nD → PrngReg)

/-- THE FRAME, at any float instance: the program runs to the end, nothing faulting, and its three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (U3_main_arg0 r1 m ρ c),
     (h c _ (mem_uc main_arg1 (by decide))).trans (U3_main_arg1 r1 m ρ c),
     (h c _ (mem_uc main_arg2 (by decide))).trans (U3_main_arg2 r1 m ρ c)⟩) (run_all r1 m ρ)

/-- THE RESULTS, at any float instance: the log-marginals array is region 1's output array entered from the contents
    after the transposition; the two loss arrays are what region 0's body left, of the launched arguments; the arguments
    end as launched. -/
theorem results : θ_run defs (onTc (τ := τ) (main (F := F))) ⟨m, fun _ => 0, ρ⟩ (fun r => ∀ c : Dev nD,
      r.2.mem ((c.tc : Thread nD τ).loc main_v2) = (dat1 (E2 m ρ) c).arrAt 2 cfg1.N
      ∧ r.2.mem ((c.tc : Thread nD τ).loc main_v0_1) = out0_3 (m ((c.tc : Thread nD τ).loc main_arg0)) (m ((c.tc : Thread nD τ).loc main_arg1))
      ∧ r.2.mem ((c.tc : Thread nD τ).loc main_v0_2) = out0_4 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (U3_main_v2 r1 m ρ c),
     (h c _ (mem_uc main_v0_1 (by decide))).trans ((U3_main_v0_1 r1 m ρ c).trans (final0_3 (E0 m ρ) c)),
     (h c _ (mem_uc main_v0_2 (by decide))).trans ((U3_main_v0_2 r1 m ρ c).trans (final0_4 (E0 m ρ) c)),
     (h c _ (mem_uc main_arg0 (by decide))).trans (U3_main_arg0 r1 m ρ c),
     (h c _ (mem_uc main_arg1 (by decide))).trans (U3_main_arg1 r1 m ρ c),
     (h c _ (mem_uc main_arg2 (by decide))).trans (U3_main_arg2 r1 m ρ c)⟩) (run_all r1 m ρ)

/-- The softmax array region 1's left factor is transposed from: what region 0's body left in its first output window. -/
theorem softmax_array (c : Dev nD) : E1 m ρ c main_v0_0 = out0_2 (m ((c.tc : Thread nD τ).loc main_arg1)) :=
  (E1_main_v0_0 m ρ c).trans (final0_2 (E0 m ρ) c)

end Cert.Kernel.Fr

end
-- ==== Proof.FrameR0.lean ====
/-
  Region 0 of the kernel's program: the statistics kernel, one grid point, every window's block its whole array.
  Inputs: the fitness vector (window 0) and the frequency matrix (window 1). Outputs: the row-wise softmax of the
  frequency matrix (window 2), the replicator-dynamics loss (window 3) and the skewness loss (window 4), each
  stored once, whole. Stated at a PARAMETER: the buffer contents the region is entered with. Per output, what the
  body leaves in its staging buffer as a function of the two input blocks; the body's triple; the pipeline's proof
  data and its body obligation. Generic in the float instance: the same text serves the word-level reading and the
  exact one.
-/
import proofs.«124721_j33767032881397_2_alg».proof.Proof.Gen.KernelIdeal.Launch
import proofs.«124721_j33767032881397_2_alg».proof.Proof.Gen.KernelIdeal.Skeleton
import proofs.«124721_j33767032881397_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The fitness window's staging buffer holds its block at every point, for any proof data over these arrays
    that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the frequency matrix's window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev rM : Rect S50x20000 := Rect.unit (s := S50x20000) ![0, 0] S50x20000.size Facts₀.inb_S50x20000_S50x20000_0_0
abbrev rV : Rect S20000 := Rect.unit (s := S20000) ![0] S20000.size Facts₀.inb_S20000_S20000_0
abbrev rS : Rect S1 := Rect.unit (s := S1) ![0] S1.size Facts₀.inb_S1_S1_0

/-! ## What the body leaves in each output window's buffer -/

/-- The softmax window after the body: one whole store of the row-wise softmax of the frequency block. -/
def out0_2 (x1 : Vec F S50x20000 .f32) : Vec F S50x20000 .f32 :=
  View.canon [⟨rM, k0_pay2 (View.ld x1 rM)⟩]

/-- The replicator-loss window after the body: one store, of the loss computed from the softmax's consecutive
    rows, the masked fitness and the five replicator sub-steps. -/
def out0_3 (x0 : Vec F S20000 .f32) (x1 : Vec F S50x20000 .f32) : Vec F S1 .f32 :=
  View.canon [⟨rS, k0_pay10 (k0_pay6 (View.ld x1 rM)) (k0_pay7 (View.ld x1 rM)) (k0_pay8 (View.ld x1 rM) (View.ld x0 rV)) (k0_pay9 (View.ld x1 rM) (View.ld x0 rV))⟩]

/-- The skewness-loss window after the body: one store, of the negated mean third central moment of the softmax's rows. -/
def out0_4 (x1 : Vec F S50x20000 .f32) : Vec F S1 .f32 :=
  View.canon [⟨rS, k0_pay1 (k0_pay2 (View.ld x1 rM)) (k0_pay11 (k0_pay2 (View.ld x1 rM)))⟩]

/-- One whole store covers its buffer. -/
theorem coverM (p0 : Vec F S50x20000 .f32) (y : S50x20000.Idx) :
    ∃ pc ∈ ([⟨rM, p0⟩] : List (View.Piece (Elt F) S50x20000 .f32)), y ∈ pc.1.set :=
  View.cover_of_tiled [⟨rM, p0⟩] S50x20000.size (by rfl) y
theorem coverS (p0 : Vec F S1 .f32) (y : S1.Idx) :
    ∃ pc ∈ ([⟨rS, p0⟩] : List (View.Piece (Elt F) S1 .f32)), y ∈ pc.1.set :=
  View.cover_of_tiled [⟨rS, p0⟩] S1.size (by rfl) y

/-! ## The body's triple -/

set_option maxHeartbeats 4000000 in
/-- The statistics kernel on whole staging memrefs, the two inputs' at contents x0 and x1 and the three outputs' at
    anything, runs to the continuation holding the inputs' as they were and each output's at its function of the
    inputs: the printed function and its two parts are their skeletons, which the symbolic executor runs. -/
theorem sound_kernel0 (c : Dev nD) (E : Set ℕ) (i : grid0.Coords)
    (arg1 : Memref sig .tc .vmem S20000 .f32) (harg1 : arg1.IsWhole) (arg2 : Memref sig .tc .vmem S50x20000 .f32) (harg2 : arg2.IsWhole)
    (arg3 : Memref sig .tc .vmem S50x20000 .f32) (harg3 : arg3.IsWhole) (arg4 : Memref sig .tc .vmem S1 .f32) (harg4 : arg4.IsWhole)
    (arg5 : Memref sig .tc .vmem S1 .f32) (harg5 : arg5.IsWhole)
    (x0 : Vec F S20000 .f32) (x1 : Vec F S50x20000 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x1) ∗ owns (c : Thread nD τ) arg4 fullShare (out0_3 x0 x1)
            ∗ owns (c : Thread nD τ) arg5 fullShare (out0_4 x1)) -∗ K ⟨⟩))
      ⊢ wp frame (wpE (defs₀ (F := F)) Variants.none c none) E (cc0__stats_kernel i arg1 harg1 arg2 harg2 arg3 harg3 arg4 harg4 arg5 harg5) K := by
  simp only [cc0__stats_kernel_eq_skeleton]; unfold cc0__stats_kernel_skel
  simp only [k0_part1_eq_skeleton, k0_part2_eq_skeleton]; unfold k0_part1_skel k0_part2_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try dsimp only
    exact View.read_writes_eq_canon _ _ _ (coverM _)
  isplitl [H3]
  · iexists _; isplitr
    swap; · iexact H3
    ipureintro
    try dsimp only
    exact View.read_writes_eq_canon _ _ _ (coverS _)
  iexists _; isplitr
  swap; · iexact H4
  ipureintro
  try dsimp only
  exact View.read_writes_eq_canon _ _ _ (coverS _)

/-! ## The pipeline's proof data -/

/-- The proof data of region 0 on core c: the arrays as the region finds them; after the body each input's buffer at
    its block and each output's at its function of the input blocks; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 1 t)
    | ⟨3, _⟩ => out0_3 (iblk0 V c 0 t) (iblk0 V c 1 t)
    | ⟨4, _⟩ => out0_4 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameRun.lean ====
/-
  The run of the kernel's program: region 0 (the statistics kernel), the host's transposition of the softmax, region 1
  (the product with the genotype matrix accumulated over row blocks). The buffer contents at each boundary are a fold
  from the launch memory: a region leaves its windows' arrays at what its write-backs fold to and every other buffer as
  entered; the host stretch leaves the transposed array. The theorem: every weakly fair execution terminates and every
  unscoped buffer ends at the last boundary's contents — from which the three results and the three arguments are read.
  Region 1's proof data enters as a record of what its own module proves. Generic in the float instance.
-/
import proofs.«124721_j33767032881397_2_alg».proof.Proof.FrameR0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 1's proof data from what its module supplies — what the body leaves in each window's buffer at each point
    and the invariant between points —: the arrays as the region finds them, full shares, nothing owed. -/
def mkDat1
    (aft : (V : (c : Dev nD) → (b : Ref sig .tc) → Buf (Elt F) ((c : Thread nD τ).loc b)) → (c : Dev nD) → (w : Fin cfg1.W) → Fin cfg1.N →
      (cfg1.win w).block.Idx → Elt F (cfg1.win w).elt)
    (Φ1 : (V : (c : Dev nD) → (b : Ref sig .tc) → Buf (Elt F) ((c : Thread nD τ).loc b)) → (c : Dev nD) → Fin (cfg1.N + 1) → sProp 𝕄)
    (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after := aft V c
  Φ := Φ1 V c
  q _ := fullShare
  owed _ := 0

/-- What region 1's module proves, at any entry contents: the body obligation of that proof data, and the invariant's
    two ends against the class's (every scratch at anything beside the generator register). -/
structure R1 (F : FTy → Type) [FloatOps F] where
  aft : (V : (c : Dev nD) → (b : Ref sig .tc) → Buf (Elt F) ((c : Thread nD τ).loc b)) → (c : Dev nD) → (w : Fin cfg1.W) → Fin cfg1.N →
      (cfg1.win w).block.Idx → Elt F (cfg1.win w).elt
  Φ1 : (V : (c : Dev nD) → (b : Ref sig .tc) → Buf (Elt F) ((c : Thread nD τ).loc b)) → (c : Dev nD) → Fin (cfg1.N + 1) → sProp (MT nD τ sig Unit (Elt F) ℕ (UR sig nD τ) ℕ)
  hbody : ∀ V c, BodyObligation (mkDat1 aft Φ1 V c) (defs₀ (F := F)) Variants.none () Set.univ
  hin : ∀ V c, (Pipeline.ΦA spec1 c : sProp (MT nD τ sig Unit (Elt F) ℕ (UR sig nD τ) ℕ)) ⊢ Φ1 V c 0
  hout : ∀ V c, Φ1 V c (Fin.last cfg1.N) ⊢ (Pipeline.ΦA spec1 c : sProp (MT nD τ sig Unit (Elt F) ℕ (UR sig nD τ) ℕ))

/-- Region 1's proof data. -/
abbrev R1.dat (R : R1 F) (V : (c : Dev nD) → (b : Ref sig .tc) → Buf (Elt F) ((c : Thread nD τ).loc b)) (c : Dev nD) :
    Dat τ (Elt F) Unit ℕ (UR sig nD τ) ℕ cfg1 c := mkDat1 R.aft R.Φ1 V c

variable (R : R1 F)
variable (m : (ℓ : Loc nD τ sig) → Buf (Elt F) ℓ) (ρ : Dev nD → PrngReg)

/-! ## The buffer contents at each boundary -/

/-- Core c's buffers at launch: region 0's entry. -/
abbrev U0 : Dev nD → Valuation τ sig (Elt F) := fun c b => (s₀ m ρ).mem ((c : Dev nD), b)
abbrev E0 : (c : Dev nD) → (b : Ref sig .tc) → Buf (Elt F) ((c : Thread nD τ).loc b) := fun c b => U0 m ρ c b
/-- At region 0's exit: its arrays at what the pipeline leaves, every other buffer as entered. -/
def U1 (c : Dev nD) : Valuation τ sig (Elt F) :=
  Pipeline.withArrays spec0 c (U0 m ρ c) fun w => (dat0 (E0 m ρ) c).arrAt w cfg0.N
theorem U1_arr (c : Dev nD) (w : Fin cfg0.W) :
    U1 m ρ c (Proc.devRef .tc (Pipeline.arrRef spec0 w)) = (dat0 (E0 m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
abbrev E1 : (c : Dev nD) → (b : Ref sig .tc) → Buf (Elt F) ((c : Thread nD τ).loc b) := fun c b => U1 m ρ c b
theorem hF0 (c : Dev nD) (w : Fin cfg0.W) : (dat0 (E0 m ρ) c).arrAt w cfg0.N = E1 m ρ c (Pipeline.arrRef spec0 w) :=
  (U1_arr m ρ c w).symm
theorem hrest0 (c : Dev nD) : ∀ b, b ∉ Finset.univ.image (Pipeline.arrRef spec0) → E1 m ρ c b = E0 m ρ c b :=
  fun b hb => U1_of_ne m ρ c b fun w e => hb (Finset.mem_image.mpr ⟨w, Finset.mem_univ _, e⟩)

/-- After the transposition: region 1's entry. -/
abbrev U2 : Dev nD → Valuation τ sig (Elt F) := fun c => StableHlo.after hostOps1 (U1 m ρ c)
abbrev E2 : (c : Dev nD) → (b : Ref sig .tc) → Buf (Elt F) ((c : Thread nD τ).loc b) := fun c b => U2 m ρ c b
/-- At region 1's exit. -/
def U3 (c : Dev nD) : Valuation τ sig (Elt F) :=
  Pipeline.withArrays spec1 c (U2 m ρ c) fun w => (R.dat (E2 m ρ) c).arrAt w cfg1.N
theorem U3_arr (c : Dev nD) (w : Fin cfg1.W) :
    U3 R m ρ c (Proc.devRef .tc (Pipeline.arrRef spec1 w)) = (R.dat (E2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 R m ρ c (Proc.devRef .tc b) = U2 m ρ c (Proc.devRef .tc b) := by
  unfold U3; exact Pipeline.withArrays_of_ne spec1 c _ _ b hb
abbrev E3 : (c : Dev nD) → (b : Ref sig .tc) → Buf (Elt F) ((c : Thread nD τ).loc b) := fun c b => U3 R m ρ c b
theorem hF1 (c : Dev nD) (w : Fin cfg1.W) : (R.dat (E2 m ρ) c).arrAt w cfg1.N = E3 R m ρ c (Pipeline.arrRef spec1 w) :=
  (U3_arr R m ρ c w).symm
theorem hrest1 (c : Dev nD) : ∀ b, b ∉ Finset.univ.image (Pipeline.arrRef spec1) → E3 R m ρ c b = E2 m ρ c b :=
  fun b hb => U3_of_ne R m ρ c b fun w e => hb (Finset.mem_image.mpr ⟨w, Finset.mem_univ _, e⟩)

/-! ## The proof data family and the thread state -/

abbrev radm : (p : Fin 2) → (pcfgs (F := F) p).Adm := fun p => (cfgs p).toPCfg_adm
/-- Each pipeline's proof data at its region's entry contents: a literal match on the pipeline. -/
def pdat : (p : Fin 2) → (c : Dev nD) → Dat τ (Elt F) Unit ℕ (UR sig nD τ) ℕ (Pipeline.pin (pcfgs (F := F)) radm p) c
  | ⟨0, _⟩ => fun c => dat0 (E0 m ρ) c
  | ⟨1, _⟩ => fun c => R.dat (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem hostOps1_nofresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (U3 R m ρ c) ∗ ∃ r, prngReg c r)

/-! ## The regions as segments -/

set_option backward.isDefEq.respectTransparency.types false in
/-- Region 0 over the thread state: entered from the launch contents, left at its exit contents. -/
def reg0 : Pipeline.RegionSeg (pcfgs (F := F)) radm (pdat R m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (U0 m ρ c) ∗ Rr c)
  post c := iprop(StableHlo.held (c : Thread nD τ) (Pipeline.ucRefs τ sig) (U1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) radm (pdat R m ρ) launch0.win launch0.arr_whole c
      ((pdat R m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat R m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat R m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) radm (Ix := Unit) (Name := ℕ) (U := UR sig nD τ) (Lvl := ℕ)
      launch0.win launch0.arr_whole c (pdat R m ρ) ((pdat R m ρ 0 c).share_full fun _ => rfl)
      (E0 m ρ c) (E1 m ρ c) ((pdat R m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from the contents after the transposition, left at the last boundary's.
    Its invariant starts from the class's and gives it back. -/
def reg1 : Pipeline.RegionSeg (pcfgs (F := F)) radm (pdat R m ρ) () defs₀ 𝒱₀ L lv 1 where
  win := launch1.win.to₀
  block_pos := launch1.block_pos
  stage_whole := launch1.stage_whole
  K := PEmpty
  osem k := k.elim
  ho := Pipeline.OwnSemFacts.none _
  hbody c := (R.hbody (E2 m ρ) c).loose
  hwaits := Pipeline.hwaits_of_owed_zero _ _ _ _ L lv 1 fun _ _ => rfl
  pre c := iprop(StableHlo.held (c : Thread nD τ) (Pipeline.ucRefs τ sig) (U2 m ρ c) ∗ Rr c)
  post c := iprop(Tₙ R m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) radm (pdat R m ρ) launch1.win launch1.arr_whole c
      ((pdat R m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R.hin (E2 m ρ) c)
    unfold Pipeline.ΦA
    iintro ⟨Hp, -, Hr⟩
    isplitl [Hr]; · iexact Hr
    iexact Hp
  hout c := by
    refine BIBase.Entails.trans (R.hout (E2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) radm (Ix := Unit) (Name := ℕ) (U := UR sig nD τ) (Lvl := ℕ)
      launch1.win launch1.arr_whole c (pdat R m ρ) ((pdat R m ρ 1 c).share_full fun _ => rfl)
      (E2 m ρ c) (E3 R m ρ c) ((pdat R m ρ 1 c).arrAt · cfg1.N) (hF1 R m ρ c) (hrest1 R m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev rsegs : List (Pipeline.Seg (pcfgs (F := F)) radm (pdat R m ρ) () defs₀ 𝒱₀ L lv) :=
  [ .region (reg0 R m ρ),
    .host (hseg hostOps1 hostOps1_sub hostOps1_nofresh (U1 m ρ)),
    .region (reg1 R m ρ) ]
theorem main_run (c : Dev nD) : main (F := F) c = Pipeline.Seg.run (rsegs R m ρ) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 R m ρ c b) :=
  Pipeline.θ_run_regions_kit (pcfgs (F := F)) radm (pdat R m ρ) () cellOf_inj emb₁ defs₀ 𝒱₀ L lv m ρ main (rsegs R m ρ)
    (fun c Q => by rw [main_run R m ρ c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ Rr c)) (Tₙ := Tₙ R m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 R m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 R m ρ c) s')
      isplitl [Hh] <;> iassumption)
    (hQ := fun s h c => h c)

end Cert.KernelIdeal.Fr

end
-- ==== Proof.FrameRead.lean ====
/-
  What the last boundary's contents are at the six buffers the claims speak of. The three arguments: no host line and
  no region writes one, so the fold walks back to the launch memory. The two losses: written by region 0's one
  write-back and untouched afterwards. The log-marginals: region 1's output array. And, on the way, the array region 1
  reads its left factor from: the host's transposition of region 0's softmax array. Region 0 has one grid point and every
  block is its whole array, so each of its output arrays ends holding exactly what the body left in the staging buffer,
  and each input block is its whole array.
-/
import proofs.«124721_j33767032881397_2_alg».proof.Proof.FrameRun
import proofs.«124721_j33767032881397_2_alg».proof.Proof.Gen.KernelIdeal.Regions
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (R : R1 F)
variable (m : (ℓ : Loc nD τ sig) → Buf (Elt F) ℓ) (ρ : Dev nD → PrngReg)

/-! ## The host's transposition writes one buffer -/

theorem U2_of (c : Dev nD) (r : Ref sig .tc) (h : r ∉ hostOps1_W) : U2 m ρ c (Proc.devRef .tc r) = U1 m ρ c (Proc.devRef .tc r) :=
  StableHlo.after_of_writes_sub hostOps1 _ hostOps1_writes h

/-- Region 1 reads its left factor from the transposition of region 0's softmax array. -/
theorem E2_main_v1 (c : Dev nD) :
    E2 m ρ c main_v1 = transpose S20000x50 [1, 0] (E1 m ρ c main_v0_0) transposes_S50x20000_S20000x50_1_0 := by
  show StableHlo.after hostOps1 (U1 m ρ c) (Proc.devRef .tc main_v1) = _
  after_results

/-! ## The arguments end as launched -/

theorem U3_main_arg0 (c : Dev nD) : U3 R m ρ c (Proc.devRef .tc main_arg0) = m ((c : Thread nD τ).loc main_arg0) :=
  calc U3 R m ρ c (Proc.devRef .tc main_arg0)
    _ = U2 m ρ c (Proc.devRef .tc main_arg0) := U3_of_ne R m ρ c main_arg0 (by decide)
    _ = U1 m ρ c (Proc.devRef .tc main_arg0) := U2_of m ρ c main_arg0 (by decide)
    _ = U0 m ρ c (Proc.devRef .tc main_arg0) := (U1_arr m ρ c 0).trans (((dat0 (E0 m ρ) c).arrAt_in 0 rfl _).trans (A_eq0 (E0 m ρ) c 0))
    _ = m ((c : Thread nD τ).loc main_arg0) := rfl

theorem U3_main_arg1 (c : Dev nD) : U3 R m ρ c (Proc.devRef .tc main_arg1) = m ((c : Thread nD τ).loc main_arg1) :=
  calc U3 R m ρ c (Proc.devRef .tc main_arg1)
    _ = U2 m ρ c (Proc.devRef .tc main_arg1) := U3_of_ne R m ρ c main_arg1 (by decide)
    _ = U1 m ρ c (Proc.devRef .tc main_arg1) := U2_of m ρ c main_arg1 (by decide)
    _ = U0 m ρ c (Proc.devRef .tc main_arg1) := (U1_arr m ρ c 1).trans (((dat0 (E0 m ρ) c).arrAt_in 1 rfl _).trans (A_eq0 (E0 m ρ) c 1))
    _ = m ((c : Thread nD τ).loc main_arg1) := rfl

/-- The genotype matrix on entry to region 1 is the launched one. -/
theorem E2_main_arg2 (c : Dev nD) : E2 m ρ c main_arg2 = m ((c : Thread nD τ).loc main_arg2) :=
  calc U2 m ρ c (Proc.devRef .tc main_arg2)
    _ = U1 m ρ c (Proc.devRef .tc main_arg2) := U2_of m ρ c main_arg2 (by decide)
    _ = U0 m ρ c (Proc.devRef .tc main_arg2) := U1_of_ne m ρ c main_arg2 (by decide)
    _ = m ((c : Thread nD τ).loc main_arg2) := rfl

theorem U3_main_arg2 (c : Dev nD) : U3 R m ρ c (Proc.devRef .tc main_arg2) = m ((c : Thread nD τ).loc main_arg2) :=
  calc U3 R m ρ c (Proc.devRef .tc main_arg2)
    _ = E2 m ρ c main_arg2 := (U3_arr R m ρ c 1).trans ((R.dat (E2 m ρ) c).arrAt_in 1 rfl _)
    _ = m ((c : Thread nD τ).loc main_arg2) := E2_main_arg2 m ρ c

/-! ## The results -/

/-- The log-marginals: region 1's output array. -/
theorem U3_main_v2 (c : Dev nD) : U3 R m ρ c (Proc.devRef .tc main_v2) = (R.dat (E2 m ρ) c).arrAt 2 cfg1.N :=
  U3_arr R m ρ c 2

/-- The replicator loss: region 0's window 3, untouched afterwards. -/
theorem U3_main_v0_1 (c : Dev nD) : U3 R m ρ c (Proc.devRef .tc main_v0_1) = (dat0 (E0 m ρ) c).arrAt 3 cfg0.N :=
  calc U3 R m ρ c (Proc.devRef .tc main_v0_1)
    _ = U2 m ρ c (Proc.devRef .tc main_v0_1) := U3_of_ne R m ρ c main_v0_1 (by decide)
    _ = U1 m ρ c (Proc.devRef .tc main_v0_1) := U2_of m ρ c main_v0_1 (by decide)
    _ = (dat0 (E0 m ρ) c).arrAt 3 cfg0.N := U1_arr m ρ c 3

/-- The skewness loss: region 0's window 4, untouched afterwards. -/
theorem U3_main_v0_2 (c : Dev nD) : U3 R m ρ c (Proc.devRef .tc main_v0_2) = (dat0 (E0 m ρ) c).arrAt 4 cfg0.N :=
  calc U3 R m ρ c (Proc.devRef .tc main_v0_2)
    _ = U2 m ρ c (Proc.devRef .tc main_v0_2) := U3_of_ne R m ρ c main_v0_2 (by decide)
    _ = U1 m ρ c (Proc.devRef .tc main_v0_2) := U2_of m ρ c main_v0_2 (by decide)
    _ = (dat0 (E0 m ρ) c).arrAt 4 cfg0.N := U1_arr m ρ c 4

/-- The softmax array on exit from region 0. -/
theorem E1_main_v0_0 (c : Dev nD) : E1 m ρ c main_v0_0 = (dat0 (E0 m ρ) c).arrAt 2 cfg0.N := U1_arr m ρ c 2

/-! ## Region 0, closed: one point, every block the whole array -/

section Region0

variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The fitness window's block is the whole fitness vector. -/
theorem iblk0_0 (c : Dev nD) (t : Fin cfg0.N) : iblk0 V c 0 t = V c main_arg0 := by
  obtain rfl := fin_N0 t
  unfold iblk0
  have hz' : (fun a => win0_0.index t0_0 a * main_arg0.ty.shape.size a) = fun _ => 0 := funext fun a => by fin_cases a; decide
  exact Memref.read_access_unit_zero (Elt F) main_arg0 hz' (fun a => by rw [congrFun hz' a]; simp) (V c main_arg0)

/-- The frequency window's block is the whole frequency matrix. -/
theorem iblk0_1 (c : Dev nD) (t : Fin cfg0.N) : iblk0 V c 1 t = V c main_arg1 := by
  obtain rfl := fin_N0 t
  unfold iblk0
  have hz' : (fun a => win0_1.index t0_0 a * main_arg1.ty.shape.size a) = fun _ => 0 := funext fun a => by fin_cases a <;> decide
  exact Memref.read_access_unit_zero (Elt F) main_arg1 hz' (fun a => by rw [congrFun hz' a]; simp) (V c main_arg1)

/-- The one write-back of the softmax window writes what the body left, whole. -/
theorem flushed0_2 (c : Dev nD) (t : Fin cfg0.N) (hf : (cfg0.win 2).flush t = true) :
    (dat0 V c).flushed 2 t = ((cfg0.win 2).blk t).view.read (Elt F) (out0_2 (V c main_arg1)) := by
  obtain rfl := fin_N0 t
  show (cfg0.win 2).cut (grid0.coords t0_0) ((dat0 V c).after 2 t0_0) = _
  rw [after0_2, iblk0_1]
  have hz' : (fun a => win0_2.index t0_0 a * main_v0_0.ty.shape.size a) = fun _ => 0 := funext fun a => by fin_cases a <;> decide
  exact (Memref.read_access_unit_zero (Elt F) main_v0_0 hz' (fun a => by rw [congrFun hz' a]; simp) (out0_2 (V c main_arg1))).symm

theorem flushed0_3 (c : Dev nD) (t : Fin cfg0.N) (hf : (cfg0.win 3).flush t = true) :
    (dat0 V c).flushed 3 t = ((cfg0.win 3).blk t).view.read (Elt F) (out0_3 (V c main_arg0) (V c main_arg1)) := by
  obtain rfl := fin_N0 t
  show (cfg0.win 3).cut (grid0.coords t0_0) ((dat0 V c).after 3 t0_0) = _
  rw [after0_3, iblk0_0, iblk0_1]
  have hz' : (fun a => win0_3.index t0_0 a * main_v0_1.ty.shape.size a) = fun _ => 0 := funext fun a => by fin_cases a; decide
  exact (Memref.read_access_unit_zero (Elt F) main_v0_1 hz' (fun a => by rw [congrFun hz' a]; simp) (out0_3 (V c main_arg0) (V c main_arg1))).symm

theorem flushed0_4 (c : Dev nD) (t : Fin cfg0.N) (hf : (cfg0.win 4).flush t = true) :
    (dat0 V c).flushed 4 t = ((cfg0.win 4).blk t).view.read (Elt F) (out0_4 (V c main_arg1)) := by
  obtain rfl := fin_N0 t
  show (cfg0.win 4).cut (grid0.coords t0_0) ((dat0 V c).after 4 t0_0) = _
  rw [after0_4, iblk0_1]
  have hz' : (fun a => win0_4.index t0_0 a * main_v0_2.ty.shape.size a) = fun _ => 0 := funext fun a => by fin_cases a; decide
  exact (Memref.read_access_unit_zero (Elt F) main_v0_2 hz' (fun a => by rw [congrFun hz' a]; simp) (out0_4 (V c main_arg1))).symm

/-- The softmax array after region 0. -/
theorem final0_2 (c : Dev nD) : (dat0 V c).arrAt 2 cfg0.N = out0_2 (V c main_arg1) :=
  (dat0 V c).arrAt_eq_of_cover 2 (out0_2 (V c main_arg1)) (flushed0_2 V c) fun i =>
    ⟨t0_0, flush0_2 t0_0, by
      show i ∈ ((View.whole main_v0_0).slice (win0_2.rect t0_0)).set
      rw [View.set_slice_whole, Rect.mem_set_unit]
      intro a
      have h0 : (i 0 : Nat) < 50 := (i 0).isLt
      have h1 : (i 1 : Nat) < 20000 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 50 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 20000 from by decide +kernel]; omega⟩

/-- The replicator-loss array after region 0. -/
theorem final0_3 (c : Dev nD) : (dat0 V c).arrAt 3 cfg0.N = out0_3 (V c main_arg0) (V c main_arg1) :=
  (dat0 V c).arrAt_eq_of_cover 3 (out0_3 (V c main_arg0) (V c main_arg1)) (flushed0_3 V c) fun i =>
    ⟨t0_0, flush0_3 t0_0, by
      show i ∈ ((View.whole main_v0_1).slice (win0_3.rect t0_0)).set
      rw [View.set_slice_whole, Rect.mem_set_unit]
      intro a
      have h0 : (i 0 : Nat) < 1 := (i 0).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega⟩

/-- The skewness-loss array after region 0. -/
theorem final0_4 (c : Dev nD) : (dat0 V c).arrAt 4 cfg0.N = out0_4 (V c main_arg1) :=
  (dat0 V c).arrAt_eq_of_cover 4 (out0_4 (V c main_arg1)) (flushed0_4 V c) fun i =>
    ⟨t0_0, flush0_4 t0_0, by
      show i ∈ ((View.whole main_v0_2).slice (win0_4.rect t0_0)).set
      rw [View.set_slice_whole, Rect.mem_set_unit]
      intro a
      have h0 : (i 0 : Nat) < 1 := (i 0).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 1 from by decide +kernel]; omega⟩

end Region0

/-! ## The staging-buffer wrappers fall away: one whole store read back whole is the stored value -/

theorem out0_2_eq (x1 : Vec F S50x20000 .f32) : out0_2 x1 = k0_pay2 x1 := by
  unfold out0_2
  rw [View.canon_unit_zero hz2]
  simp only [View.ld_unit_zero (S := S50x20000) hz2]

theorem out0_3_eq (x0 : Vec F S20000 .f32) (x1 : Vec F S50x20000 .f32) :
    out0_3 x0 x1 = k0_pay10 (k0_pay6 x1) (k0_pay7 x1) (k0_pay8 x1 x0) (k0_pay9 x1 x0) := by
  unfold out0_3
  rw [View.canon_unit_zero hz1]
  simp only [View.ld_unit_zero (S := S50x20000) hz2, View.ld_unit_zero (S := S20000) hz1]

theorem out0_4_eq (x1 : Vec F S50x20000 .f32) : out0_4 x1 = k0_pay1 (k0_pay2 x1) (k0_pay11 (k0_pay2 x1)) := by
  unfold out0_4
  rw [View.canon_unit_zero hz1]
  simp only [View.ld_unit_zero (S := S50x20000) hz2]

end Cert.KernelIdeal.Fr

end
-- ==== Proof.FrameR1Body.lean ====
/-
  Region 1 of the kernel's program, the body alone: the product kernel on a grid of 100 row blocks. At a point the
  body reads a 200 x 50 block of the transposed softmax and a 200 x 8000 block of the genotype matrix, adds the
  product of the first's transpose with the second to a 50 x 8000 accumulator that lives in a scratch buffer from
  point to point, and, at the last point only, stores into the output window the logarithm of the accumulator
  divided by 2000 plus 1e-10. The accumulator is set to zero at the first point, before the first addition.
  Two conditionals on the grid coordinate give three control cases: the first point (zero, then add), a middle
  point (add), the last point (add, then write the result). Here: the two conditions in closed form over the
  point's number, where the output window is idle, and the body's triple in each case, on any whole memrefs.
  Generic in the float instance.
-/
import proofs.«124721_j33767032881397_2_alg».proof.Proof.Gen.KernelIdeal.Launch
import proofs.«124721_j33767032881397_2_alg».proof.Proof.Gen.KernelIdeal.Skeleton
import proofs.«124721_j33767032881397_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

/-! ## The two conditions, over the point's number -/

/-- "This is the first row block": the condition under which the body zeroes the accumulator. -/
abbrev cond1_0 (i : grid1.Coords) : Prop :=
  (Scalar.cmpi .ne (Scalar.extui (Scalar.cmpi .eq (BitVec.ofNat 32 (i 0).val) 0#32)) 0#32) = 1#1
/-- It holds at point 0 and nowhere else. -/
theorem hcond1_0 : ∀ t : Fin cfg1.N, cond1_0 (grid1.coords t) ↔ t.val = 0 :=
  (by decide +kernel : ∀ t : Fin grid1.N, cond1_0 (grid1.coords t) ↔ t.val = 0)

/-- "This is the last row block": the condition under which the body writes the result. -/
abbrev cond1_1 (i : grid1.Coords) : Prop := k1_cond2 i = 1#1
/-- It holds at point 99 and nowhere else. -/
theorem hcond1_1 : ∀ t : Fin cfg1.N, cond1_1 (grid1.coords t) ↔ t.val = 99 :=
  (by decide +kernel : ∀ t : Fin grid1.N, cond1_1 (grid1.coords t) ↔ t.val = 99)

/-! ## Where the windows are idle

The two input windows are read at every point. The output window is stored into at the last point only; at every
other point the printed configuration calls it idle, and the pipeline does not write its block back there. -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body's accesses: every buffer is read and written whole -/

theorem zeroOff2 : (![0, 0] : Fin 2 → Nat) = fun _ => 0 := funext fun a => by fin_cases a <;> rfl

abbrev r1a : Rect S200x50 := Rect.unit (s := S200x50) ![0, 0] S200x50.size Facts₀.inb_S200x50_S200x50_0_0
abbrev r1b : Rect S200x8000 := Rect.unit (s := S200x8000) ![0, 0] S200x8000.size Facts₀.inb_S200x8000_S200x8000_0_0
abbrev r1c : Rect S50x8000 := Rect.unit (s := S50x8000) ![0, 0] S50x8000.size Facts₀.inb_S50x8000_S50x8000_0_0

/-- A whole store, last in a list of stores, covers the buffer. -/
theorem coverC (p : Vec F S50x8000 .f32) (L : List (View.Piece (Elt F) S50x8000 .f32)) (y : S50x8000.Idx) :
    ∃ pc ∈ ((⟨r1c, p⟩ : View.Piece (Elt F) S50x8000 .f32) :: L), y ∈ pc.1.set :=
  ⟨_, List.mem_cons_self .., View.mem_set_unit_zero zeroOff2 Facts₀.inb_S50x8000_S50x8000_0_0 y⟩

/-- What a buffer reads after a whole store made last: the stored value. -/
theorem read_after_whole_store {κ : Kind} {sp : Space} (v : View sig κ sp S50x8000 .f32) (f : v.ty.Contents (Elt F))
    (p : Vec F S50x8000 .f32) (L : List (View.Piece (Elt F) S50x8000 .f32)) :
    v.read (Elt F) (v.writes (Elt F) f ((⟨r1c, p⟩ : View.Piece (Elt F) S50x8000 .f32) :: L)) = p := by
  rw [View.read_writes_eq_canon _ _ _ (coverC p L), View.canon_cons_unit_zero zeroOff2]

/-! ## The body's triple, case by case

In each case the two input memrefs are owned at read contents x0, x1 and are handed back as they were. The memref
names follow the printed function: arg1, arg2 the input blocks, arg3 the output window's buffer, arg4 the scratch. -/

set_option maxHeartbeats 1000000 in
/-- The first point. The scratch comes at anything; the body zeroes it, reads the zeros back and adds the product:
    it ends at the accumulation step applied to the zero payload. The output buffer, at contents xi, is not
    touched. -/
theorem sound_kernel1_A (c : Dev nD) (E : Set ℕ) (i : grid1.Coords)
    (arg1 : Memref sig .tc .vmem S200x50 .f32) (harg1 : arg1.IsWhole) (arg2 : Memref sig .tc .vmem S200x8000 .f32) (harg2 : arg2.IsWhole)
    (arg3 : Memref sig .tc .vmem S50x8000 .f32) (harg3 : arg3.IsWhole) (arg4 : Memref sig .tc .vmem S50x8000 .f32) (harg4 : arg4.IsWhole)
    (hc0 : cond1_0 i) (hc1 : ¬cond1_1 i)
    (x0 : Vec F S200x50 .f32) (x1 : Vec F S200x8000 .f32) (xi : Vec F S50x8000 .f32) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi
            ∗ owns (c : Thread nD τ) arg4 fullShare (k1_pay2 x0 x1 k1_pay1)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%ds, %fs, -, HS⟩, Hk⟩
  subst hf0 hf1 hf2
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_after_whole_store, View.readCov_unit_zero _ zeroOff2]
  simp only [View.readAt_eq_ld, View.ld_unit_zero (S := S200x50) zeroOff2, View.ld_unit_zero (S := S200x8000) zeroOff2]

set_option maxHeartbeats 1000000 in
/-- A middle point. The scratch comes at the accumulator xs and ends at the accumulation step applied to it. The
    output buffer, at contents xi, is not touched. -/
theorem sound_kernel1_B (c : Dev nD) (E : Set ℕ) (i : grid1.Coords)
    (arg1 : Memref sig .tc .vmem S200x50 .f32) (harg1 : arg1.IsWhole) (arg2 : Memref sig .tc .vmem S200x8000 .f32) (harg2 : arg2.IsWhole)
    (arg3 : Memref sig .tc .vmem S50x8000 .f32) (harg3 : arg3.IsWhole) (arg4 : Memref sig .tc .vmem S50x8000 .f32) (harg4 : arg4.IsWhole)
    (hc0 : ¬cond1_0 i) (hc1 : ¬cond1_1 i)
    (x0 : Vec F S200x50 .f32) (x1 : Vec F S200x8000 .f32) (xi : Vec F S50x8000 .f32) (xs : Vec F S50x8000 .f32) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xs
        ∗ (iprop(owns (c : Thread nD τ) arg1 fullShare x0 ∗ owns (c : Thread nD τ) arg2 fullShare x1
            ∗ owns (c : Thread nD τ) arg3 fullShare xi
            ∗ owns (c : Thread nD τ) arg4 fullShare (k1_pay2 x0 x1 xs)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs, %hfs, HS⟩, Hk⟩
  subst hf0 hf1 hf2 hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  rw [read_after_whole_store]
  simp only [View.readAt_eq_ld, View.ld_unit_zero (S := S200x50) zeroOff2, View.ld_unit_zero (S := S200x8000) zeroOff2,
    View.ld_unit_zero (S := S50x8000) zeroOff2]

set_option maxHeartbeats 1000000 in
/-- The last point. The scratch comes at the accumulator xs and ends at the accumulation step applied to it; the
    output buffer comes at anything and ends at the result payload of the scratch's new contents. -/
theorem sound_kernel1_C (c : Dev nD) (E : Set ℕ) (i : grid1.Coords)
    (arg1 : Memref sig .tc .vmem S200x50 .f32) (harg1 : arg1.IsWhole) (arg2 : Memref sig .tc .vmem S200x8000 .f32) (harg2 : arg2.IsWhole)
    (arg3 : Memref sig .tc .vmem S50x8000 .f32) (harg3 : arg3.IsWhole) (arg4 : Memref sig .tc .vmem S50x8000 .f32) (harg4 : arg4.IsWhole)
    (hc0 : ¬cond1_0 i) (hc1 : cond1_1 i)
    (x0 : Vec F S200x50 .f32) (x1 : Vec F S200x8000 .f32) (xs : Vec F S50x8000 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (k1_pay2 x0 x1 xs))
            ∗ owns (c : Thread nD τ) arg4 fullShare (k1_pay2 x0 x1 xs)) -∗ K ⟨⟩))
      ⊢ wp frame (wpE (defs₀ (F := F)) Variants.none c none) E (cc1__matmul_kernel i arg1 harg1 arg2 harg2 arg3 harg3 arg4 harg4) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%fs, %hfs, HS⟩, Hk⟩
  subst hf0 hf1 hfs
  sl_exec (disch := first | exact hc0 | exact hc1)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_after_whole_store, View.readCov_unit_zero (S := S50x8000) _ zeroOff2]
    simp only [View.readAt_eq_ld, View.ld_unit_zero (S := S200x50) zeroOff2,
      View.ld_unit_zero (S := S200x8000) zeroOff2, View.ld_unit_zero (S := S50x8000) zeroOff2]
  iexists _; isplitr
  swap; · iexact HS
  ipureintro
  rw [read_after_whole_store]
  simp only [View.readAt_eq_ld, View.ld_unit_zero (S := S200x50) zeroOff2, View.ld_unit_zero (S := S200x8000) zeroOff2,
    View.ld_unit_zero (S := S50x8000) zeroOff2]

end Cert.KernelIdeal.Fr

end
-- ==== Proof.FrameR1.lean ====
/-
  Region 1 of the kernel's program against the pipeline: the product kernel's proof data and its body obligation,
  stated at a PARAMETER, the buffer contents the region is entered with. The scratch accumulator after point n is a
  plain recursion: the accumulation step applied to the two input blocks of point n and to the accumulator after
  point n - 1, from the zero payload at point 0. The output window's buffer is meaningful at the last point only,
  where it holds the result payload of the accumulator. The invariant between points says what the scratch holds:
  anything before the first point, the accumulator afterwards; the other scoped buffers (region 0's staging buffers)
  and the generator register ride along untouched. Generic in the float instance.
-/
import proofs.«124721_j33767032881397_2_alg».proof.Proof.FrameR1Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it: for window 0 rows 200 t .. 200 t + 199
    of the transposed softmax, for window 1 the same rows of the genotype matrix. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, for any proof data over these arrays that
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the second input. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator and the result -/

/-- The scratch after point n: the accumulation step (the sum of the old contents and the product of the
    transposed first block with the second) applied point after point, from zeros. -/
def acc1 (c : Dev nD) : (n : ℕ) → n < cfg1.N → Vec F S50x8000 .f32
  | 0, h => k1_pay2 (iblk1 V c 0 ⟨0, h⟩) (iblk1 V c 1 ⟨0, h⟩) k1_pay1
  | n + 1, h => k1_pay2 (iblk1 V c 0 ⟨n + 1, h⟩) (iblk1 V c 1 ⟨n + 1, h⟩) (acc1 c n (Nat.lt_of_succ_lt h))

/-- At the first point: one step from the zero payload. -/
theorem acc1_first (c : Dev nD) (t : Fin cfg1.N) (h0 : t.val = 0) :
    acc1 V c t.val t.isLt = k1_pay2 (iblk1 V c 0 t) (iblk1 V c 1 t) k1_pay1 := by
  obtain ⟨n, hn⟩ := t
  cases n with
  | zero => rfl
  | succ n => exact absurd h0 (Nat.succ_ne_zero n)

/-- At a later point: one step from the accumulator the point before left. -/
theorem acc1_step (c : Dev nD) (t : Fin cfg1.N) (h0 : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h0
  | succ n => rfl

/-- The output window's buffer after the last point's body, from the scratch xs as that point's accumulation left
    it: entrywise log (xs / 2000 + 1e-10). -/
def out1_2 (xs : Vec F S50x8000 .f32) : Vec F S50x8000 .f32 := k1_pay3 xs

theorem out1_2_eq (xs : Vec F S50x8000 .f32) : out1_2 xs = k1_pay3 xs := rfl

/-! ## The invariant between points -/

/-- A scoped buffer the region does not use, whole at some contents. -/
abbrev spare (c : Dev nD) (b : Ref sig .tc) : sProp 𝕄 :=
  iprop(∃ f : Buf (Elt F) ((c : Thread nD τ).loc b), ((c : Thread nD τ).loc b) ↦{fullShare} f)

/-- The scratch accumulator, as the memref the pipeline passes to the body. -/
abbrev scM1 : Memref sig .tc .vmem S50x8000 .f32 := Memref.whole cc1_scratch0

/-- What the launch hands the region, spelled out: region 0's five staging buffers and the scratch at anything,
    the generator register at some state. -/
theorem PhiA1_eq (c : Dev nD) :
    (Pipeline.ΦA spec1 c : sProp 𝕄)
      = iprop((spare c cc0_stg0_0 ∗ spare c cc0_stg1_0 ∗ spare c cc0_stg2_0 ∗ spare c cc0_stg3_0 ∗ spare c cc0_stg4_0 ∗ (∃ d, owns (c : Thread nD τ) scM1 fullShare d)) ∗ (∃ r, prngReg c r)) := by
  unfold Pipeline.ΦA; rw [scopedRest1_eq]; simp only [scM1, owns_whole]; try rfl

/-- The invariant before position n: what the launch hands over before the first point; afterwards the same with
    the scratch at the accumulator the point before left. -/
def PhiS1 (c : Dev nD) : (n : ℕ) → n ≤ cfg1.N → sProp 𝕄
  | 0, _ => Pipeline.ΦA spec1 c
  | n + 1, hn => iprop((spare c cc0_stg0_0 ∗ spare c cc0_stg1_0 ∗ spare c cc0_stg2_0 ∗ spare c cc0_stg3_0 ∗ spare c cc0_stg4_0 ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((spare c cc0_stg0_0 ∗ spare c cc0_stg1_0 ∗ spare c cc0_stg2_0 ∗ spare c cc0_stg3_0 ∗ spare c cc0_stg4_0 ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop((spare c cc0_stg0_0 ∗ spare c cc0_stg1_0 ∗ spare c cc0_stg2_0 ∗ spare c cc0_stg3_0 ∗ spare c cc0_stg4_0 ∗ owns (c : Thread nD τ) scM1 fullShare (acc1 V c (n - 1) (by omega))) ∗ (∃ r, prngReg c r)) := by
  cases n with
  | zero => exact absurd rfl hz
  | succ n => rfl

/-! ## The pipeline's proof data -/

/-- The proof data of region 1 on core c: the arrays as the region finds them; after the body at point t each
    input's buffer at its block and the output's at the result payload of the accumulator after t (read at the last
    point only: elsewhere the window is idle and its buffer is handed back as found); the invariant above; full
    shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (acc1 V c t.val t.isLt) := by dsimp only [dat1]

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks. The point's number decides the case: at point 0
    the invariant hands the scratch over at anything and takes it back one step from zeros; at a later point it
    hands it over at the accumulator the point before left and takes it back one step further. Before the last
    point the output window is idle: its buffer goes through the body untouched. At the last point it comes back at
    the result payload. The core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 100 := lt_of_lt_of_eq t.isLt (show cfg1.N = 100 from N_1)
  by_cases h0 : t.val = 0
  · have h1 : ¬cond1_1 (grid1.coords t) := fun h => by have := (hcond1_1 t).mp h; omega
    rw [Dat.leavesExact_idle (dat1 V c) 2 t (idleAt1_2 t h1) (noFlush1_2 t h1)]
    rw [acc1_first V c t h0]
    rw [PhiS1_castSucc V c t, PhiS1_zero V c _ _ h0, PhiA1_eq]
    iintro ⟨⟨⟨B0, B1, B2, B3, B4, HS⟩, Hg⟩, Ho, ⟨%d0, H0⟩, ⟨%d1, H1⟩, ⟨%d2, H2⟩⟩
    iapply (sound_kernel1_A c Set.univ (grid1.coords t) _ _ _ _ _ _ _ _ ((hcond1_0 t).mpr h0) h1
      (iblk1 V c 0 t) (iblk1 V c 1 t) ((dat1 V c).before 2 t d2) _)
    isplitl [H0]; · iexact H0
    isplitl [H1]; · iexact H1
    isplitl [H2]; · iexact H2
    isplitl [HS]; · iexact HS
    iintro ⟨H0, H1, H2, HS⟩
    isplitl [B0 B1 B2 B3 B4 HS Hg]
    · isplitl [B0 B1 B2 B3 B4 HS]
      · isplitl [B0]; · iexact B0
        isplitl [B1]; · iexact B1
        isplitl [B2]; · iexact B2
        isplitl [B3]; · iexact B3
        isplitl [B4]; · iexact B4
        iexact HS
      iexact Hg
    isplitl [Ho]; · iexact Ho
    isplitl [H0]; · iexact H0
    isplitl [H1]; · iexact H1
    iexists _; iexact H2
  · have hc0 : ¬cond1_0 (grid1.coords t) := fun h => h0 ((hcond1_0 t).mp h)
    rw [acc1_step V c t h0]
    rw [PhiS1_castSucc V c t, PhiS1_pos V c _ _ h0]
    by_cases h9 : t.val = 99
    · have h1 : cond1_1 (grid1.coords t) := (hcond1_1 t).mpr h9
      rw [show (dat1 V c).leavesExact 2 t = owns (c : Thread nD τ) (st1_2 t) fullShare ((dat1 V c).after 2 t) from by
        unfold Dat.leavesExact; rw [liveAt1_2 t h1], after1_2, out1_2_eq, acc1_step V c t h0]
      iintro ⟨⟨⟨B0, B1, B2, B3, B4, HS⟩, Hg⟩, Ho, ⟨%d0, H0⟩, ⟨%d1, H1⟩, ⟨%d2, H2⟩⟩
      iapply (sound_kernel1_C c Set.univ (grid1.coords t) _ _ _ _ _ _ _ _ hc0 h1
        (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          iexact HS
        iexact Hg
      isplitl [Ho]; · iexact Ho
      isplitl [H0]; · iexact H0
      isplitl [H1]; · iexact H1
      iexact H2
    · have h1 : ¬cond1_1 (grid1.coords t) := fun h => h9 ((hcond1_1 t).mp h)
      rw [Dat.leavesExact_idle (dat1 V c) 2 t (idleAt1_2 t h1) (noFlush1_2 t h1)]
      iintro ⟨⟨⟨B0, B1, B2, B3, B4, HS⟩, Hg⟩, Ho, ⟨%d0, H0⟩, ⟨%d1, H1⟩, ⟨%d2, H2⟩⟩
      iapply (sound_kernel1_B c Set.univ (grid1.coords t) _ _ _ _ _ _ _ _ hc0 h1
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the launch handed over: the accumulator's value is forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B0, B1, B2, B3, B4, HS⟩, Hg⟩
  isplitl [B0 B1 B2 B3 B4 HS]
  · isplitl [B0]; · iexact B0
    isplitl [B1]; · iexact B1
    isplitl [B2]; · iexact B2
    isplitl [B3]; · iexact B3
    isplitl [B4]; · iexact B4
    iexists _; iexact HS
  iexact Hg

/-- In particular after the last point. -/
theorem hout1 (c : Dev nD) : (dat1 V c).Φ (Fin.last cfg1.N) ⊢ Pipeline.ΦA spec1 c :=
  Phi1_out V c _ (by rw [Fin.val_last]; have : cfg1.N = 100 := N_1; omega)

end Cert.KernelIdeal.Fr

end
-- ==== Proof.FrameAll.lean ====
/-
  The run, closed: region 1's proof data from its own module put into the run of the whole program. Two readings of the
  last boundary: the three argument arrays end as launched (the frame), and the three result arrays end holding region 1's
  output array and what region 0's body left in its two loss windows, as functions of the launched arguments.
  Generic in the float instance.
-/
import proofs.«124721_j33767032881397_2_alg».proof.Proof.FrameRead
import proofs.«124721_j33767032881397_2_alg».proof.Proof.FrameR1

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- Region 1's record: what its body leaves and its invariant, with the obligation and the invariant's two ends. -/
def r1 : R1 F where
  aft V c := (dat1 V c).after
  Φ1 V c := (dat1 V c).Φ
  hbody V c := body_obligation1 V c
  hin V c := hin1 V c
  hout V c := hout1 V c

variable (m : (ℓ : Loc nD τ sig) → Buf (Elt F) ℓ) (ρ : Dev nD → PrngReg)

/-- THE FRAME, at any float instance: the program runs to the end, nothing faulting, and its three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (U3_main_arg0 r1 m ρ c),
     (h c _ (mem_uc main_arg1 (by decide))).trans (U3_main_arg1 r1 m ρ c),
     (h c _ (mem_uc main_arg2 (by decide))).trans (U3_main_arg2 r1 m ρ c)⟩) (run_all r1 m ρ)

/-- THE RESULTS, at any float instance: the log-marginals array is region 1's output array entered from the contents
    after the transposition; the two loss arrays are what region 0's body left, of the launched arguments; the arguments
    end as launched. -/
theorem results : θ_run defs (onTc (τ := τ) (main (F := F))) ⟨m, fun _ => 0, ρ⟩ (fun r => ∀ c : Dev nD,
      r.2.mem ((c.tc : Thread nD τ).loc main_v2) = (dat1 (E2 m ρ) c).arrAt 2 cfg1.N
      ∧ r.2.mem ((c.tc : Thread nD τ).loc main_v0_1) = out0_3 (m ((c.tc : Thread nD τ).loc main_arg0)) (m ((c.tc : Thread nD τ).loc main_arg1))
      ∧ r.2.mem ((c.tc : Thread nD τ).loc main_v0_2) = out0_4 (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (U3_main_v2 r1 m ρ c),
     (h c _ (mem_uc main_v0_1 (by decide))).trans ((U3_main_v0_1 r1 m ρ c).trans (final0_3 (E0 m ρ) c)),
     (h c _ (mem_uc main_v0_2 (by decide))).trans ((U3_main_v0_2 r1 m ρ c).trans (final0_4 (E0 m ρ) c)),
     (h c _ (mem_uc main_arg0 (by decide))).trans (U3_main_arg0 r1 m ρ c),
     (h c _ (mem_uc main_arg1 (by decide))).trans (U3_main_arg1 r1 m ρ c),
     (h c _ (mem_uc main_arg2 (by decide))).trans (U3_main_arg2 r1 m ρ c)⟩) (run_all r1 m ρ)

/-- The softmax array region 1's left factor is transposed from: what region 0's body left in its first output window. -/
theorem softmax_array (c : Dev nD) : E1 m ρ c main_v0_0 = out0_2 (m ((c.tc : Thread nD τ).loc main_arg1)) :=
  (E1_main_v0_0 m ρ c).trans (final0_2 (E0 m ρ) c)

end Cert.KernelIdeal.Fr

end
-- ==== Proof.Blocks1.lean ====
/-
  Region 1's two input windows read at an index. At grid point t the left window holds rows 200t … 200t+199 of the
  [20000, 50] array it is cut from, the right window rows 200t … 200t+199 of the [20000, 8000] genotype matrix: entry
  (r, k) of the block is entry (200t + r, k) of the array. The left array is the host's transposition of the softmax,
  so its entry (n, k) is the softmax's entry (k, n). Stated for any array contents; generic in the float instance.
-/
import proofs.«124721_j33767032881397_2_alg».proof.Proof.Gen.KernelIdeal.Launch
import proofs.«124721_j33767032881397_2_alg».proof.Proof.Gen.KernelIdeal.Points
import Idealize.ShloMosaic.Lib.Pipeline.Value
import Idealize.ShloMosaic.Lib.ValueIdx
import Idealize.ShloMosaic.Lib.ValueLayout

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The printed index maps, decided over the grid: both input windows sit at row block t, column block 0. -/
theorem idx1 : ∀ t : Fin cfg1.N, win1_0.index t 0 = t.val ∧ win1_0.index t 1 = 0 ∧ win1_1.index t 0 = t.val ∧ win1_1.index t 1 = 0 :=
  (by decide +kernel : ∀ t : Fin grid1.N, _)

/-- Entry (r, k) of the left window's block at point t is entry (200t + r, k) of its array. -/
theorem blk1_0_apply (c : Dev nD) (A : Buf (Elt F) ((c : Thread nD τ).loc main_v1)) (t : Fin cfg1.N) (r : Fin 200) (k : Fin 50)
    (n : Fin 20000) (hn : n.val = 200 * t.val + r.val) :
    (((cfg1.win 0).blk t).view.read (Elt F) A : Vec F S200x50 .f32) (ix2 r k) = (A : S20000x50.Idx → Elt F .f32) (ix2 n k) := by
  obtain ⟨e0, e1, -, -⟩ := idx1 t
  rw [View.read_apply]
  refine congrArg (A : S20000x50.Idx → Elt F .f32) ?_
  funext a
  apply Fin.ext
  match a with
  | ⟨0, _⟩ => show win1_0.index t 0 * 200 + 1 * r.val = n.val; rw [e0, hn]; omega
  | ⟨1, _⟩ => show win1_0.index t 1 * 50 + 1 * k.val = k.val; rw [e1]; omega

/-- Entry (r, j) of the right window's block at point t is entry (200t + r, j) of the genotype matrix. -/
theorem blk1_1_apply (c : Dev nD) (B : Buf (Elt F) ((c : Thread nD τ).loc main_arg2)) (t : Fin cfg1.N) (r : Fin 200) (j : Fin 8000)
    (n : Fin 20000) (hn : n.val = 200 * t.val + r.val) :
    (((cfg1.win 1).blk t).view.read (Elt F) B : Vec F S200x8000 .f32) (ix2 r j) = (B : S20000x8000.Idx → Elt F .f32) (ix2 n j) := by
  obtain ⟨-, -, e0, e1⟩ := idx1 t
  rw [View.read_apply]
  refine congrArg (B : S20000x8000.Idx → Elt F .f32) ?_
  funext a
  apply Fin.ext
  match a with
  | ⟨0, _⟩ => show win1_1.index t 0 * 200 + 1 * r.val = n.val; rw [e0, hn]; omega
  | ⟨1, _⟩ => show win1_1.index t 1 * 8000 + 1 * j.val = j.val; rw [e1]; omega

/-- The transposed softmax at (n, k) is the softmax at (k, n). -/
theorem transposed_apply (X : S50x20000.Idx → Elt F .f32) (n : Fin 20000) (k : Fin 50) :
    transpose S20000x50 [1, 0] X transposes_S50x20000_S20000x50_1_0 (ix2 n k) = X (ix2 k n) :=
  transpose_ix2_apply X transposes_S50x20000_S20000x50_1_0 n k

end Cert.KernelIdeal.Fr

end
-- ==== Proof.FrameR1Out.lean ====
/-
  Region 1's output array after the region. The output window's block is the whole 50 x 8000 array at every point,
  and the pipeline writes it back once, after the last point. So the array ends holding what the last point's body
  left in the window's buffer: the result payload of the accumulator after point 99.
-/
import proofs.«124721_j33767032881397_2_alg».proof.Proof.FrameR1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

variable (V : (c : Dev nD) → (b : Ref sig .tc) → Buf (Elt F) ((c : Thread nD τ).loc b))

/-- The grid's last point is point 99. -/
theorem last1 : 99 < cfg1.N := lt_of_lt_of_eq (by decide : 99 < 100) N_1.symm

/-- The output window sits at block 0 on both axes, at every point. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- An index of the array is in point t's block iff each coordinate is in the block's range on its axis. -/
theorem mem_blk1_2 (t : Fin cfg1.N) (i : S50x8000.Idx) :
    i ∈ ((cfg1.win 2).blk t).view.set ↔ ∀ a : Fin 2, win1_2.index t a * S50x8000.size a ≤ (i a).val ∧ (i a).val < win1_2.index t a * S50x8000.size a + S50x8000.size a := by
  show i ∈ ((View.whole main_v2).slice (win1_2.rect t)).set ↔ _
  rw [View.set_slice_whole, Rect.mem_set_unit]
  exact Iff.rfl

/-- What the one write-back writes is the whole array's worth of the last point's result. -/
theorem flushed1_2 (c : Dev nD) (t : Fin cfg1.N) (hf : (cfg1.win 2).flush t = true) :
    (dat1 V c).flushed 2 t = ((cfg1.win 2).blk t).view.read (Elt F) (out1_2 (acc1 V c 99 last1)) := by
  have hN : t.val < 100 := lt_of_lt_of_eq t.isLt (show cfg1.N = 100 from N_1)
  have h9 : t.val = 99 := by have := (flush1_2 t).mp hf; omega
  show (cfg1.win 2).cut (grid1.coords t) ((dat1 V c).after 2 t) = _
  rw [after1_2]
  obtain ⟨e0, e1⟩ := idx1_2 t
  obtain ⟨n, hn⟩ := t
  have h9' : n = 99 := h9
  subst h9'
  funext j
  show out1_2 (acc1 V c 99 hn) j = out1_2 (acc1 V c 99 last1) (((cfg1.win 2).blk ⟨99, hn⟩).view.emb j)
  have hj : ((cfg1.win 2).blk ⟨99, hn⟩).view.emb j = j := by
    funext a; apply Fin.ext
    match a with
    | ⟨0, _⟩ => show win1_2.index ⟨99, hn⟩ (0 : Fin 2) * 50 + 1 * (j 0).val = (j 0).val; omega
    | ⟨1, _⟩ => show win1_2.index ⟨99, hn⟩ (1 : Fin 2) * 8000 + 1 * (j 1).val = (j 1).val; omega
  rw [hj]

/-- Every index of the array lies in the last point's block, the one block that is written back. -/
theorem cover1_2 (i : S50x8000.Idx) :
    ∃ t : Fin cfg1.N, (cfg1.win 2).flush t = true ∧ i ∈ ((cfg1.win 2).blk t).view.set := by
  refine ⟨⟨99, last1⟩, (flush1_2 _).mpr (by decide), ?_⟩
  obtain ⟨e0, e1⟩ := idx1_2 ⟨99, last1⟩
  rw [mem_blk1_2]
  intro a
  match a with
  | ⟨0, _⟩ =>
    show win1_2.index ⟨99, last1⟩ (0 : Fin 2) * 50 ≤ (i 0).val ∧ (i 0).val < win1_2.index ⟨99, last1⟩ (0 : Fin 2) * 50 + 50
    have hi : (i 0).val < 50 := (i 0).isLt
    omega
  | ⟨1, _⟩ =>
    show win1_2.index ⟨99, last1⟩ (1 : Fin 2) * 8000 ≤ (i 1).val ∧ (i 1).val < win1_2.index ⟨99, last1⟩ (1 : Fin 2) * 8000 + 8000
    have hi : (i 1).val < 8000 := (i 1).isLt
    omega

/-- The output array after the region: the result payload of the accumulator after the last point. -/
theorem arr1_2 (c : Dev nD) : (dat1 V c).arrAt 2 cfg1.N = out1_2 (acc1 V c 99 last1) :=
  (dat1 V c).arrAt_eq_of_cover 2 _ (fun t hf => flushed1_2 V c t hf) (fun i => cover1_2 i)

end Cert.KernelIdeal.Fr

end
-- ==== Proof.ValR1Dot.lean ====
/-
  The two contractions of this kernel read at one output entry as plain sums over a `Fin` range.

  A row block's product in the kernel contracts the FIRST axis of both operands: with `a` of
  shape [200, 50] and `b` of shape [200, 8000], started from the zero accumulator, entry (i, j) is
  `∑ r : Fin 200, a (r, i) * b (r, j)` — the block of the transposed matrix times the block of rows.
  The reference's one product contracts the second axis of [50, 20000] with the first of
  [20000, 8000]: entry (i, j) is `∑ n : Fin 20000, X (i, n) * B (n, j)`. At the ideal values neither
  carries any rounding or summation order.
-/
import proofs.«124721_j33767032881397_2_alg».proof.Proof.Gen.KernelIdeal
import proofs.«124721_j33767032881397_2_alg».proof.Proof.Gen.ReferenceIdeal
import Idealize.ShloMosaic.PureOps.Ideal.Laws
import Idealize.ShloMosaic.Lib.ValueIdx

noncomputable section

namespace Cert.KernelIdeal.Val

open Idealize.ShloMosaic Idealize.ShloMosaic.ValueIdx
open Cert.KernelIdeal Cert.KernelIdeal.Gen
open scoped BigOperators

/-! ## The kernel's block product: both first axes contracted -/

/-- The dimension numbers of the kernel's block product. -/
abbrev DK : DotDims S200x50 S200x8000 S50x8000 := dot_S200x50_S200x8000_S50x8000_0_0_1_1_n_n

theorem DK_lhs_0 (i : S50x8000.Idx) (q : DK.contr.Idx) : (DK.lhsIdx i q 0).val = (q ⟨0, by decide⟩).val :=
  DK.lhsIdx_val_of_single rfl i q
theorem DK_lhs_1 (i : S50x8000.Idx) (q : DK.contr.Idx) : (DK.lhsIdx i q 1).val = (i 0).val := by
  unfold DotDims.lhsIdx
  rw [dif_neg (show ¬(1 : Fin S200x50.rank) ∈ DK.lhsBatch by decide), dif_pos (show (1 : Fin S200x50.rank) ∈ DK.lhsNonContracting by decide)]
  rfl
theorem DK_rhs_0 (i : S50x8000.Idx) (q : DK.contr.Idx) : (DK.rhsIdx i q 0).val = (q ⟨0, by decide⟩).val :=
  DK.rhsIdx_val_of_single rfl i q
theorem DK_rhs_1 (i : S50x8000.Idx) (q : DK.contr.Idx) : (DK.rhsIdx i q 1).val = (i 1).val := by
  unfold DotDims.rhsIdx
  rw [dif_neg (show ¬(1 : Fin S200x8000.rank) ∈ DK.rhsBatch by decide), dif_pos (show (1 : Fin S200x8000.rank) ∈ DK.rhsNonContracting by decide)]
  rfl

/-- Entry (i, j) of a block product from the zero accumulator: the sum over the block's 200 rows. -/
theorem blockProduct_apply {φ₁ φ₂ : FTy} (a : FVec Ideal S200x50 φ₁) (b : FVec Ideal S200x8000 φ₂) (i : Fin 50) (j : Fin 8000) :
    matmul DK none a b (constant (F := Ideal) S50x8000 .f32 0x00000000#32) (ix2 i j)
      = ∑ r : Fin 200, a (ix2 r i) * b (ix2 r j) := by
  simp only [matmul]
  rw [Ideal.matmul_constant_zero_apply, ← Equiv.sum_comp (contrEquiv1 DK 200 rfl rfl).symm]
  refine Finset.sum_congr rfl fun r _ => ?_
  have hk := contrEquiv1_symm_val DK 200 rfl rfl r
  have el : DK.lhsIdx (ix2 i j) ((contrEquiv1 DK 200 rfl rfl).symm r) = ix2 r i := funext fun x => Fin.ext (by
    match x with
    | ⟨0, _⟩ => exact (DK_lhs_0 _ _).trans hk
    | ⟨1, _⟩ => exact DK_lhs_1 _ _)
  have er : DK.rhsIdx (ix2 i j) ((contrEquiv1 DK 200 rfl rfl).symm r) = ix2 r j := funext fun x => Fin.ext (by
    match x with
    | ⟨0, _⟩ => exact (DK_rhs_0 _ _).trans hk
    | ⟨1, _⟩ => exact DK_rhs_1 _ _)
  rw [el, er]

/-! ## The reference's whole product: second axis against first -/

/-- The dimension numbers of the reference's product. -/
abbrev DR : DotDims S50x20000 S20000x8000 S50x8000 := Cert.ReferenceIdeal.dot_S50x20000_S20000x8000_S50x8000_1_0_0_1_n_n

theorem DR_lhs_0 (i : S50x8000.Idx) (q : DR.contr.Idx) : (DR.lhsIdx i q 0).val = (i 0).val := by
  unfold DotDims.lhsIdx
  rw [dif_neg (show ¬(0 : Fin S50x20000.rank) ∈ DR.lhsBatch by decide), dif_pos (show (0 : Fin S50x20000.rank) ∈ DR.lhsNonContracting by decide)]
  rfl
theorem DR_lhs_1 (i : S50x8000.Idx) (q : DR.contr.Idx) : (DR.lhsIdx i q 1).val = (q ⟨0, by decide⟩).val :=
  DR.lhsIdx_val_of_single rfl i q
theorem DR_rhs_0 (i : S50x8000.Idx) (q : DR.contr.Idx) : (DR.rhsIdx i q 0).val = (q ⟨0, by decide⟩).val :=
  DR.rhsIdx_val_of_single rfl i q
theorem DR_rhs_1 (i : S50x8000.Idx) (q : DR.contr.Idx) : (DR.rhsIdx i q 1).val = (i 1).val := by
  unfold DotDims.rhsIdx
  rw [dif_neg (show ¬(1 : Fin S20000x8000.rank) ∈ DR.rhsBatch by decide), dif_pos (show (1 : Fin S20000x8000.rank) ∈ DR.rhsNonContracting by decide)]
  rfl

/-- Entry (i, j) of the reference's product: the sum over all 20000 contracted positions. -/
theorem wholeProduct_apply {φ₁ φ₂ : FTy} (X : FVec Ideal S50x20000 φ₁) (B : FVec Ideal S20000x8000 φ₂) (i : Fin 50) (j : Fin 8000) :
    Host.dotGeneral DR none X B (ix2 i j) = ∑ n : Fin 20000, X (ix2 i n) * B (ix2 n j) := by
  simp only [Host.dotGeneral]
  rw [Ideal.dotGeneral_apply, ← Equiv.sum_comp (contrEquiv1 DR 20000 rfl rfl).symm]
  refine Finset.sum_congr rfl fun n _ => ?_
  have hk := contrEquiv1_symm_val DR 20000 rfl rfl n
  have el : DR.lhsIdx (ix2 i j) ((contrEquiv1 DR 20000 rfl rfl).symm n) = ix2 i n := funext fun x => Fin.ext (by
    match x with
    | ⟨0, _⟩ => exact DR_lhs_0 _ _
    | ⟨1, _⟩ => exact (DR_lhs_1 _ _).trans hk)
  have er : DR.rhsIdx (ix2 i j) ((contrEquiv1 DR 20000 rfl rfl).symm n) = ix2 n j := funext fun x => Fin.ext (by
    match x with
    | ⟨0, _⟩ => exact (DR_rhs_0 _ _).trans hk
    | ⟨1, _⟩ => exact DR_rhs_1 _ _)
  rw [el, er]

end Cert.KernelIdeal.Val

end
-- ==== Proof.LibBlockedSum.lean ====
/-
  Sums taken block by block. The `m` blocks of `n` consecutive indices partition the `m * n`
  indices below `m * n` (index `n * t + r` is place `r` of block `t`), so in any commutative
  additive monoid a sum over all of them is the sum, over the blocks, of each block's sum: only
  commutativity and associativity of `+` are used, so the statement holds on the extended reals
  with no finiteness assumption. And a running total that starts as `z` plus the first term and adds one
  further term per step is `z` plus the sum of the terms taken so far.
-/
import Mathlib.Data.Fintype.BigOperators
import Mathlib.Algebra.BigOperators.Fin
import Mathlib.Logic.Equiv.Fin.Basic

namespace Cert.Lib.BlockedSum

open scoped BigOperators

/-- Place `r` of block `t`, among `m` blocks of `n`, is an index below `m * n`. -/
theorem blockIdx_lt {m n : ℕ} (t : Fin m) (r : Fin n) : n * t.val + r.val < m * n :=
  calc n * t.val + r.val < n * t.val + n := Nat.add_lt_add_left r.isLt _
    _ = n * (t.val + 1) := (Nat.mul_succ n t.val).symm
    _ ≤ n * m := Nat.mul_le_mul_left n t.isLt
    _ = m * n := Nat.mul_comm n m

/-- A sum over `N = m * n` indices is the sum over the `m` blocks of the sum over each block's `n` places. -/
theorem sum_blocks {M : Type*} [AddCommMonoid M] {N : ℕ} (m n : ℕ) (h : m * n = N) (f : Fin N → M) :
    ∑ k, f k = ∑ t : Fin m, ∑ r : Fin n, f ⟨n * t.val + r.val, h ▸ blockIdx_lt t r⟩ := by
  subst h
  rw [← Equiv.sum_comp finProdFinEquiv f, Fintype.sum_prod_type]
  refine Finset.sum_congr rfl fun t _ => Finset.sum_congr rfl fun r _ => congrArg f (Fin.ext ?_)
  show r.val + n * t.val = n * t.val + r.val
  exact Nat.add_comm _ _

/-- A total that starts as `z + g 0` and adds `g (k + 1)` at step `k + 1` is, after step `k`, `z` plus the
    sum of `g` over the steps `0, …, k`. -/
theorem running_total {M : Type*} [AddCommMonoid M] (z : M) (g acc : ℕ → M) (h0 : acc 0 = z + g 0)
    (hs : ∀ k, acc (k + 1) = acc k + g (k + 1)) : ∀ k, acc k = z + ∑ t ∈ Finset.range (k + 1), g t
  | 0 => by rw [h0, Finset.sum_range_one]
  | k + 1 => by rw [hs, running_total z g acc h0 hs k, Finset.sum_range_succ _ (k + 1), add_assoc]

end Cert.Lib.BlockedSum
-- ==== Proof.ValR1.lean ====
/-
  The second region's value at the ideal instance.

  The region visits the 100 row blocks of 200 in order. Its scratch starts as zeros at the first block and every
  block adds to it the product of that block of the transposed left matrix (shape [200, 50]) with that block of rows of
  the right matrix (shape [200, 8000]); the narrowing of the factors to a shorter float format and the casts of a
  vector to its own shape change nothing at the ideal values. So after block `n` the scratch at (i, j) is
  `0 + ∑ t ≤ n, ∑ r < 200, a t (r, i) * b t (r, j)`. When block `t` of the left factor is rows
  `200 t …` of the transpose of `X` and block `t` of the right factor is rows `200 t …` of `B`, the
  double sum after the last block runs over every index `200 t + r` below 20000 exactly once, so it is the
  reference's single product `∑ n < 20000, X (i, n) * B (n, j)`: sums in a commutative monoid may be regrouped, and no
  finiteness of the entries is needed. The tail (divide by 2000, add 1e-10, take the logarithm) is the same
  function of that entry on both sides.
-/
import proofs.«124721_j33767032881397_2_alg».proof.Proof.Gen.KernelIdeal.Skeleton
import proofs.«124721_j33767032881397_2_alg».proof.Proof.ValR1Dot
import proofs.«124721_j33767032881397_2_alg».proof.Proof.LibBlockedSum
import Idealize.ShloMosaic.Lib.IdealHost
import Idealize.ShloMosaic.Lib.Pipeline.Value

noncomputable section

namespace Cert.KernelIdeal.Val

open Idealize.ShloMosaic Idealize.ShloMosaic.ValueIdx
open Cert.KernelIdeal Cert.KernelIdeal.Gen
open scoped BigOperators

/-- The scratch after block `n`, from the blocks `a t`, `b t` of the two factors: zeros, then one
    accumulated block product per block. -/
def accum (a : ℕ → FVec Ideal S200x50 .f32) (b : ℕ → FVec Ideal S200x8000 .f32) : ℕ → FVec Ideal S50x8000 .f32
  | 0     => k1_pay2 (F := Ideal) (a 0) (b 0) (k1_pay1 (F := Ideal))
  | n + 1 => k1_pay2 (F := Ideal) (a (n + 1)) (b (n + 1)) (accum a b n)

/-- The first block's scratch, and each later block's from the one before: the defining equations, by name. -/
theorem accum_zero (a : ℕ → FVec Ideal S200x50 .f32) (b : ℕ → FVec Ideal S200x8000 .f32) :
    accum a b 0 = k1_pay2 (F := Ideal) (a 0) (b 0) (k1_pay1 (F := Ideal)) := rfl
theorem accum_succ (a : ℕ → FVec Ideal S200x50 .f32) (b : ℕ → FVec Ideal S200x8000 .f32) (n : ℕ) :
    accum a b (n + 1) = k1_pay2 (F := Ideal) (a (n + 1)) (b (n + 1)) (accum a b n) := rfl

/-- The fill the scratch starts from is zero at every entry. -/
theorem zeroFill_apply (idx : S50x8000.Idx) : k1_pay1 (F := Ideal) idx = 0 := by
  unfold k1_pay1
  rw [shapeCast_self]
  exact Ideal.ofBits_zero_f32

/-- One block's step at entry (i, j): what was there plus the sum over the block's 200 rows. -/
theorem accumulate_apply (v3 : FVec Ideal S200x50 .f32) (v6 : FVec Ideal S200x8000 .f32) (v9 : FVec Ideal S50x8000 .f32)
    (i : Fin 50) (j : Fin 8000) :
    k1_pay2 (F := Ideal) v3 v6 v9 (ix2 i j) = v9 (ix2 i j) + ∑ r : Fin 200, v3 (ix2 r i) * v6 (ix2 r j) := by
  unfold k1_pay2
  rw [shapeCast_self, shapeCast_self, addf_apply]
  exact congrArg (v9 (ix2 i j) + ·) (blockProduct_apply _ _ i j)

/-- The scratch after block `n` at entry (i, j): zero plus the block sums so far. -/
theorem accum_apply (a : ℕ → FVec Ideal S200x50 .f32) (b : ℕ → FVec Ideal S200x8000 .f32) (n : ℕ) (i : Fin 50) (j : Fin 8000) :
    accum a b n (ix2 i j) = 0 + ∑ t ∈ Finset.range (n + 1), ∑ r : Fin 200, a t (ix2 r i) * b t (ix2 r j) :=
  Cert.Lib.BlockedSum.running_total 0 (fun t => ∑ r : Fin 200, a t (ix2 r i) * b t (ix2 r j)) (fun n => accum a b n (ix2 i j))
    (by show k1_pay2 (F := Ideal) (a 0) (b 0) (k1_pay1 (F := Ideal)) (ix2 i j) = _
        rw [accumulate_apply, zeroFill_apply])
    (fun k => by
      show k1_pay2 (F := Ideal) (a (k + 1)) (b (k + 1)) (accum a b k) (ix2 i j) = _
      rw [accumulate_apply]) n

/-- After the last block the scratch is the reference's product, entry by entry, and the shared tail makes the
    region's output the reference's. -/
theorem logpred_eq (X : FVec Ideal S50x20000 .f32) (B : FVec Ideal S20000x8000 .f32)
    (a : ℕ → FVec Ideal S200x50 .f32) (b : ℕ → FVec Ideal S200x8000 .f32)
    (ha : ∀ (t : ℕ) (ht : t < 100) (r : Fin 200) (k : Fin 50), a t (ValueIdx.ix2 r k) = X (ValueIdx.ix2 k ⟨200 * t + r.val, by omega⟩))
    (hb : ∀ (t : ℕ) (ht : t < 100) (r : Fin 200) (j : Fin 8000), b t (ValueIdx.ix2 r j) = B (ValueIdx.ix2 ⟨200 * t + r.val, by omega⟩ j)) :
    k1_pay3 (accum a b 99)
      = Host.log (addf (Host.divf (Host.dotGeneral Cert.ReferenceIdeal.dot_S50x20000_S20000x8000_S50x8000_1_0_0_1_n_n none X B)
            (broadcastInDim S50x8000 ![] Cert.ReferenceIdeal.Facts₀.bcast_S_S50x8000 (constant Cert.ReferenceIdeal.S_ .f32 0x44FA0000#32)))
          (broadcastInDim S50x8000 ![] Cert.ReferenceIdeal.Facts₀.bcast_S_S50x8000 (constant Cert.ReferenceIdeal.S_ .f32 0x2EDBE6FF#32))) := by
  funext idx
  obtain ⟨i, j, rfl⟩ : ∃ (i : Fin 50) (j : Fin 8000), idx = ix2 i j := ⟨idx 0, idx 1, eq_ix2 idx⟩
  have hsum : accum a b 99 (ix2 i j) = Host.dotGeneral DR none X B (ix2 i j) := by
    rw [accum_apply, wholeProduct_apply, zero_add, Finset.sum_range,
      Cert.Lib.BlockedSum.sum_blocks (N := 20000) 100 200 rfl]
    refine Finset.sum_congr rfl fun t _ => Finset.sum_congr rfl fun r _ => ?_
    rw [ha t.val t.isLt r i, hb t.val t.isLt r j]
  unfold k1_pay3
  show Ideal.log (Ideal.div (accum a b 99 (ix2 i j)) (Ideal.ofBits .f32 0x44FA0000#32) + Ideal.ofBits .f32 0x2EDBE6FF#32) = _
  rw [hsum]
  show _ = Ideal.log (Ideal.div (Host.dotGeneral DR none X B (ix2 i j))
      (broadcastInDim S50x8000 ![] Cert.ReferenceIdeal.Facts₀.bcast_S_S50x8000 (constant (F := Ideal) Cert.ReferenceIdeal.S_ .f32 0x44FA0000#32) (ix2 i j))
    + broadcastInDim S50x8000 ![] Cert.ReferenceIdeal.Facts₀.bcast_S_S50x8000 (constant (F := Ideal) Cert.ReferenceIdeal.S_ .f32 0x2EDBE6FF#32) (ix2 i j))
  rw [broadcastInDim_scalar_apply, broadcastInDim_scalar_apply]
  rfl

end Cert.KernelIdeal.Val

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibLaneColumn.lean ====
/-
  Row reductions kept as columns, and the column forms of entrywise operations, over the extended reals.

  A kernel that keeps every reduced axis spells the sum (or the maximum) of each row of an M × N matrix as a
  reduction along the lanes to a vector of length M, a cast of that vector to an M × 1 column, and a spread of the
  column back over the N lanes; the host spells the same three steps as a fold from an initial scalar, a placement
  of the vector along axis 0 of the column, and a broadcast of the column.  None of the layout steps moves data, a
  sum from zero is the sum, and a fold of max is at least its starting value, so one more max with that value
  changes nothing: the two spellings are the same arrays.  Entrywise operations commute with the placement of a
  vector as a column; a sum down a column is the sum of the vector; a scalar carried as a one-entry vector is
  divided, negated and summed entry by entry.  A splat of a float word is the broadcast of the scalar constant, a
  one-bit flag read as a signed 32-bit integer is the flag read unsigned, and the kernel's exponential, logarithm
  and quotient are the host's.  Generic in the extents.
-/
import Idealize.ShloMosaic.PureOps.Ideal.Laws
import Idealize.ShloMosaic.Lib.ValueLayout
import proofs.«124721_j33767032881397_2_alg».proof.Proof.LibColumns
import proofs.«124721_j33767032881397_2_alg».proof.Proof.LibHostBroadcast

noncomputable section

open scoped BigOperators

namespace Cert.LibLaneColumn

open Idealize.ShloMosaic Idealize.ShloMosaic.ValueIdx

variable {M N : ℕ}

/-- The scalar shape. -/
abbrev S0 : Shape := ⟨0, ![]⟩

/-! ## Entrywise operations and splats -/

/-- The kernel's exponential is the host's. -/
theorem exp_eq_hostExp {s : Shape} {φ : FTy} (x : FVec Ideal s φ) : exp x = Host.exp x := rfl
/-- The kernel's logarithm is the host's. -/
theorem log_eq_hostLog {s : Shape} {φ : FTy} (x : FVec Ideal s φ) : log x = Host.log x := rfl
/-- The kernel's quotient is the host's. -/
theorem divf_eq_hostDivf {s : Shape} {φ : FTy} (x y : FVec Ideal s φ) : divf x y = Host.divf x y := rfl

/-- A splat of a float word is the broadcast of the scalar constant of that word. -/
theorem splat_eq {t : Shape} (w : BitVec 32) (dims : Fin S0.rank → Fin t.rank) (h : S0.BroadcastsInDim t dims) :
    broadcast t (Scalar.ofBits (F := Ideal) .f32 w) = broadcastInDim t dims h (constant (F := Ideal) S0 .f32 w) := by
  funext j
  rw [Cert.LibHostBroadcast.bcast_scalar_apply]
  rfl

/-- A one-bit flag widened to 32 bits and read as a signed integer is the flag read unsigned: 0 or 1. -/
theorem sitofp_extui_i1 {s : Shape} (v : IVec s 1) (h : 1 < 32) :
    sitofp (F := Ideal) .f32 (extui 32 v h) = uitofp (F := Ideal) .f32 v := by
  funext i
  show ((((v i).setWidth 32).toInt : ℝ) : EReal) = ((((v i).toNat : ℕ) : ℝ) : EReal)
  have e : ((v i).setWidth 32).toInt = (((v i).toNat : ℕ) : ℤ) := by
    rcases BitVec.eq_zero_or_eq_one (v i) with h0 | h1
    · rw [h0]; decide
    · rw [h1]; decide
  rw [e, Int.cast_natCast]

/-- The cube of an entry, associated either way. -/
theorem mulf_cube {s : Shape} {φ : FTy} (x : FVec Ideal s φ) : mulf x (mulf x x) = mulf (mulf x x) x := by
  funext i
  show x i * (x i * x i) = (x i * x i) * x i
  exact mul_comm _ _

/-! ## Lane reductions as vectors -/

/-- The index of the matrix over row p whose lane coordinate is k. -/
theorem lift_lane (h : (⟨2, ![M, N]⟩ : Shape).Reduces [(1 : Fin 2)] ⟨1, ![M]⟩) (p : Fin M) (k : Fin N) :
    h.lift (ix1 p) k = ix2 p k := by
  funext c
  apply Fin.ext
  match c with
  | ⟨0, _⟩ => rfl
  | ⟨1, _⟩ => rfl

/-- The sum of each row from the zero word is the host's sum of each row from the scalar zero. -/
theorem laneSum_vec (x : FVec Ideal ⟨2, ![M, N]⟩ .f32)
    (hred : (⟨2, ![M, N]⟩ : Shape).Reduces [(1 : Fin 2)] ⟨1, ![M]⟩)
    (hredT : (⟨2, ![M, N]⟩ : Shape).ReducesTo [(1 : Fin 2)] ⟨1, ![M]⟩) (hu : 0 < S0.numel) :
    multiReduction .add [1] ⟨1, ![M]⟩ x 0x00000000#32 hred (.inl rfl) rfl
      = Host.reduceAdd x (constant (F := Ideal) S0 .f32 0x00000000#32) hredT hu := by
  funext i
  refine (Ideal.multiReduction_add_single x 0x00000000#32 hred (.inl rfl) rfl i).trans ?_
  simp only [Host.reduceAdd, Ideal.hostReduceAdd_def]
  rw [Ideal.hostReduceAdd_single hredT hred]
  show _ = Ideal.ofBits .f32 0x00000000#32 + _
  rw [Ideal.ofBits_zero_f32, zero_add]

/-- A fold of max is at least its starting value, so one more max with that value changes nothing. -/
theorem max_fold_max {ι : Type} (s : Finset ι) (a : EReal) (f : ι → EReal) : max a (s.fold max a f) = s.fold max a f :=
  max_eq_right ((Finset.le_fold_max a).mpr (Or.inl le_rfl))

/-- The maximum of each row from minus infinity is the host's fold from minus infinity, maxed once more with it. -/
theorem laneMax_vec (x : FVec Ideal ⟨2, ![M, N]⟩ .f32)
    (hred : (⟨2, ![M, N]⟩ : Shape).Reduces [(1 : Fin 2)] ⟨1, ![M]⟩)
    (hredT : (⟨2, ![M, N]⟩ : Shape).ReducesTo [(1 : Fin 2)] ⟨1, ![M]⟩) (hu : 0 < S0.numel)
    (d0 : Fin S0.rank → Fin (⟨1, ![M]⟩ : Shape).rank) (h0 : S0.BroadcastsInDim ⟨1, ![M]⟩ d0) :
    multiReduction .maximumf [1] ⟨1, ![M]⟩ x 0xFF800000#32 hred (.inl rfl) rfl
      = maximumf (broadcastInDim ⟨1, ![M]⟩ d0 h0 (constant (F := Ideal) S0 .f32 0xFF800000#32))
          (Host.reduce FloatOps.maximumf x (constant (F := Ideal) S0 .f32 0xFF800000#32) hredT hu) := by
  funext i
  refine (Ideal.multiReduction_maximumf_single x 0xFF800000#32 hred (.inl rfl) rfl i).trans ?_
  show _ = max (broadcastInDim ⟨1, ![M]⟩ d0 h0 (constant (F := Ideal) S0 .f32 0xFF800000#32) i)
    (Host.reduce FloatOps.maximumf x (constant (F := Ideal) S0 .f32 0xFF800000#32) hredT hu i)
  rw [Cert.LibHostBroadcast.bcast_scalar_apply, Host.reduce_eq_fold_single FloatOps.maximumf x _ hredT hred hu]
  exact (max_fold_max _ _ _).symm

/-! ## Columns and rows -/

/-- A vector cast to a column is the vector placed along axis 0 of the column. -/
theorem col_cast {α : Type} (y : (⟨1, ![M]⟩ : Shape).Idx → α) (hc : (⟨1, ![M]⟩ : Shape).ShapeCasts ⟨2, ![M, 1]⟩)
    (dims : Fin (⟨1, ![M]⟩ : Shape).rank → Fin (⟨2, ![M, 1]⟩ : Shape).rank) (hd : dims ⟨0, Nat.one_pos⟩ = ⟨0, Nat.succ_pos 1⟩)
    (hB : (⟨1, ![M]⟩ : Shape).BroadcastsInDim ⟨2, ![M, 1]⟩ dims) :
    shapeCast ⟨2, ![M, 1]⟩ y hc = broadcastInDim ⟨2, ![M, 1]⟩ dims hB y := by
  funext i
  obtain ⟨p, u, rfl⟩ : ∃ (p : Fin M) (u : Fin 1), i = ix2 p u := ⟨i 0, i 1, eq_ix2 i⟩
  rw [Cert.Columns.shapeCast_a_a1_apply, Cert.LibHostBroadcast.bcast_a_a1_apply dims hd hB]

/-- A column spread over N lanes, the kernel's way and the host's. -/
theorem col_spread {α : Type} (c : (⟨2, ![M, 1]⟩ : Shape).Idx → α) (hb : (⟨2, ![M, 1]⟩ : Shape).Broadcasts ⟨2, ![M, N]⟩)
    (dims : Fin (⟨2, ![M, 1]⟩ : Shape).rank → Fin (⟨2, ![M, N]⟩ : Shape).rank)
    (hd0 : dims ⟨0, Nat.succ_pos 1⟩ = ⟨0, Nat.succ_pos 1⟩)
    (hB : (⟨2, ![M, 1]⟩ : Shape).BroadcastsInDim ⟨2, ![M, N]⟩ dims) :
    broadcastTo ⟨2, ![M, N]⟩ c hb = broadcastInDim ⟨2, ![M, N]⟩ dims hB c := by
  funext i
  obtain ⟨p, q, rfl⟩ : ∃ (p : Fin M) (q : Fin N), i = ix2 p q := ⟨i 0, i 1, eq_ix2 i⟩
  rw [Cert.Columns.broadcastTo_a1_ab_apply, Cert.LibHostBroadcast.bcast_a1_ab_apply dims hd0 hB]

/-- A vector cast to a row is the vector placed along axis 1 of the row. -/
theorem row_cast {α : Type} (y : (⟨1, ![N]⟩ : Shape).Idx → α) (hc : (⟨1, ![N]⟩ : Shape).ShapeCasts ⟨2, ![1, N]⟩)
    (dims : Fin (⟨1, ![N]⟩ : Shape).rank → Fin (⟨2, ![1, N]⟩ : Shape).rank) (hd : dims ⟨0, Nat.one_pos⟩ = ⟨1, Nat.lt_succ_self 1⟩)
    (hB : (⟨1, ![N]⟩ : Shape).BroadcastsInDim ⟨2, ![1, N]⟩ dims) :
    shapeCast ⟨2, ![1, N]⟩ y hc = broadcastInDim ⟨2, ![1, N]⟩ dims hB y := by
  funext i
  obtain ⟨u, q, rfl⟩ : ∃ (u : Fin 1) (q : Fin N), i = ix2 u q := ⟨i 0, i 1, eq_ix2 i⟩
  rw [shapeCast_a_1a_apply, Cert.LibHostBroadcast.bcast_b_1b_apply dims hd hB]

/-- A row spread over M rows, the kernel's way and the host's. -/
theorem row_spread {α : Type} (r : (⟨2, ![1, N]⟩ : Shape).Idx → α) (hb : (⟨2, ![1, N]⟩ : Shape).Broadcasts ⟨2, ![M, N]⟩)
    (dims : Fin (⟨2, ![1, N]⟩ : Shape).rank → Fin (⟨2, ![M, N]⟩ : Shape).rank)
    (hd1 : dims ⟨1, Nat.lt_succ_self 1⟩ = ⟨1, Nat.lt_succ_self 1⟩)
    (hB : (⟨2, ![1, N]⟩ : Shape).BroadcastsInDim ⟨2, ![M, N]⟩ dims) :
    broadcastTo ⟨2, ![M, N]⟩ r hb = broadcastInDim ⟨2, ![M, N]⟩ dims hB r := by
  funext i
  obtain ⟨p, q, rfl⟩ : ∃ (p : Fin M) (q : Fin N), i = ix2 p q := ⟨i 0, i 1, eq_ix2 i⟩
  rw [broadcastTo_1b_ab_apply, Cert.LibHostBroadcast.bcast_1b_ab_apply dims hd1 hB]

/-! ## A row reduction kept as a column, and spread back over the lanes -/

/-- The sum of each row, kept as a column. -/
theorem rowSum_col (x : FVec Ideal ⟨2, ![M, N]⟩ .f32)
    (hred : (⟨2, ![M, N]⟩ : Shape).Reduces [(1 : Fin 2)] ⟨1, ![M]⟩) (hc : (⟨1, ![M]⟩ : Shape).ShapeCasts ⟨2, ![M, 1]⟩)
    (hredT : (⟨2, ![M, N]⟩ : Shape).ReducesTo [(1 : Fin 2)] ⟨1, ![M]⟩) (hu : 0 < S0.numel)
    (dims : Fin (⟨1, ![M]⟩ : Shape).rank → Fin (⟨2, ![M, 1]⟩ : Shape).rank) (hd : dims ⟨0, Nat.one_pos⟩ = ⟨0, Nat.succ_pos 1⟩)
    (hB : (⟨1, ![M]⟩ : Shape).BroadcastsInDim ⟨2, ![M, 1]⟩ dims) :
    shapeCast ⟨2, ![M, 1]⟩ (multiReduction .add [1] ⟨1, ![M]⟩ x 0x00000000#32 hred (.inl rfl) rfl) hc
      = broadcastInDim ⟨2, ![M, 1]⟩ dims hB (Host.reduceAdd x (constant (F := Ideal) S0 .f32 0x00000000#32) hredT hu) := by
  rw [laneSum_vec x hred hredT hu, col_cast _ hc dims hd hB]

/-- The sum of each row, spread back over the lanes. -/
theorem rowSum_spread (x : FVec Ideal ⟨2, ![M, N]⟩ .f32)
    (hred : (⟨2, ![M, N]⟩ : Shape).Reduces [(1 : Fin 2)] ⟨1, ![M]⟩) (hc : (⟨1, ![M]⟩ : Shape).ShapeCasts ⟨2, ![M, 1]⟩)
    (hb : (⟨2, ![M, 1]⟩ : Shape).Broadcasts ⟨2, ![M, N]⟩)
    (hredT : (⟨2, ![M, N]⟩ : Shape).ReducesTo [(1 : Fin 2)] ⟨1, ![M]⟩) (hu : 0 < S0.numel)
    (dims : Fin (⟨1, ![M]⟩ : Shape).rank → Fin (⟨2, ![M, 1]⟩ : Shape).rank) (hd : dims ⟨0, Nat.one_pos⟩ = ⟨0, Nat.succ_pos 1⟩)
    (hB : (⟨1, ![M]⟩ : Shape).BroadcastsInDim ⟨2, ![M, 1]⟩ dims)
    (dims' : Fin (⟨2, ![M, 1]⟩ : Shape).rank → Fin (⟨2, ![M, N]⟩ : Shape).rank)
    (hd' : dims' ⟨0, Nat.succ_pos 1⟩ = ⟨0, Nat.succ_pos 1⟩)
    (hB' : (⟨2, ![M, 1]⟩ : Shape).BroadcastsInDim ⟨2, ![M, N]⟩ dims') :
    broadcastTo ⟨2, ![M, N]⟩ (shapeCast ⟨2, ![M, 1]⟩ (multiReduction .add [1] ⟨1, ![M]⟩ x 0x00000000#32 hred (.inl rfl) rfl) hc) hb
      = broadcastInDim ⟨2, ![M, N]⟩ dims' hB'
          (broadcastInDim ⟨2, ![M, 1]⟩ dims hB (Host.reduceAdd x (constant (F := Ideal) S0 .f32 0x00000000#32) hredT hu)) := by
  rw [rowSum_col x hred hc hredT hu dims hd hB, col_spread _ hb dims' hd' hB']

/-- The maximum of each row, spread back over the lanes. -/
theorem rowMax_spread (x : FVec Ideal ⟨2, ![M, N]⟩ .f32)
    (hred : (⟨2, ![M, N]⟩ : Shape).Reduces [(1 : Fin 2)] ⟨1, ![M]⟩) (hc : (⟨1, ![M]⟩ : Shape).ShapeCasts ⟨2, ![M, 1]⟩)
    (hb : (⟨2, ![M, 1]⟩ : Shape).Broadcasts ⟨2, ![M, N]⟩)
    (hredT : (⟨2, ![M, N]⟩ : Shape).ReducesTo [(1 : Fin 2)] ⟨1, ![M]⟩) (hu : 0 < S0.numel)
    (d0 : Fin S0.rank → Fin (⟨1, ![M]⟩ : Shape).rank) (h0 : S0.BroadcastsInDim ⟨1, ![M]⟩ d0)
    (dims : Fin (⟨1, ![M]⟩ : Shape).rank → Fin (⟨2, ![M, 1]⟩ : Shape).rank) (hd : dims ⟨0, Nat.one_pos⟩ = ⟨0, Nat.succ_pos 1⟩)
    (hB : (⟨1, ![M]⟩ : Shape).BroadcastsInDim ⟨2, ![M, 1]⟩ dims)
    (dims' : Fin (⟨2, ![M, 1]⟩ : Shape).rank → Fin (⟨2, ![M, N]⟩ : Shape).rank)
    (hd' : dims' ⟨0, Nat.succ_pos 1⟩ = ⟨0, Nat.succ_pos 1⟩)
    (hB' : (⟨2, ![M, 1]⟩ : Shape).BroadcastsInDim ⟨2, ![M, N]⟩ dims') :
    broadcastTo ⟨2, ![M, N]⟩ (shapeCast ⟨2, ![M, 1]⟩ (multiReduction .maximumf [1] ⟨1, ![M]⟩ x 0xFF800000#32 hred (.inl rfl) rfl) hc) hb
      = broadcastInDim ⟨2, ![M, N]⟩ dims' hB'
          (broadcastInDim ⟨2, ![M, 1]⟩ dims hB
            (maximumf (broadcastInDim ⟨1, ![M]⟩ d0 h0 (constant (F := Ideal) S0 .f32 0xFF800000#32))
              (Host.reduce FloatOps.maximumf x (constant (F := Ideal) S0 .f32 0xFF800000#32) hredT hu))) := by
  rw [laneMax_vec x hred hredT hu d0 h0, col_cast _ hc dims hd hB, col_spread _ hb dims' hd' hB']

/-- A vector placed as a row and spread over M rows, the kernel's way and the host's. -/
theorem vec_row_spread {α : Type} (y : (⟨1, ![N]⟩ : Shape).Idx → α) (hc : (⟨1, ![N]⟩ : Shape).ShapeCasts ⟨2, ![1, N]⟩)
    (hb : (⟨2, ![1, N]⟩ : Shape).Broadcasts ⟨2, ![M, N]⟩)
    (dims : Fin (⟨1, ![N]⟩ : Shape).rank → Fin (⟨2, ![1, N]⟩ : Shape).rank) (hd : dims ⟨0, Nat.one_pos⟩ = ⟨1, Nat.lt_succ_self 1⟩)
    (hB : (⟨1, ![N]⟩ : Shape).BroadcastsInDim ⟨2, ![1, N]⟩ dims)
    (dims' : Fin (⟨2, ![1, N]⟩ : Shape).rank → Fin (⟨2, ![M, N]⟩ : Shape).rank)
    (hd' : dims' ⟨1, Nat.lt_succ_self 1⟩ = ⟨1, Nat.lt_succ_self 1⟩)
    (hB' : (⟨2, ![1, N]⟩ : Shape).BroadcastsInDim ⟨2, ![M, N]⟩ dims') :
    broadcastTo ⟨2, ![M, N]⟩ (shapeCast ⟨2, ![1, N]⟩ y hc) hb
      = broadcastInDim ⟨2, ![M, N]⟩ dims' hB' (broadcastInDim ⟨2, ![1, N]⟩ dims hB y) := by
  rw [row_cast y hc dims hd hB, row_spread _ hb dims' hd' hB']

/-- A vector's index set is its one coordinate's range, so a sum over it is the sum over the coordinate. -/
def idxEquiv1 {n : ℕ} : (⟨1, ![n]⟩ : Shape).Idx ≃ Fin n where
  toFun i := i 0
  invFun k := ix1 k
  left_inv i := (eq_ix1 i).symm
  right_inv _ := rfl

/-! ## Entrywise operations on columns -/

section Columns
variable (dims : Fin (⟨1, ![M]⟩ : Shape).rank → Fin (⟨2, ![M, 1]⟩ : Shape).rank) (hd : dims ⟨0, Nat.one_pos⟩ = ⟨0, Nat.succ_pos 1⟩)
  (hB : (⟨1, ![M]⟩ : Shape).BroadcastsInDim ⟨2, ![M, 1]⟩ dims)
include hd

/-- The product of two columns is the column of the product. -/
theorem col_mulf (a b : FVec Ideal ⟨1, ![M]⟩ .f32) :
    mulf (broadcastInDim ⟨2, ![M, 1]⟩ dims hB a) (broadcastInDim ⟨2, ![M, 1]⟩ dims hB b)
      = broadcastInDim ⟨2, ![M, 1]⟩ dims hB (mulf a b) := by
  funext i
  obtain ⟨p, u, rfl⟩ : ∃ (p : Fin M) (u : Fin 1), i = ix2 p u := ⟨i 0, i 1, eq_ix2 i⟩
  rw [mulf_apply, Cert.LibHostBroadcast.bcast_a_a1_apply dims hd hB, Cert.LibHostBroadcast.bcast_a_a1_apply dims hd hB,
    Cert.LibHostBroadcast.bcast_a_a1_apply dims hd hB]
  rfl

/-- The quotient of a column by a splat is the column of the host's quotient by the broadcast constant. -/
theorem col_divf_splat (a : FVec Ideal ⟨1, ![M]⟩ .f32) (w : BitVec 32)
    (d0 : Fin S0.rank → Fin (⟨1, ![M]⟩ : Shape).rank) (h0 : S0.BroadcastsInDim ⟨1, ![M]⟩ d0) :
    divf (broadcastInDim ⟨2, ![M, 1]⟩ dims hB a) (broadcast ⟨2, ![M, 1]⟩ (Scalar.ofBits (F := Ideal) .f32 w))
      = broadcastInDim ⟨2, ![M, 1]⟩ dims hB
          (Host.divf a (broadcastInDim ⟨1, ![M]⟩ d0 h0 (constant (F := Ideal) S0 .f32 w))) := by
  funext i
  obtain ⟨p, u, rfl⟩ : ∃ (p : Fin M) (u : Fin 1), i = ix2 p u := ⟨i 0, i 1, eq_ix2 i⟩
  rw [divf_apply, Cert.LibHostBroadcast.bcast_a_a1_apply dims hd hB, Cert.LibHostBroadcast.bcast_a_a1_apply dims hd hB]
  show _ = Ideal.div (a (ix1 p)) (broadcastInDim ⟨1, ![M]⟩ d0 h0 (constant (F := Ideal) S0 .f32 w) (ix1 p))
  rw [Cert.LibHostBroadcast.bcast_scalar_apply]
  rfl

/-- Keeping the entries of a column where another column is at least a splat, zero elsewhere, is the column of the
    same choice made on the vectors. -/
theorem col_select_oge_splat (a b : FVec Ideal ⟨1, ![M]⟩ .f32) (w z : BitVec 32)
    (d0 : Fin S0.rank → Fin (⟨1, ![M]⟩ : Shape).rank) (h0 : S0.BroadcastsInDim ⟨1, ![M]⟩ d0) :
    select (cmpf .oge (broadcastInDim ⟨2, ![M, 1]⟩ dims hB a) (broadcast ⟨2, ![M, 1]⟩ (Scalar.ofBits (F := Ideal) .f32 w)))
        (broadcastInDim ⟨2, ![M, 1]⟩ dims hB b) (broadcast ⟨2, ![M, 1]⟩ (Scalar.ofBits (F := Ideal) .f32 z))
      = broadcastInDim ⟨2, ![M, 1]⟩ dims hB
          (select (cmpf .oge a (broadcastInDim ⟨1, ![M]⟩ d0 h0 (constant (F := Ideal) S0 .f32 w))) b
            (broadcastInDim ⟨1, ![M]⟩ d0 h0 (constant (F := Ideal) S0 .f32 z))) := by
  funext i
  obtain ⟨p, u, rfl⟩ : ∃ (p : Fin M) (u : Fin 1), i = ix2 p u := ⟨i 0, i 1, eq_ix2 i⟩
  rw [select_apply, cmpf_apply, Cert.LibHostBroadcast.bcast_a_a1_apply dims hd hB, Cert.LibHostBroadcast.bcast_a_a1_apply dims hd hB,
    Cert.LibHostBroadcast.bcast_a_a1_apply dims hd hB, select_apply, cmpf_apply,
    Cert.LibHostBroadcast.bcast_scalar_apply, Cert.LibHostBroadcast.bcast_scalar_apply]
  rfl

/-- The sum down a column, kept as a one-entry vector, is the host's total of the vector carried as a one-entry vector. -/
theorem col_sum (a : FVec Ideal ⟨1, ![M]⟩ .f32)
    (hred : (⟨2, ![M, 1]⟩ : Shape).Reduces [(0 : Fin 2)] ⟨1, ![1]⟩)
    (hredT : (⟨1, ![M]⟩ : Shape).ReducesTo [(0 : Fin 1)] S0)
    (hu : 0 < S0.numel) (hc : S0.ShapeCasts ⟨1, ![1]⟩) :
    multiReduction .add [0] ⟨1, ![1]⟩ (broadcastInDim ⟨2, ![M, 1]⟩ dims hB a) 0x00000000#32 hred (.inl rfl) rfl
      = shapeCast ⟨1, ![1]⟩ (Host.reduceAdd a (constant (F := Ideal) S0 .f32 0x00000000#32) hredT hu) hc := by
  funext i
  refine (Ideal.multiReduction_add_single _ 0x00000000#32 hred (.inl rfl) rfl i).trans ?_
  unfold shapeCast
  simp only [Host.reduceAdd, Ideal.hostReduceAdd_def]
  rw [Ideal.hostReduceAdd_total hredT (fun b => b.elim0)]
  show _ = Ideal.ofBits .f32 0x00000000#32 + _
  rw [Ideal.ofBits_zero_f32, zero_add]
  refine Eq.trans ?_ (Equiv.sum_comp (idxEquiv1 (n := M)).symm a)
  refine Finset.sum_congr rfl fun k _ => ?_
  have e1 : hred.lift i k = ix2 k (i 0) := by
    funext c
    apply Fin.ext
    match c with
    | ⟨0, _⟩ => rfl
    | ⟨1, _⟩ => rfl
  rw [e1]
  exact Cert.LibHostBroadcast.bcast_a_a1_apply dims hd hB a k (i 0)

end Columns

/-! ## A scalar carried as a one-entry vector -/

/-- The quotient of a carried scalar by a splat is the carried host quotient by the constant. -/
theorem unit_divf_splat (s : FVec Ideal S0 .f32) (w : BitVec 32) (hc : S0.ShapeCasts ⟨1, ![1]⟩) :
    divf (shapeCast ⟨1, ![1]⟩ s hc) (broadcast ⟨1, ![1]⟩ (Scalar.ofBits (F := Ideal) .f32 w))
      = shapeCast ⟨1, ![1]⟩ (Host.divf s (constant (F := Ideal) S0 .f32 w)) hc := rfl

/-- Zero minus a carried scalar is the carried negation. -/
theorem unit_zero_subf (s : FVec Ideal S0 .f32) (hc : S0.ShapeCasts ⟨1, ![1]⟩) :
    subf (broadcast ⟨1, ![1]⟩ (Scalar.ofBits (F := Ideal) .f32 0x00000000#32)) (shapeCast ⟨1, ![1]⟩ s hc)
      = shapeCast ⟨1, ![1]⟩ (Host.negf s) hc := by
  funext i
  show Ideal.ofBits .f32 0x00000000#32 - shapeCast ⟨1, ![1]⟩ s hc i = -(shapeCast ⟨1, ![1]⟩ s hc i)
  rw [Ideal.ofBits_zero_f32, zero_sub]

end Cert.LibLaneColumn

end
-- ==== Proof.ValR0Fqm.lean ====
/-
  The softmax of each row: the kernel's value is the reference's.

  Both programs compute, for a 50 × 20000 matrix x, the row maximum m (the kernel as a fold of max from minus
  infinity kept as a column and spread over the lanes, the host as its fold, one more max with minus infinity, a
  placement as a column and a broadcast), then e = exp (x − m), the row sum s of e (kept and spread the same two
  ways), and e / s.  The two row reductions are the same arrays (a fold of max is at least its start; a sum from
  zero is the sum; the layout steps move no data), and the entrywise steps are the same functions of the extended
  reals, so the two values are equal as written, with no condition on x.
-/
import proofs.«124721_j33767032881397_2_alg».proof.Proof.Gen.KernelIdeal.Skeleton
import proofs.«124721_j33767032881397_2_alg».proof.Proof.Gen.ReferenceIdeal.Read
import proofs.«124721_j33767032881397_2_alg».proof.Proof.LibLaneColumn

noncomputable section

namespace Cert.KernelIdeal.Val

open Idealize.ShloMosaic Cert.KernelIdeal Cert.KernelIdeal.Gen Cert.ReferenceIdeal.Read Cert.LibLaneColumn

/-- The reference's softmax of each row, as its stage of that name. -/
def Spec.fqm (x1 : FVec Ideal S50x20000 .f32) : FVec Ideal S50x20000 .f32 := val_main_v10 (F := Ideal) x1

/-- The row maximum spread over the lanes, the kernel's spelling and the reference's. -/
theorem rowmax50_eq (x1 : FVec Ideal S50x20000 .f32) :
    broadcastTo S50x20000 (shapeCast S50x1 (multiReduction .maximumf [1] S50 x1 0xFF800000#32 reduces_S50x20000_S50 (.inl rfl) rfl)
        shapeCasts_S50_S50x1) broadcasts_S50x1_S50x20000
      = val_main_v4 (F := Ideal) x1 :=
  rowMax_spread x1 reduces_S50x20000_S50 shapeCasts_S50_S50x1 broadcasts_S50x1_S50x20000
    Cert.ReferenceIdeal.Gen.reducesTo_S50x20000_S50_d1 Cert.ReferenceIdeal.Gen.h_S_ ![] Cert.ReferenceIdeal.Gen.bcast_S_S50 ![0] rfl Cert.ReferenceIdeal.Gen.bcast_S50_S50x1_0
    ![0, 1] rfl Cert.ReferenceIdeal.Gen.bcast_S50x1_S50x20000_0_1

/-- The sum of each of 50 rows spread over the lanes, the kernel's spelling and the host's. -/
theorem rowsum50_eq (v : FVec Ideal S50x20000 .f32) :
    broadcastTo S50x20000 (shapeCast S50x1 (multiReduction .add [1] S50 v 0x00000000#32 reduces_S50x20000_S50 (.inl rfl) rfl)
        shapeCasts_S50_S50x1) broadcasts_S50x1_S50x20000
      = broadcastInDim S50x20000 ![0, 1] Cert.ReferenceIdeal.Gen.bcast_S50x1_S50x20000_0_1
          (broadcastInDim S50x1 ![0] Cert.ReferenceIdeal.Gen.bcast_S50_S50x1_0
            (Host.reduceAdd v (constant (F := Ideal) S0 .f32 0x00000000#32) Cert.ReferenceIdeal.Gen.reducesTo_S50x20000_S50_d1 Cert.ReferenceIdeal.Gen.h_S_)) :=
  rowSum_spread v reduces_S50x20000_S50 shapeCasts_S50_S50x1 broadcasts_S50x1_S50x20000
    Cert.ReferenceIdeal.Gen.reducesTo_S50x20000_S50_d1 Cert.ReferenceIdeal.Gen.h_S_ ![0] rfl Cert.ReferenceIdeal.Gen.bcast_S50_S50x1_0 ![0, 1] rfl Cert.ReferenceIdeal.Gen.bcast_S50x1_S50x20000_0_1

/-- The kernel's softmax is the reference's. -/
theorem fqm_eq (x1 : FVec Ideal S50x20000 .f32) : k0_pay2 (F := Ideal) x1 = Spec.fqm x1 := by
  unfold k0_pay2 Spec.fqm
  dsimp only
  rw [rowmax50_eq x1, rowsum50_eq, exp_eq_hostExp, divf_eq_hostDivf]
  rfl

end Cert.KernelIdeal.Val

end
-- ==== Proof.ValR0Floss.lean ====
/-
  The fitness loss: the kernel's value is the reference's.

  With p the softmax of the rows of x (50 × 20000), both programs take p0 = rows 0..48 and p1 = rows 1..49, the
  flag f = [p0 ≥ 1e-6] as a float, the masked rows p0·f and p1·f, the weight w = the row sums of p1·f, the target
  q = p1·f / w, the present fitness g = exp(fitness)·f (the fitness vector placed as a row and spread over the 49
  rows), five replicator steps u ← u · (g / Σ_lanes(u·g)) from u = p0·f, and the loss
  Σ_rows [w ≥ 0.3] · w · Σ_lanes [q > 0] · q · (log q − log u) / 49, the logarithms guarded by the flag [q > 0].
  The kernel keeps every row reduction as a 49 × 1 column and ends with a sum down a column into a one-entry vector;
  the host keeps vectors of length 49 and ends with a scalar reshaped to one entry.  Each step is the same function
  of the extended reals on both sides (a kept reduction is the placed reduction, entrywise operations commute with
  placing a vector as a column, the flag read signed at 32 bits is the flag read unsigned), so the equality holds
  for every x and every fitness, step by step in the order of the two programs.
-/
import proofs.«124721_j33767032881397_2_alg».proof.Proof.Gen.KernelIdeal.Skeleton
import proofs.«124721_j33767032881397_2_alg».proof.Proof.Gen.ReferenceIdeal.Read
import proofs.«124721_j33767032881397_2_alg».proof.Proof.LibLaneColumn
import proofs.«124721_j33767032881397_2_alg».proof.Proof.ValR0Fqm

noncomputable section

namespace Cert.KernelIdeal.Val

open Idealize.ShloMosaic Cert.KernelIdeal Cert.KernelIdeal.Gen Cert.ReferenceIdeal.Read Cert.LibLaneColumn

/-- The reference's fitness loss, as its stage of that name. -/
def Spec.floss (x0 : FVec Ideal S20000 .f32) (x1 : FVec Ideal S50x20000 .f32) : FVec Ideal S1 .f32 :=
  val_main_v80 (F := Ideal) x0 x1

/-- The kernel's softmax is the reference's stage. -/
theorem pay2_eq (x1 : FVec Ideal S50x20000 .f32) : k0_pay2 (F := Ideal) x1 = val_main_v10 (F := Ideal) x1 := fqm_eq x1

/-- Rows 0..48 of the softmax. -/
theorem pay3_eq (x1 : FVec Ideal S50x20000 .f32) : k0_pay3 (F := Ideal) x1 = val_main_v17 (F := Ideal) x1 := by
  unfold k0_pay3
  dsimp only
  rw [pay2_eq x1]
  rfl

/-- The flag [p0 ≥ 1e-6] as a float. -/
theorem pay4_eq (x1 : FVec Ideal S50x20000 .f32) : k0_pay4 (F := Ideal) x1 = val_main_v21 (F := Ideal) x1 := by
  unfold k0_pay4
  dsimp only
  rw [pay3_eq x1, splat_eq 0x358637BD#32 ![] Cert.ReferenceIdeal.Gen.bcast_S_S49x20000, sitofp_extui_i1]
  rfl

/-- The masked rows 1..49. -/
theorem pay5_eq (x1 : FVec Ideal S50x20000 .f32) : k0_pay5 (F := Ideal) x1 = val_main_v23 (F := Ideal) x1 := by
  unfold k0_pay5
  dsimp only
  rw [pay2_eq x1, pay4_eq x1]
  rfl

/-- The sum of each of 49 rows kept as a column, the kernel's spelling and the host's. -/
theorem rowsumcol49_eq (v : FVec Ideal S49x20000 .f32) :
    shapeCast S49x1 (multiReduction .add [1] S49 v 0x00000000#32 reduces_S49x20000_S49 (.inl rfl) rfl) shapeCasts_S49_S49x1
      = broadcastInDim S49x1 ![0] Cert.ReferenceIdeal.Gen.bcast_S49_S49x1_0
          (Host.reduceAdd v (constant (F := Ideal) S0 .f32 0x00000000#32) Cert.ReferenceIdeal.Gen.reducesTo_S49x20000_S49_d1 Cert.ReferenceIdeal.Gen.h_S_) :=
  rowSum_col v reduces_S49x20000_S49 shapeCasts_S49_S49x1 Cert.ReferenceIdeal.Gen.reducesTo_S49x20000_S49_d1 Cert.ReferenceIdeal.Gen.h_S_
    ![0] rfl Cert.ReferenceIdeal.Gen.bcast_S49_S49x1_0

/-- A 49 × 1 column spread over the lanes, the kernel's spelling and the host's. -/
theorem colspread49_eq (c : FVec Ideal S49x1 .f32) :
    broadcastTo S49x20000 c broadcasts_S49x1_S49x20000 = broadcastInDim S49x20000 ![0, 1] Cert.ReferenceIdeal.Gen.bcast_S49x1_S49x20000_0_1 c :=
  col_spread c broadcasts_S49x1_S49x20000 ![0, 1] rfl Cert.ReferenceIdeal.Gen.bcast_S49x1_S49x20000_0_1

/-- The weight: the row sums of the masked rows 1..49, as a column. -/
theorem pay6_eq (x1 : FVec Ideal S50x20000 .f32) : k0_pay6 (F := Ideal) x1 = val_main_v25 (F := Ideal) x1 := by
  unfold k0_pay6
  dsimp only
  rw [pay5_eq x1, rowsumcol49_eq]
  rfl

/-- The target distribution. -/
theorem pay7_eq (x1 : FVec Ideal S50x20000 .f32) : k0_pay7 (F := Ideal) x1 = val_main_v27 (F := Ideal) x1 := by
  unfold k0_pay7
  dsimp only
  rw [pay5_eq x1, pay6_eq x1, colspread49_eq, divf_eq_hostDivf]
  rfl

/-- The present fitness. -/
theorem pay8_eq (x0 : FVec Ideal S20000 .f32) (x1 : FVec Ideal S50x20000 .f32) :
    k0_pay8 (F := Ideal) x1 x0 = val_main_v31 (F := Ideal) x0 x1 := by
  unfold k0_pay8
  dsimp only
  rw [pay4_eq x1, vec_row_spread (exp x0) shapeCasts_S20000_S1x20000 broadcasts_S1x20000_S49x20000
    ![1] rfl Cert.ReferenceIdeal.Gen.bcast_S20000_S1x20000_1 ![0, 1] rfl Cert.ReferenceIdeal.Gen.bcast_S1x20000_S49x20000_0_1, exp_eq_hostExp]
  rfl

/-- One replicator step as the kernel spells it: u · (g / Σ_lanes (u · g)), the sum kept as a column and spread. -/
def kstep (u g : FVec Ideal S49x20000 .f32) : FVec Ideal S49x20000 .f32 :=
  mulf u (divf g (broadcastTo S49x20000
    (shapeCast S49x1 (multiReduction .add [1] S49 (mulf u g) 0x00000000#32 reduces_S49x20000_S49 (.inl rfl) rfl) shapeCasts_S49_S49x1)
    broadcasts_S49x1_S49x20000))

/-- One replicator step as the host spells it. -/
def hstep (u g : FVec Ideal S49x20000 .f32) : FVec Ideal S49x20000 .f32 :=
  mulf u (Host.divf g (broadcastInDim S49x20000 ![0, 1] Cert.ReferenceIdeal.Gen.bcast_S49x1_S49x20000_0_1
    (broadcastInDim S49x1 ![0] Cert.ReferenceIdeal.Gen.bcast_S49_S49x1_0
      (Host.reduceAdd (mulf u g) (constant (F := Ideal) S0 .f32 0x00000000#32) Cert.ReferenceIdeal.Gen.reducesTo_S49x20000_S49_d1 Cert.ReferenceIdeal.Gen.h_S_))))

/-- The two spellings of a replicator step are one function. -/
theorem kstep_eq (u g : FVec Ideal S49x20000 .f32) : kstep u g = hstep u g := by
  unfold kstep hstep
  rw [rowsumcol49_eq, colspread49_eq, divf_eq_hostDivf]

/-- The reference's five replicator steps, each as one host step of the one before. -/
theorem hs37 (x0 : FVec Ideal S20000 .f32) (x1 : FVec Ideal S50x20000 .f32) :
    val_main_v37 (F := Ideal) x0 x1 = hstep (val_main_v22 (F := Ideal) x1) (val_main_v31 (F := Ideal) x0 x1) := rfl
theorem hs43 (x0 : FVec Ideal S20000 .f32) (x1 : FVec Ideal S50x20000 .f32) :
    val_main_v43 (F := Ideal) x0 x1 = hstep (val_main_v37 (F := Ideal) x0 x1) (val_main_v31 (F := Ideal) x0 x1) := rfl
theorem hs49 (x0 : FVec Ideal S20000 .f32) (x1 : FVec Ideal S50x20000 .f32) :
    val_main_v49 (F := Ideal) x0 x1 = hstep (val_main_v43 (F := Ideal) x0 x1) (val_main_v31 (F := Ideal) x0 x1) := rfl
theorem hs55 (x0 : FVec Ideal S20000 .f32) (x1 : FVec Ideal S50x20000 .f32) :
    val_main_v55 (F := Ideal) x0 x1 = hstep (val_main_v49 (F := Ideal) x0 x1) (val_main_v31 (F := Ideal) x0 x1) := rfl
theorem hs61 (x0 : FVec Ideal S20000 .f32) (x1 : FVec Ideal S50x20000 .f32) :
    val_main_v61 (F := Ideal) x0 x1 = hstep (val_main_v55 (F := Ideal) x0 x1) (val_main_v31 (F := Ideal) x0 x1) := rfl

/-- The population after three replicator steps. -/
theorem pay9_eq (x0 : FVec Ideal S20000 .f32) (x1 : FVec Ideal S50x20000 .f32) :
    k0_pay9 (F := Ideal) x1 x0 = val_main_v49 (F := Ideal) x0 x1 := by
  have h : k0_pay9 (F := Ideal) x1 x0
      = kstep (kstep (kstep (mulf (k0_pay3 (F := Ideal) x1) (k0_pay4 (F := Ideal) x1)) (k0_pay8 (F := Ideal) x1 x0))
          (k0_pay8 (F := Ideal) x1 x0)) (k0_pay8 (F := Ideal) x1 x0) := rfl
  rw [h, pay3_eq x1, pay4_eq x1, pay8_eq x0 x1, kstep_eq, kstep_eq, kstep_eq, hs49, hs43, hs37]
  rfl

/-- The loss as the kernel spells it, from the weight column w, the target q and the population u after all five
    steps: the logarithms of q and of u guarded by the flag [q > 0], the row sums of q · (log q − log u) over the
    flagged lanes kept as a column, the rows whose weight is at least 0.3, the sum down the column and the division
    by 49. -/
def ktail (w : FVec Ideal S49x1 .f32) (q u : FVec Ideal S49x20000 .f32) : FVec Ideal S1 .f32 :=
  have pos : IVec S49x20000 1 := cmpf .ogt q (broadcast S49x20000 (Scalar.ofBits (F := Ideal) .f32 0x00000000#32))
  have one : FVec Ideal S49x20000 .f32 := broadcast S49x20000 (Scalar.ofBits (F := Ideal) .f32 0x3F800000#32)
  have zero : FVec Ideal S49x20000 .f32 := broadcast S49x20000 (Scalar.ofBits (F := Ideal) .f32 0x00000000#32)
  have lq : FVec Ideal S49x20000 .f32 := select pos (log (select pos q one)) zero
  have lu : FVec Ideal S49x20000 .f32 := select pos (log (select pos u one)) zero
  have kl : FVec Ideal S49x1 .f32 := shapeCast S49x1
    (multiReduction .add [1] S49 (select pos (mulf q (subf lq lu)) zero) 0x00000000#32 reduces_S49x20000_S49 (.inl rfl) rfl)
    shapeCasts_S49_S49x1
  have keep : FVec Ideal S49x1 .f32 :=
    select (cmpf .oge w (broadcast S49x1 (Scalar.ofBits (F := Ideal) .f32 0x3E99999A#32))) (mulf w kl)
      (broadcast S49x1 (Scalar.ofBits (F := Ideal) .f32 0x00000000#32))
  divf (multiReduction .add [0] S1 keep 0x00000000#32 reduces_S49x1_S1 (.inl rfl) rfl)
    (broadcast S1 (Scalar.ofBits (F := Ideal) .f32 0x42440000#32))

/-- The same as the host spells it, over the weight as a vector. -/
def htail (W : FVec Ideal S49 .f32) (q u : FVec Ideal S49x20000 .f32) : FVec Ideal S1 .f32 :=
  have pos : IVec S49x20000 1 :=
    cmpf .ogt q (broadcastInDim S49x20000 ![] Cert.ReferenceIdeal.Gen.bcast_S_S49x20000 (constant (F := Ideal) S0 .f32 0x00000000#32))
  have one : FVec Ideal S49x20000 .f32 :=
    broadcastInDim S49x20000 ![] Cert.ReferenceIdeal.Gen.bcast_S_S49x20000 (constant (F := Ideal) S0 .f32 0x3F800000#32)
  have zero : FVec Ideal S49x20000 .f32 :=
    broadcastInDim S49x20000 ![] Cert.ReferenceIdeal.Gen.bcast_S_S49x20000 (constant (F := Ideal) S0 .f32 0x00000000#32)
  have lq : FVec Ideal S49x20000 .f32 := select pos (Host.log (select pos q one)) zero
  have lu : FVec Ideal S49x20000 .f32 := select pos (Host.log (select pos u one)) zero
  have kl : FVec Ideal S49 .f32 :=
    Host.reduceAdd (select pos (mulf q (subf lq lu)) zero) (constant (F := Ideal) S0 .f32 0x00000000#32)
      Cert.ReferenceIdeal.Gen.reducesTo_S49x20000_S49_d1 Cert.ReferenceIdeal.Gen.h_S_
  have keep : FVec Ideal S49 .f32 :=
    select (cmpf .oge W (broadcastInDim S49 ![] Cert.ReferenceIdeal.Gen.bcast_S_S49 (constant (F := Ideal) S0 .f32 0x3E99999A#32))) (mulf W kl)
      (broadcastInDim S49 ![] Cert.ReferenceIdeal.Gen.bcast_S_S49 (constant (F := Ideal) S0 .f32 0x00000000#32))
  shapeCast S1
    (Host.divf (Host.reduceAdd keep (constant (F := Ideal) S0 .f32 0x00000000#32) Cert.ReferenceIdeal.Gen.reducesTo_S49_S_d0 Cert.ReferenceIdeal.Gen.h_S_)
      (constant (F := Ideal) S0 .f32 0x42440000#32))
    Cert.ReferenceIdeal.Gen.shapeCasts_S_S1

/-- The two spellings of the loss are one function of the weight, the target and the population. -/
theorem ktail_eq (W : FVec Ideal S49 .f32) (q u : FVec Ideal S49x20000 .f32) :
    ktail (broadcastInDim S49x1 ![0] Cert.ReferenceIdeal.Gen.bcast_S49_S49x1_0 W) q u = htail W q u := by
  unfold ktail htail
  dsimp only
  rw [splat_eq (t := S49x20000) 0x00000000#32 ![] Cert.ReferenceIdeal.Gen.bcast_S_S49x20000,
    splat_eq (t := S49x20000) 0x3F800000#32 ![] Cert.ReferenceIdeal.Gen.bcast_S_S49x20000,
    rowsumcol49_eq,
    col_mulf ![0] rfl Cert.ReferenceIdeal.Gen.bcast_S49_S49x1_0,
    col_select_oge_splat ![0] rfl Cert.ReferenceIdeal.Gen.bcast_S49_S49x1_0 _ _ _ _ ![] Cert.ReferenceIdeal.Gen.bcast_S_S49,
    col_sum ![0] rfl Cert.ReferenceIdeal.Gen.bcast_S49_S49x1_0 _ reduces_S49x1_S1 Cert.ReferenceIdeal.Gen.reducesTo_S49_S_d0 Cert.ReferenceIdeal.Gen.h_S_ Cert.ReferenceIdeal.Gen.shapeCasts_S_S1,
    unit_divf_splat, log_eq_hostLog, log_eq_hostLog]

/-- The reference's loss is the host spelling at its own weight, target and population after five steps. -/
theorem ht80 (x0 : FVec Ideal S20000 .f32) (x1 : FVec Ideal S50x20000 .f32) :
    val_main_v80 (F := Ideal) x0 x1
      = htail (val_main_v24 (F := Ideal) x1) (val_main_v27 (F := Ideal) x1) (val_main_v61 (F := Ideal) x0 x1) := rfl

/-- The kernel's fitness loss is the reference's. -/
theorem floss_eq (x0 : FVec Ideal S20000 .f32) (x1 : FVec Ideal S50x20000 .f32) :
    k0_pay10 (F := Ideal) (k0_pay6 (F := Ideal) x1) (k0_pay7 (F := Ideal) x1) (k0_pay8 (F := Ideal) x1 x0) (k0_pay9 (F := Ideal) x1 x0)
      = Spec.floss x0 x1 := by
  have h : ∀ (v21 : FVec Ideal S49x1 .f32) (v23 v27 v45 : FVec Ideal S49x20000 .f32),
      k0_pay10 (F := Ideal) v21 v23 v27 v45 = ktail v21 v23 (kstep (kstep v45 v27) v27) := fun _ _ _ _ => rfl
  rw [h, pay6_eq x1, pay7_eq x1, pay8_eq x0 x1, pay9_eq x0 x1, kstep_eq, kstep_eq, ← hs55 x0 x1, ← hs61 x0 x1]
  unfold val_main_v25 Spec.floss
  rw [ktail_eq, ← ht80 x0 x1]

end Cert.KernelIdeal.Val

end
-- ==== Proof.ValR0.lean ====
/-
  Region 0 against the reference's run.

  The reference's run names its three results by composed terms of the argument arrays.  The fitness loss's term is
  the stage the kernel's value was shown equal to; the term of the logarithm of the predicted marginals contains the
  softmax of the rows as a subterm, and is, as written, the logarithm of (softmax · genotypes) / 2000 + 1e-10 with the
  softmax named: unfolding the name gives the run's term back.
-/
import proofs.«124721_j33767032881397_2_alg».proof.Proof.ValR0Fqm
import proofs.«124721_j33767032881397_2_alg».proof.Proof.ValR0Floss

noncomputable section

namespace Cert.KernelIdeal.Val

open Idealize.ShloMosaic Idealize.ShloMosaic.TcCoe Idealize.SL.Sem Cert.KernelIdeal

/-- The reference run's fitness loss is the specification at the launch contents of the fitness vector and the matrix. -/
theorem ref_floss (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v80 (F := Ideal) m' c
      = Spec.floss (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) :=
  Cert.ReferenceIdeal.Read.val_main_v80_eq m' c

set_option maxRecDepth 65536 in
/-- The reference run's logarithm of the predicted marginals, with the softmax of the rows named. -/
theorem ref_logpred (m' : (ℓ : Loc Cert.ReferenceIdeal.nD Cert.ReferenceIdeal.τ Cert.ReferenceIdeal.sig) → Buf (Elt Ideal) ℓ) (c : Dev Cert.ReferenceIdeal.nD) :
    Host.log (addf (Host.divf (Host.dotGeneral (φ₂ := .f32) Cert.ReferenceIdeal.dot_S50x20000_S20000x8000_S50x8000_1_0_0_1_n_n none (Host.divf
    (Host.exp (subf (m' ((c.tc : Thread Cert.ReferenceIdeal.nD Cert.ReferenceIdeal.τ).loc Cert.ReferenceIdeal.main_arg1))
    (broadcastInDim Cert.ReferenceIdeal.S50x20000 ![0, 1] Cert.ReferenceIdeal.Gen.bcast_S50x1_S50x20000_0_1 (broadcastInDim
    Cert.ReferenceIdeal.S50x1 ![0] Cert.ReferenceIdeal.Gen.bcast_S50_S50x1_0 (maximumf (broadcastInDim Cert.ReferenceIdeal.S50
    ![] Cert.ReferenceIdeal.Gen.bcast_S_S50 (constant Cert.ReferenceIdeal.S_ .f32 0xFF800000#32)) (Host.reduce FloatOps.maximumf
    (m' ((c.tc : Thread Cert.ReferenceIdeal.nD Cert.ReferenceIdeal.τ).loc Cert.ReferenceIdeal.main_arg1)) (constant
    Cert.ReferenceIdeal.S_ .f32 0xFF800000#32) Cert.ReferenceIdeal.Gen.reducesTo_S50x20000_S50_d1
    Cert.ReferenceIdeal.Gen.h_S_)))))) (broadcastInDim Cert.ReferenceIdeal.S50x20000 ![0, 1]
    Cert.ReferenceIdeal.Gen.bcast_S50x1_S50x20000_0_1 (broadcastInDim Cert.ReferenceIdeal.S50x1 ![0]
    Cert.ReferenceIdeal.Gen.bcast_S50_S50x1_0 (Host.reduceAdd (Host.exp (subf (m' ((c.tc : Thread Cert.ReferenceIdeal.nD
    Cert.ReferenceIdeal.τ).loc Cert.ReferenceIdeal.main_arg1)) (broadcastInDim Cert.ReferenceIdeal.S50x20000 ![0, 1]
    Cert.ReferenceIdeal.Gen.bcast_S50x1_S50x20000_0_1 (broadcastInDim Cert.ReferenceIdeal.S50x1 ![0]
    Cert.ReferenceIdeal.Gen.bcast_S50_S50x1_0 (maximumf (broadcastInDim Cert.ReferenceIdeal.S50 ![]
    Cert.ReferenceIdeal.Gen.bcast_S_S50 (constant Cert.ReferenceIdeal.S_ .f32 0xFF800000#32)) (Host.reduce FloatOps.maximumf (m'
    ((c.tc : Thread Cert.ReferenceIdeal.nD Cert.ReferenceIdeal.τ).loc Cert.ReferenceIdeal.main_arg1)) (constant
    Cert.ReferenceIdeal.S_ .f32 0xFF800000#32) Cert.ReferenceIdeal.Gen.reducesTo_S50x20000_S50_d1
    Cert.ReferenceIdeal.Gen.h_S_)))))) (constant Cert.ReferenceIdeal.S_ .f32 0x00000000#32)
    Cert.ReferenceIdeal.Gen.reducesTo_S50x20000_S50_d1 Cert.ReferenceIdeal.Gen.h_S_)))) (m' ((c.tc : Thread Cert.ReferenceIdeal.nD Cert.ReferenceIdeal.τ).loc Cert.ReferenceIdeal.main_arg2))) (broadcastInDim
    Cert.ReferenceIdeal.S50x8000 ![] Cert.ReferenceIdeal.Gen.bcast_S_S50x8000 (constant Cert.ReferenceIdeal.S_ .f32
    0x44FA0000#32))) (broadcastInDim Cert.ReferenceIdeal.S50x8000 ![] Cert.ReferenceIdeal.Gen.bcast_S_S50x8000 (constant
    Cert.ReferenceIdeal.S_ .f32 0x2EDBE6FF#32)))
      = Host.log (addf (Host.divf (Host.dotGeneral (φ₂ := .f32) Cert.ReferenceIdeal.dot_S50x20000_S20000x8000_S50x8000_1_0_0_1_n_n none
            (Spec.fqm (m' ((c.tc : Thread Cert.ReferenceIdeal.nD Cert.ReferenceIdeal.τ).loc Cert.ReferenceIdeal.main_arg1)))
            (m' ((c.tc : Thread Cert.ReferenceIdeal.nD Cert.ReferenceIdeal.τ).loc Cert.ReferenceIdeal.main_arg2)))
          (broadcastInDim S50x8000 ![] Cert.ReferenceIdeal.Facts₀.bcast_S_S50x8000 (constant Cert.ReferenceIdeal.S_ .f32 0x44FA0000#32)))
        (broadcastInDim S50x8000 ![] Cert.ReferenceIdeal.Facts₀.bcast_S_S50x8000 (constant Cert.ReferenceIdeal.S_ .f32 0x2EDBE6FF#32))) := rfl

end Cert.KernelIdeal.Val

end
-- ==== Proof.LibColumnTotal.lean ====
/-
  The sum down a column is the total of the vector, over the extended reals.

  A vector a of length M placed as an M × 1 column and summed along its rows — a lane-preserving reduction to a
  one-entry vector — is the host's reduction of a over its only axis, down to a scalar, carried as a one-entry vector:
  both are 0 + Σ_p a(p). The host's reduction to a scalar has no kept axis, so it is read as the total over the whole
  index type; a rank-1 index is its one coordinate. Generic in the length.
-/
import Idealize.ShloMosaic.PureOps.Ideal.Laws
import Idealize.ShloMosaic.Lib.ValueLayout
import proofs.«124721_j33767032881397_2_alg».proof.Proof.LibHostBroadcast

noncomputable section

open scoped BigOperators

namespace Cert.LibColumnTotal

open Idealize.ShloMosaic Idealize.ShloMosaic.ValueIdx

variable {M : ℕ}

/-- The scalar shape. -/
abbrev S0 : Shape := ⟨0, ![]⟩

/-- A sum over rank-1 indices is the sum over the coordinate. -/
theorem sum_idx1 {A : Type*} [AddCommMonoid A] {n : ℕ} (f : (⟨1, ![n]⟩ : Shape).Idx → A) :
    ∑ j : (⟨1, ![n]⟩ : Shape).Idx, f j = ∑ p : Fin n, f (ix1 p) := by
  refine Fintype.sum_equiv ⟨fun j => j 0, ix1, fun j => (eq_ix1 j).symm, fun _ => rfl⟩ f (fun p => f (ix1 p)) fun j => ?_
  exact congrArg f (eq_ix1 j)

/-- The sum down a column, kept as a one-entry vector, is the host's total of the vector carried as a one-entry vector. -/
theorem col_total (dims : Fin (⟨1, ![M]⟩ : Shape).rank → Fin (⟨2, ![M, 1]⟩ : Shape).rank) (hd : dims ⟨0, Nat.one_pos⟩ = ⟨0, Nat.succ_pos 1⟩)
    (hB : (⟨1, ![M]⟩ : Shape).BroadcastsInDim ⟨2, ![M, 1]⟩ dims) (a : FVec Ideal ⟨1, ![M]⟩ .f32)
    (hred : (⟨2, ![M, 1]⟩ : Shape).Reduces [(0 : Fin 2)] ⟨1, ![1]⟩)
    (hredT : (⟨1, ![M]⟩ : Shape).ReducesTo [(0 : Fin 1)] S0) (hu : 0 < S0.numel) (hc : S0.ShapeCasts ⟨1, ![1]⟩) :
    multiReduction .add [0] ⟨1, ![1]⟩ (broadcastInDim ⟨2, ![M, 1]⟩ dims hB a) 0x00000000#32 hred (.inl rfl) rfl
      = shapeCast ⟨1, ![1]⟩ (Host.reduceAdd a (constant (F := Ideal) S0 .f32 0x00000000#32) hredT hu) hc := by
  funext i
  refine (Ideal.multiReduction_add_total _ 0x00000000#32 hred (fun b => by match b with | ⟨0, _⟩ => rfl) (.inl rfl) rfl i).trans ?_
  unfold shapeCast
  simp only [Host.reduceAdd, Ideal.hostReduceAdd_def]
  rw [Ideal.hostReduceAdd_total hredT (fun b => b.elim0)]
  show _ = Ideal.ofBits .f32 0x00000000#32 + _
  rw [Ideal.ofBits_zero_f32, zero_add, sum_idx2, sum_idx1]
  refine Finset.sum_congr rfl fun p _ => ?_
  rw [Fin.sum_univ_one]
  exact Cert.LibHostBroadcast.bcast_a_a1_apply dims hd hB a p 0

end Cert.LibColumnTotal

end
-- ==== Proof.ValR0Sloss.lean ====
/-
  The skewness loss: the kernel's value is the reference's.

  From the softmax array p (50 rows of 20000) both programs take the mean of each row, m = (Σ_n p(i,n)) / 20000, kept
  as a column; the cube of the deviation d = p − m, the kernel as d·(d·d) and the host as (d·d)·d — one product of
  extended reals, which commute and associate; the mean of each row of cubes; the sum of the 50 means; its negation,
  the kernel as 0 − s and the host as −s; and the quotient by 50, carried as a one-entry vector. The kernel keeps the
  row means as a column throughout and sums down the column; the host keeps the mean of cubes as a vector. Each step is
  the same function of extended reals in the two layouts.
-/
import proofs.«124721_j33767032881397_2_alg».proof.Proof.ValR0Fqm
import proofs.«124721_j33767032881397_2_alg».proof.Proof.LibColumnTotal

noncomputable section

namespace Cert.KernelIdeal.Val

open Idealize.ShloMosaic Cert.KernelIdeal Cert.KernelIdeal.Gen Cert.ReferenceIdeal.Read Cert.LibLaneColumn

/-- The reference's skewness loss, as its stage of that name. -/
def Spec.sloss (x1 : FVec Ideal S50x20000 .f32) : FVec Ideal S1 .f32 := val_main_v95 (F := Ideal) x1

/-- The row means kept as a column: the kernel's spelling of the softmax array's row means is the host's. -/
theorem rowMeans_eq (x1 : FVec Ideal S50x20000 .f32) : k0_pay11 (F := Ideal) (val_main_v10 (F := Ideal) x1) = val_main_v84 (F := Ideal) x1 := by
  unfold k0_pay11
  dsimp only
  rw [rowSum_col (val_main_v10 (F := Ideal) x1) reduces_S50x20000_S50 shapeCasts_S50_S50x1 Cert.ReferenceIdeal.Gen.reducesTo_S50x20000_S50_d1 Cert.ReferenceIdeal.Gen.h_S_ ![0] rfl Cert.ReferenceIdeal.Gen.bcast_S50_S50x1_0,
    splat_eq (t := S50x1) 0x469C4000#32 ![] Cert.ReferenceIdeal.Gen.bcast_S_S50x1, divf_eq_hostDivf]
  rfl

/-- From the softmax array and its row means to the loss: cubes of deviations, their row means, the negated average. -/
theorem skewFromMeans_eq (x1 : FVec Ideal S50x20000 .f32) :
    k0_pay1 (F := Ideal) (val_main_v10 (F := Ideal) x1) (val_main_v84 (F := Ideal) x1) = val_main_v95 (F := Ideal) x1 := by
  unfold k0_pay1
  dsimp only
  rw [col_spread (M := 50) (N := 20000) (val_main_v84 (F := Ideal) x1) broadcasts_S50x1_S50x20000 ![0, 1] rfl Cert.ReferenceIdeal.Gen.bcast_S50x1_S50x20000_0_1,
    mulf_cube,
    rowSum_col _ reduces_S50x20000_S50 shapeCasts_S50_S50x1 Cert.ReferenceIdeal.Gen.reducesTo_S50x20000_S50_d1 Cert.ReferenceIdeal.Gen.h_S_ ![0] rfl Cert.ReferenceIdeal.Gen.bcast_S50_S50x1_0,
    col_divf_splat ![0] rfl Cert.ReferenceIdeal.Gen.bcast_S50_S50x1_0 _ _ ![] Cert.ReferenceIdeal.Gen.bcast_S_S50,
    Cert.LibColumnTotal.col_total ![0] rfl Cert.ReferenceIdeal.Gen.bcast_S50_S50x1_0 _ reduces_S50x1_S1 Cert.ReferenceIdeal.Gen.reducesTo_S50_S_d0 Cert.ReferenceIdeal.Gen.h_S_ Cert.ReferenceIdeal.Gen.shapeCasts_S_S1,
    unit_zero_subf, unit_divf_splat]
  rfl

/-- The kernel's skewness loss is the reference's. -/
theorem sloss_eq (x1 : FVec Ideal S50x20000 .f32) :
    k0_pay1 (F := Ideal) (k0_pay2 x1) (k0_pay11 (k0_pay2 x1)) = Spec.sloss x1 := by
  rw [show k0_pay2 (F := Ideal) x1 = val_main_v10 (F := Ideal) x1 from fqm_eq x1, rowMeans_eq, skewFromMeans_eq]
  rfl

/-- The reference's run names its skewness loss by this stage. -/
theorem ref_sloss (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v95 (F := Ideal) m' c
      = Spec.sloss (m' ((c.tc : Thread Cert.ReferenceIdeal.nD Cert.ReferenceIdeal.τ).loc Cert.ReferenceIdeal.main_arg1)) :=
  val_main_v95_eq m' c

end Cert.KernelIdeal.Val

end
-- ==== Proof.KernelValue.lean ====
/-
  The kernel's three results as functions of its arguments, on the extended reals.
  The log-marginals: region 1's scratch after point n is the accumulation, block by block, of the products of row block t
  of the transposed softmax with row block t of the genotype matrix, t = 0 … n; after the last point the output window
  takes log(scratch / 2000 + 1e-10), and that one write-back is the whole output array. The blocks are rows
  200t … 200t+199 of their arrays, the left array is the transposition of region 0's softmax array, and the softmax array
  is the softmax of the launched frequency matrix: so the result is the reference's log(softmax(fq) · G / 2000 + 1e-10).
  The two losses: what region 0's body left in its loss windows is the reference's terms of the launched arguments.
-/
import proofs.«124721_j33767032881397_2_alg».proof.Proof.FrameAll
import proofs.«124721_j33767032881397_2_alg».proof.Proof.Blocks1
import proofs.«124721_j33767032881397_2_alg».proof.Proof.FrameR1Out
import proofs.«124721_j33767032881397_2_alg».proof.Proof.ValR1
import proofs.«124721_j33767032881397_2_alg».proof.Proof.ValR0
import proofs.«124721_j33767032881397_2_alg».proof.Proof.ValR0Sloss

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

/-- The reference's log-marginals from a softmax array and the genotype matrix. -/
def logMarginals (X : FVec Ideal S50x20000 .f32) (B : FVec Ideal S20000x8000 .f32) : FVec Ideal S50x8000 .f32 :=
  Host.log (addf (Host.divf (Host.dotGeneral Cert.ReferenceIdeal.dot_S50x20000_S20000x8000_S50x8000_1_0_0_1_n_n none X B)
      (broadcastInDim S50x8000 ![] Cert.ReferenceIdeal.Facts₀.bcast_S_S50x8000 (constant Cert.ReferenceIdeal.S_ .f32 0x44FA0000#32)))
    (broadcastInDim S50x8000 ![] Cert.ReferenceIdeal.Facts₀.bcast_S_S50x8000 (constant Cert.ReferenceIdeal.S_ .f32 0x2EDBE6FF#32)))

section

variable (V : (c : Dev nD) → (b : Ref sig .tc) → Buf (Elt Ideal) ((c : Thread nD τ).loc b))

/-- Region 1's two input blocks as families over all naturals (zero past the grid, where nothing reads them). -/
def blkA (c : Dev nD) (t : ℕ) : FVec Ideal S200x50 .f32 := if h : t < cfg1.N then iblk1 V c 0 ⟨t, h⟩ else fun _ => 0
def blkB (c : Dev nD) (t : ℕ) : FVec Ideal S200x8000 .f32 := if h : t < cfg1.N then iblk1 V c 1 ⟨t, h⟩ else fun _ => 0

/-- The scratch after point n is the accumulation of the first n + 1 block products. -/
theorem acc1_eq_accum (c : Dev nD) : ∀ (n : ℕ) (h : n < cfg1.N), acc1 V c n h = accum (blkA V c) (blkB V c) n
  | 0, h => by
      rw [accum_zero]
      simp only [blkA, blkB, dif_pos h]
      rfl
  | n + 1, h => by
      rw [accum_succ, ← acc1_eq_accum c n (Nat.lt_of_succ_lt h)]
      simp only [blkA, blkB, dif_pos h]
      rfl

end

variable (m : (ℓ : Loc nD τ sig) → Buf (Elt Ideal) ℓ) (ρ : Dev nD → PrngReg)

/-- THE LOG-MARGINALS: region 1's output array is the reference's term of the launched frequency and genotype matrices. -/
theorem logpred_value (c : Dev nD) :
    (dat1 (E2 m ρ) c).arrAt 2 cfg1.N
      = logMarginals (Spec.fqm (m ((c.tc : Thread nD τ).loc main_arg1))) (m ((c.tc : Thread nD τ).loc main_arg2)) := by
  have hN : cfg1.N = 100 := N_1
  rw [arr1_2 (E2 m ρ) c, out1_2_eq, acc1_eq_accum]
  unfold logMarginals
  refine (logpred_eq (E1 m ρ c main_v0_0) (m ((c.tc : Thread nD τ).loc main_arg2)) _ _ ?_ ?_).trans ?_
  · intro t ht r k
    have h : t < cfg1.N := by rw [hN]; exact ht
    simp only [blkA, dif_pos h]
    unfold iblk1
    refine (blk1_0_apply c (E2 m ρ c main_v1) ⟨t, h⟩ r k ⟨200 * t + r.val, by omega⟩ rfl).trans ?_
    rw [E2_main_v1]
    exact transposed_apply _ _ _
  · intro t ht r j
    have h : t < cfg1.N := by rw [hN]; exact ht
    simp only [blkB, dif_pos h]
    unfold iblk1
    refine (blk1_1_apply c (E2 m ρ c main_arg2) ⟨t, h⟩ r j ⟨200 * t + r.val, by omega⟩ rfl).trans ?_
    rw [E2_main_arg2]
  · rw [softmax_array, out0_2_eq, fqm_eq]

/-- THE KERNEL'S RUN, READ: each result array at the reference's term of the launched arguments, the arguments unchanged. -/
theorem run : θ_run defs (onTc (τ := τ) (main (F := Ideal))) ⟨m, fun _ => 0, ρ⟩ (fun r => ∀ c : Dev nD,
      r.2.mem ((c.tc : Thread nD τ).loc main_v2) = logMarginals (Spec.fqm (m ((c.tc : Thread nD τ).loc main_arg1))) (m ((c.tc : Thread nD τ).loc main_arg2))
      ∧ r.2.mem ((c.tc : Thread nD τ).loc main_v0_1) = Spec.floss (m ((c.tc : Thread nD τ).loc main_arg0)) (m ((c.tc : Thread nD τ).loc main_arg1))
      ∧ r.2.mem ((c.tc : Thread nD τ).loc main_v0_2) = Spec.sloss (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans (logpred_value m ρ c),
     (h c).2.1.trans ((out0_3_eq _ _).trans (floss_eq _ _)),
     (h c).2.2.1.trans ((out0_4_eq _).trans (sloss_eq _)),
     (h c).2.2.2⟩) (Cert.KernelIdeal.Fr.results m ρ)

end Cert.KernelIdeal.Val

end
-- ==== Proof.lean ====
/-
  A two-kernel program against its jnp reference, on the extended reals.

  The program: a statistics kernel computes, from a frequency matrix fq [50, 20000] and a fitness vector, the row-wise
  softmax of fq, a replicator-dynamics loss (five normalised sub-steps between consecutive rows of the softmax, a
  Kullback–Leibler sum against the next row, weighted, thresholded, averaged over 49 row pairs) and a skewness loss
  (the negated mean over rows of the mean third central moment); the host transposes the softmax; a second kernel
  multiplies it with a genotype matrix [20000, 8000], 200 rows at a time over 100 grid points into a carried
  accumulator, and at the last point stores log(acc / 2000 + 1e-10).

  The reference computes the same three results with one whole matrix product.

  Why they agree, with no use of the inputs' finiteness: the statistics kernel performs the reference's operations in the
  reference's order, in another layout (sums kept as columns, the mask cast through 32-bit integers, 0 − x for −x,
  x·(x·x) for (x·x)·x), and every one of these spellings is the same function of extended reals; the accumulated product
  is the whole product because a finite sum over 20000 indices is the sum over 100 blocks of the sums over 200, in any
  additive commutative monoid, and the accumulator starts from zero.

  The frames: each program runs to the end, nothing faulting, its arguments unchanged — the two kernel programs by the
  run of their two regions and the transposition between them, the reference by its run read back.
-/
import proofs.«124721_j33767032881397_2_alg».proof.Defs
import proofs.«124721_j33767032881397_2_alg».proof.Proof.Gen.Kernel
import proofs.«124721_j33767032881397_2_alg».proof.Proof.Gen.KernelIdeal
import proofs.«124721_j33767032881397_2_alg».proof.Proof.Gen.ReferenceIdeal
import proofs.«124721_j33767032881397_2_alg».proof.Proof.Gen.Pre_finite_inputs
import proofs.«124721_j33767032881397_2_alg».proof.Proof.Gen.ReferenceIdeal.Read
import proofs.«124721_j33767032881397_2_alg».proof.Proof.KFrameAll
import proofs.«124721_j33767032881397_2_alg».proof.Proof.KernelValue

noncomputable section

namespace Cert.Proof

open Idealize.ShloMosaic Idealize.ShloMosaic.TcCoe Idealize.SL.Sem
open Cert.KernelIdeal.Val

/-- The word-level program runs, and its arguments end unchanged. -/
theorem frame_k : Cert.frame_Kernel := fun m ρ _ => Cert.Kernel.Fr.frame m ρ

/-- The idealized program runs, and its arguments end unchanged. -/
theorem frame_ki : Cert.frame_KernelIdeal := fun m ρ _ => Cert.KernelIdeal.Fr.frame m ρ

/-- The reference runs, and its arguments end unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- From memories agreeing on the arguments both programs end with the same three arrays: the reference's terms of the
    arguments (the kernel's run read in KernelValue; the reference's run read back and named). -/
theorem algebraic : Cert.algebraic_KernelIdeal_ReferenceIdeal := by
  intro m ρ m' ρ' _ hagree
  refine ⟨fun c => logMarginals (Spec.fqm (m ((c.tc : Thread Cert.KernelIdeal.nD Cert.KernelIdeal.τ).loc Cert.KernelIdeal.main_arg1)))
        (m ((c.tc : Thread Cert.KernelIdeal.nD Cert.KernelIdeal.τ).loc Cert.KernelIdeal.main_arg2)),
      fun c => Spec.floss (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Spec.sloss (m ((c.tc : Thread Cert.KernelIdeal.nD Cert.KernelIdeal.τ).loc Cert.KernelIdeal.main_arg1)),
      Cert.KernelIdeal.Val.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2⟩ := hagree c
  refine ⟨?_, ?_, ?_, hargs⟩
  · rw [h0, ref_logpred m' c, a1, a2]; rfl
  · rw [h1, ref_floss m' c, a0, a1]
  · rw [h2, ref_sloss m' c, a1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
